-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S512x256 .f32) (main_arg3 : FVec F S256 .f32) (main_arg4 : FVec F S256x128 .f32) (main_arg5 : FVec F S128 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S4096x256 : Shape := ⟨2, ![4096, 256]⟩
abbrev S512x512 : Shape := ⟨2, ![512, 512]⟩
abbrev S4096x128 : Shape := ⟨2, ![4096, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S512x256, .bf16⟩
  | .hbm, ⟨7, _⟩ => ⟨S256x128, .bf16⟩
  | .hbm, ⟨8, _⟩ => ⟨S1x256, .f32⟩
  | .hbm, ⟨9, _⟩ => ⟨S1x128, .f32⟩
  | .hbm, ⟨10, _⟩ => ⟨S4096x256, .bf16⟩
  | .hbm, ⟨11, _⟩ => ⟨S4096x128, .bf16⟩
  | .hbm, ⟨12, _⟩ => ⟨S4096x128, .f32⟩
  | .local _ .vmem, ⟨0, _⟩ => ⟨S512x512, .f32⟩
  | .local _ .vmem, ⟨1, _⟩ => ⟨S512x512, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x4096, .f32⟩
  | .local _ .vmem, ⟨6, _⟩ => ⟨S512x4096, .f32⟩
  | .local _ .vmem, ⟨7, _⟩ => ⟨S4096x256, .bf16⟩
  | .local _ .vmem, ⟨8, _⟩ => ⟨S1x256, .f32⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | .local _ .vmem, ⟨12, _⟩ => ⟨S512x4096, .f32⟩
  | .local _ .vmem, ⟨13, _⟩ => ⟨S512x4096, .f32⟩
  | .local _ .vmem, ⟨14, _⟩ => ⟨S4096x128, .bf16⟩
  | .local _ .vmem, ⟨15, _⟩ => ⟨S1x128, .f32⟩
  | .local _ .vmem, ⟨16, _⟩ => ⟨S512x128, .f32⟩
  | .local _ .vmem, ⟨17, _⟩ => ⟨S512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S256_S1x256 : S256.ShapeCasts S1x256
  shapeCasts_S128_S1x128 : S128.ShapeCasts S1x128
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  dot_S512x512_S512x256_S512x256_1_0_0_1_n_n_wf : DotDims.WF S512x512 S512x256 S512x256 [1] [0] [0] [1] [] []
  dot_S512x4096_S4096x256_S512x256_1_0_0_1_n_n_wf : DotDims.WF S512x4096 S4096x256 S512x256 [1] [0] [0] [1] [] []
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .bf16 = 32 ∨ (Rect.block (s := S4096x128) S512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .bf16 = 32 ∨ (Rect.block (s := S4096x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x128 : Shape := ⟨2, ![256, 128]⟩
abbrev S128 : Shape := ⟨1, ![128]⟩
abbrev S0 : Shape := ⟨1, ![0]⟩
abbrev S_ : Shape := ⟨0, ![]⟩
abbrev S1x256 : Shape := ⟨2, ![1, 256]⟩
abbrev S1 : Shape := ⟨1, ![1]⟩
abbrev S1x128 : Shape := ⟨2, ![1, 128]⟩
abbrev S4096x256 : Shape := ⟨2, ![4096, 256]⟩
abbrev S512x512 : Shape := ⟨2, ![512, 512]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S0, .i32⟩
  | .hbm, ⟨7, _⟩ => ⟨S0, .i32⟩
  | .hbm, ⟨8, _⟩ => ⟨S0, .i32⟩
  | .hbm, ⟨9, _⟩ => ⟨S0, .i32⟩
  | .hbm, ⟨10, _⟩ => ⟨S_, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S_, .bf16⟩
  | .hbm, ⟨15, _⟩ => ⟨S4096x4096, .bf16⟩
  | .hbm, ⟨16, _⟩ => ⟨S4096x4096, .bf16⟩
  | .hbm, ⟨17, _⟩ => ⟨S4096x4096, .bf16⟩
  | .hbm, ⟨18, _⟩ => ⟨S_, .bf16⟩
  | .hbm, ⟨19, _⟩ => ⟨S512x256, .bf16⟩
  | .hbm, ⟨20, _⟩ => ⟨S512x256, .bf16⟩
  | .hbm, ⟨21, _⟩ => ⟨S512x256, .bf16⟩
  | .hbm, ⟨22, _⟩ => ⟨S_, .bf16⟩
  | .hbm, ⟨23, _⟩ => ⟨S256x128, .bf16⟩
  | .hbm, ⟨24, _⟩ => ⟨S256x128, .bf16⟩
  | .hbm, ⟨25, _⟩ => ⟨S256x128, .bf16⟩
  | .hbm, ⟨26, _⟩ => ⟨S_, .f32⟩
  | .hbm, ⟨27, _⟩ => ⟨S1x256, .f32⟩
  | .hbm, ⟨28, _⟩ => ⟨S_, .i32⟩
  | .hbm, ⟨29, _⟩ => ⟨S1, .i32⟩
  | .hbm, ⟨30, _⟩ => ⟨S1x256, .f32⟩
  | .hbm, ⟨31, _⟩ => ⟨S_, .f32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S1x128, .f32⟩
  | .hbm, ⟨36, _⟩ => ⟨S4096x256, .bf16⟩
  | .hbm, ⟨37, _⟩ => ⟨S4096x256, .bf16⟩
  | .hbm, ⟨38, _⟩ => ⟨S4096x128, .bf16⟩
  | .hbm, ⟨39, _⟩ => ⟨S4096x128, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x512, .bf16⟩
  | .local _ .vmem, ⟨6, _⟩ => ⟨S512x512, .bf16⟩
  | .local _ .vmem, ⟨7, _⟩ => ⟨S512x256, .bf16⟩
  | .local _ .vmem, ⟨8, _⟩ => ⟨S512x256, .bf16⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .bf16⟩
  | .local _ .vmem, ⟨14, _⟩ => ⟨S512x256, .bf16⟩
  | .local _ .vmem, ⟨15, _⟩ => ⟨S256x128, .bf16⟩
  | .local _ .vmem, ⟨16, _⟩ => ⟨S512x128, .bf16⟩
  | .local _ .vmem, ⟨17, _⟩ => ⟨S512x128, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S1x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_3 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_6 : Ref sig .tc := ⟨.hbm, 26, rfl⟩
abbrev main_v12 : Ref sig .tc := ⟨.hbm, 27, rfl⟩
abbrev main_c_7 : Ref sig .tc := ⟨.hbm, 28, rfl⟩
abbrev main_v13 : Ref sig .tc := ⟨.hbm, 29, rfl⟩
abbrev main_v14 : Ref sig .tc := ⟨.hbm, 30, rfl⟩
abbrev main_cst_8 : Ref sig .tc := ⟨.hbm, 31, rfl⟩
abbrev main_v15 : Ref sig .tc := ⟨.hbm, 32, rfl⟩
abbrev main_c_9 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  hz_S0 : S0.numel = 0
  bcast_S_S4096x512 : S_.BroadcastsInDim S4096x512 (![] : Fin 0 → Fin S4096x512.rank)
  bitsLt_bf16_f32 : FTy.bits .bf16 < FTy.bits .f32
  bcast_S_S4096x4096 : S_.BroadcastsInDim S4096x4096 (![] : Fin 0 → Fin S4096x4096.rank)
  bcast_S_S512x256 : S_.BroadcastsInDim S512x256 (![] : Fin 0 → Fin S512x256.rank)
  bcast_S_S256x128 : S_.BroadcastsInDim S256x128 (![] : Fin 0 → Fin S256x128.rank)
  bcast_S_S1x256 : S_.BroadcastsInDim S1x256 (![] : Fin 0 → Fin S1x256.rank)
  bcast_S_S1 : S_.BroadcastsInDim S1 (![] : Fin 0 → Fin S1.rank)
  bcast_S_S1x128 : S_.BroadcastsInDim S1x128 (![] : Fin 0 → Fin S1x128.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  iota_S512x128_d1_w32 : S512x128.Iotas .tc 32 [1]
  reduces_S512x128_S512 : S512x128.Reduces [1] S512
  shapeCasts_S512_S512x1 : S512.ShapeCasts S512x1
  broadcasts_S512x1_S512x128 : S512x1.Broadcasts S512x128
  scatter_S4096x512_S0_S4096x512_01_n_n_0_wf : ScatterDims.WF S4096x512 S0 S4096x512 [0, 1] [] [] 0
  scatter_S4096x4096_S0_S4096x4096_01_n_n_0_wf : ScatterDims.WF S4096x4096 S0 S4096x4096 [0, 1] [] [] 0
  scatter_S512x256_S0_S512x256_01_n_n_0_wf : ScatterDims.WF S512x256 S0 S512x256 [0, 1] [] [] 0
  scatter_S256x128_S0_S256x128_01_n_n_0_wf : ScatterDims.WF S256x128 S0 S256x128 [0, 1] [] [] 0
  scatter_S1x256_S1_S256_0_0_0_0_wf : ScatterDims.WF S1x256 S1 S256 [0] [0] [0] 0
  scatter_S1x128_S1_S128_0_0_0_0_wf : ScatterDims.WF S1x128 S1 S128 [0] [0] [0] 0
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .bf16 = 32 ∨ (Rect.block (s := S4096x4096) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .bf16 = 32 ∨ (Rect.block (s := S4096x256) S512x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .bf16 = 32 ∨ (Rect.block (s := S4096x256) S512x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .bf16 = 32 ∨ (Rect.block (s := S4096x256) S512x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S4096x128.size a
  hwx2_2 : ∀ i : grid2.Coords, EltTy.bits .bf16 = 32 ∨ (Rect.block (s := S4096x128) S512x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S4096x4096.size a
  hwx3_0 : ∀ i : grid3.Coords, EltTy.bits .bf16 = 32 ∨ (Rect.block (s := S4096x4096) S512x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S4096x128.size a
  hwx3_1 : ∀ i : grid3.Coords, EltTy.bits .bf16 = 32 ∨ (Rect.block (s := S4096x128) S512x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S4096x128.size a
  hwx3_3 : ∀ i : grid3.Coords, EltTy.bits .f32 = 32 ∨ (Rect.block (s := S4096x128) S512x128.size (cc3_transform_3 i) (hinb3_3 i)).WholeWords (EltTy.packing .f32)

variable [Facts₀]

def scatter_S4096x512_S0_S4096x512_01_n_n_0 : ScatterDims S4096x512 S0 S4096x512 where
  updateWindowDims := [0, 1]
  insertedWindowDims := []
  scatterDimsToOperandDims := []
  indexVectorDim := 0
  wf := scatter_S4096x512_S0_S4096x512_01_n_n_0_wf
def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def scatter_S512x256_S0_S512x256_01_n_n_0 : ScatterDims S512x256 S0 S512x256 where
  updateWindowDims := [0, 1]
  insertedWindowDims := []
  scatterDimsToOperandDims := []
  indexVectorDim := 0
  wf := scatter_S512x256_S0_S512x256_01_n_n_0_wf
def scatter_S256x128_S0_S256x128_01_n_n_0 : ScatterDims S256x128 S0 S256x128 where
  updateWindowDims := [0, 1]
  insertedWindowDims := []
  scatterDimsToOperandDims := []
  indexVectorDim := 0
  wf := scatter_S256x128_S0_S256x128_01_n_n_0_wf
def scatter_S1x256_S1_S256_0_0_0_0 : ScatterDims S1x256 S1 S256 where
  updateWindowDims := [0]
  insertedWindowDims := [0]
  scatterDimsToOperandDims := [0]
  indexVectorDim := 0
  wf := scatter_S1x256_S1_S256_0_0_0_0_wf
def scatter_S1x128_S1_S128_0_0_0_0 : ScatterDims S1x128 S1 S128 where
  updateWindowDims := [0]
  insertedWindowDims := [0]
  scatterDimsToOperandDims := [0]
  indexVectorDim := 0
  wf := scatter_S1x128_S1_S128_0_0_0_0_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v19) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S512x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S512x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== Proof.Spec.lean ====
/-
  The function both programs compute, stated once over the six argument arrays.

  A two-layer graph convolution with a log-softmax head:
    s1  = x · W1                       (4096 × 256)
    hid = max (adj · s1 + b1, 0)       (4096 × 256)
    s2  = hid · W2                     (4096 × 128)
    lg  = adj · s2 + b2                (4096 × 128)
    out = lg − rowmax lg − log (Σ exp (lg − rowmax lg))   row by row.
  Everything up to the logits lg is written entry by entry as finite sums of extended reals.  The last step is
  applied to a slab of 512 consecutive rows at a time as one vector function lsm of the slab; the result's row
  512·t + r is row r of lsm applied to slab t.  Both programs compute their result slab by slab with this same
  vector function, so it is never opened: only its argument, the slab of logits, is compared.

  The one law needed between the two programs is regrouping: a sum over 4096 indices taken as eight consecutive
  partial sums of 512 (starting from zero) is the whole sum.  Addition of extended reals is commutative and
  associative, so the law holds without any finiteness assumption.
-/
import Idealize.ShloMosaic.PureOps.Ideal
import Idealize.ShloMosaic.PureOps.Ideal.Laws
import Idealize.ShloMosaic.Lib.ValueIdx

noncomputable section

open scoped BigOperators

namespace Cert.GcnSpec

open Idealize.ShloMosaic Idealize.ShloMosaic.ValueIdx

abbrev Sx : Shape := ⟨2, ![4096, 512]⟩
abbrev Sadj : Shape := ⟨2, ![4096, 4096]⟩
abbrev Sw1 : Shape := ⟨2, ![512, 256]⟩
abbrev Sb1 : Shape := ⟨1, ![256]⟩
abbrev Sw2 : Shape := ⟨2, ![256, 128]⟩
abbrev Sb2 : Shape := ⟨1, ![128]⟩
abbrev Sout : Shape := ⟨2, ![4096, 128]⟩
abbrev Sslab : Shape := ⟨2, ![512, 128]⟩
abbrev Scol : Shape := ⟨1, ![512]⟩
abbrev Scol1 : Shape := ⟨2, ![512, 1]⟩

section Entries

variable (x : FVec Ideal Sx .f32) (adj : FVec Ideal Sadj .f32) (w1 : FVec Ideal Sw1 .f32) (b1 : FVec Ideal Sb1 .f32)
  (w2 : FVec Ideal Sw2 .f32) (b2 : FVec Ideal Sb2 .f32)

/-- Entry (r, c) of x · W1. -/
def s1At (r : Fin 4096) (c : Fin 256) : EReal := ∑ k : Fin 512, x (ix2 r k) * w1 (ix2 k c)

/-- Entry (r, c) of max (adj · s1 + b1, 0). -/
def hidAt (r : Fin 4096) (c : Fin 256) : EReal :=
  max ((∑ j : Fin 4096, adj (ix2 r j) * s1At x w1 j c) + b1 (ix1 c)) (Ideal.ofBits .f32 0x00000000#32)

/-- Entry (r, c) of hid · W2. -/
def s2At (r : Fin 4096) (c : Fin 128) : EReal := ∑ k : Fin 256, hidAt x adj w1 b1 r k * w2 (ix2 k c)

/-- Entry (r, c) of the logits adj · s2 + b2. -/
def logitAt (r : Fin 4096) (c : Fin 128) : EReal :=
  (∑ j : Fin 4096, adj (ix2 r j) * s2At x adj w1 b1 w2 j c) + b2 (ix1 c)

end Entries

/-! ## The log-softmax of a slab of 512 rows, as one vector function -/

theorem reduces_slab : Sslab.Reduces [1] Scol := by decide
theorem casts_col : Scol.ShapeCasts Scol1 := by decide
theorem bcast_col : Scol1.Broadcasts Sslab := by decide

/-- Row-wise log-softmax of a 512 × 128 slab: subtract the row maximum, then the logarithm of the row sum of the
    exponentials. -/
def lsm (L : FVec Ideal Sslab .f32) : FVec Ideal Sslab .f32 :=
  have mx : FVec Ideal Scol .f32 := multiReduction .maximumf [1] Scol L 0xFF800000#32 reduces_slab (.inl rfl) rfl
  have mx1 : FVec Ideal Scol1 .f32 := shapeCast Scol1 mx casts_col
  have sh : FVec Ideal Sslab .f32 := subf L (broadcastTo Sslab mx1 bcast_col)
  have se : FVec Ideal Scol .f32 := multiReduction .add [1] Scol (exp sh) 0x00000000#32 reduces_slab (.inl rfl) rfl
  have se1 : FVec Ideal Scol1 .f32 := shapeCast Scol1 se casts_col
  subf sh (broadcastTo Sslab (log se1) bcast_col)

/-! ## Rows in slabs -/

/-- Row r of slab t. -/
def rowOf (t : Fin 8) (r : Fin 512) : Fin 4096 := ⟨512 * t.val + r.val, by omega⟩

theorem rowOf_val (t : Fin 8) (r : Fin 512) : (rowOf t r).val = 512 * t.val + r.val := rfl

section Result

variable (x : FVec Ideal Sx .f32) (adj : FVec Ideal Sadj .f32) (w1 : FVec Ideal Sw1 .f32) (b1 : FVec Ideal Sb1 .f32)
  (w2 : FVec Ideal Sw2 .f32) (b2 : FVec Ideal Sb2 .f32)

/-- Slab t of the logits. -/
def logitSlab (t : Fin 8) : FVec Ideal Sslab .f32 := fun y => logitAt x adj w1 b1 w2 b2 (rowOf t (y 0)) (y 1)

/-- Slab t of the result. -/
def outSlab (t : Fin 8) : FVec Ideal Sslab .f32 := lsm (logitSlab x adj w1 b1 w2 b2 t)

/-- The result array. -/
def out : FVec Ideal Sout .f32 := fun i =>
  outSlab x adj w1 b1 w2 b2 ⟨(i 0).val / 512, by have h : (i 0).val < 4096 := (i 0).isLt; omega⟩
    (ix2 (⟨(i 0).val % 512, Nat.mod_lt _ (by norm_num)⟩ : Fin 512) (i 1))

/-- The result at row r of slab t. -/
theorem out_at (t : Fin 8) (r : Fin 512) (c : Fin 128) :
    out x adj w1 b1 w2 b2 (ix2 (rowOf t r) c) = outSlab x adj w1 b1 w2 b2 t (ix2 r c) := by
  have h1 : (512 * t.val + r.val) / 512 = t.val := by have := r.isLt; omega
  have h2 : (512 * t.val + r.val) % 512 = r.val := by have := r.isLt; omega
  unfold out
  have e1 : (⟨((ix2 (rowOf t r) c : Sout.Idx) 0).val / 512, by have h : ((ix2 (rowOf t r) c : Sout.Idx) 0).val < 4096 := ((ix2 (rowOf t r) c : Sout.Idx) 0).isLt; omega⟩ : Fin 8) = t :=
    Fin.ext h1
  have e2 : (⟨((ix2 (rowOf t r) c : Sout.Idx) 0).val % 512, Nat.mod_lt _ (by norm_num)⟩ : Fin 512) = r := Fin.ext h2
  rw [e1, e2]

end Result

/-! ## Regrouping a sum of 4096 terms into eight partial sums of 512 -/

/-- The sum of the first n slabs' partial sums, accumulated from zero one slab at a time. -/
def accUpTo (f : Fin 4096 → EReal) : (n : ℕ) → n ≤ 8 → EReal
  | 0, _ => 0
  | n + 1, h => accUpTo f n (Nat.le_of_succ_le h) + ∑ j : Fin 512, f (rowOf ⟨n, h⟩ j)

theorem sum_slabs (f : Fin 4096 → EReal) : ∑ t : Fin 8, ∑ j : Fin 512, f (rowOf t j) = ∑ i : Fin 4096, f i := by
  rw [← Finset.sum_product' (f := fun t j => f (rowOf t j))]
  refine Fintype.sum_equiv (finProdFinEquiv (m := 8) (n := 512)) _ _ fun p => ?_
  refine congrArg f (Fin.ext ?_)
  simp [rowOf, finProdFinEquiv, Nat.add_comm]

theorem accUpTo_eq (f : Fin 4096 → EReal) (n : ℕ) (h : n ≤ 8) :
    accUpTo f n h = ∑ t : Fin n, ∑ j : Fin 512, f (rowOf ⟨t.val, lt_of_lt_of_le t.isLt h⟩ j) := by
  induction n with
  | zero => simp [accUpTo]
  | succ n ih =>
    rw [accUpTo, ih (Nat.le_of_succ_le h)]
    exact (Fin.sum_univ_castSucc (fun t : Fin (n + 1) => ∑ j : Fin 512, f (rowOf ⟨t.val, lt_of_lt_of_le t.isLt h⟩ j))).symm

/-- Eight partial sums accumulated from zero are the whole sum. -/
theorem accUpTo_all (f : Fin 4096 → EReal) : accUpTo f 8 le_rfl = ∑ i : Fin 4096, f i := by
  rw [accUpTo_eq, ← sum_slabs]

end Cert.GcnSpec

end
-- ==== Proof.KRun.lean ====
/-
  The run of the three-region program, with the result array named.

  The generated frame run ends in the thread state "every unscoped buffer holds the last boundary's contents".
  Its stated post keeps only the six argument arrays.  Here the same run is read once more at the result buffer:
  it holds what the third region's write-backs leave in its output array, the fold of the eight flushed blocks
  over the contents the region was entered with.
-/
import proofs.«180427_g2000709331088930_pallasbulk_708_2_alg».proof.Proof.Gen.KernelIdeal.Frame

set_option maxRecDepth 16384

noncomputable section

namespace Cert.KernelSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the last boundary is the third region's output array after its eight write-backs. -/
theorem W4_result (c : Dev nD) :
    W4 m ρ c (Proc.devRef .tc main_v6) = (dat2 (V3 m ρ) c).arrAt 3 cfg2.N :=
  W4_arr m ρ c 3

set_option backward.isDefEq.respectTransparency.types false in
/-- The run: it terminates, the result buffer holds the third region's output array after its write-backs, and the
    six argument arrays are as launched. -/
theorem run_arr : θ_run defs (onTc (τ := τ) (main (F := F))) ⟨m, fun _ => 0, ρ⟩ (fun r => ∀ c : Dev nD,
      r.2.mem ((c.tc : Thread nD τ).loc main_v6) = (dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v6 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelSide

end
-- ==== Proof.KHost.lean ====
/-
  The host operations before the first region, read at the buffers the regions take.

  Before the first region the program converts W1 and W2 to the narrow float format and reshapes the bias vectors
  b1 and b2 into one-row matrices.  At the ideal values a conversion is the identity, and a vector of n entries
  reshaped to 1 × n has at (0, k) the vector's entry k.  The arrays x and adj are not written by any of these
  operations.
-/
import proofs.«180427_g2000709331088930_pallasbulk_708_2_alg».proof.Proof.Gen.KernelIdeal.Frame
import Idealize.ShloMosaic.Lib.Pipeline.Value
import Idealize.ShloMosaic.Lib.ValueLayout
import Idealize.ShloMosaic.Lib.ValueIdx

set_option maxRecDepth 16384

noncomputable section

namespace Cert.KernelSide

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- x is as launched when the first region is entered. -/
theorem V1_main_arg0 (c : Dev nD) : V1 m ρ c main_arg0 = m ((c : Thread nD τ).loc main_arg0) := by
  show StableHlo.after hostOps0 (W0 m ρ c) (Proc.devRef .tc main_arg0) = _
  after_results

/-- adj is as launched when the first region is entered. -/
theorem V1_main_arg1 (c : Dev nD) : V1 m ρ c main_arg1 = m ((c : Thread nD τ).loc main_arg1) := by
  show StableHlo.after hostOps0 (W0 m ρ c) (Proc.devRef .tc main_arg1) = _
  after_results

/-- The converted W1 is W1. -/
theorem V1_main_v0 (c : Dev nD) :
    (V1 m ρ c main_v0 : S512x256.Idx → EReal) = (m ((c : Thread nD τ).loc main_arg2) : S512x256.Idx → EReal) := by
  show StableHlo.after hostOps0 (W0 m ρ c) (Proc.devRef .tc main_v0) = _
  after_results
  rfl

/-- The converted W2 is W2. -/
theorem V1_main_v1 (c : Dev nD) :
    (V1 m ρ c main_v1 : S256x128.Idx → EReal) = (m ((c : Thread nD τ).loc main_arg4) : S256x128.Idx → EReal) := by
  show StableHlo.after hostOps0 (W0 m ρ c) (Proc.devRef .tc main_v1) = _
  after_results
  rfl

/-- The one-row matrix made of b1 has b1's entry k at (0, k). -/
theorem V1_main_v2 (c : Dev nD) (k : Fin 256) :
    (V1 m ρ c main_v2 : S1x256.Idx → EReal) (ix2 (0 : Fin 1) k) = (m ((c : Thread nD τ).loc main_arg3) : S256.Idx → EReal) (ix1 k) := by
  have e : (V1 m ρ c main_v2 : S1x256.Idx → EReal)
      = shapeCast S1x256 (m ((c : Thread nD τ).loc main_arg3) : S256.Idx → EReal) shapeCasts_S256_S1x256 := by
    show StableHlo.after hostOps0 (W0 m ρ c) (Proc.devRef .tc main_v2) = _
    after_results
    rfl
  rw [e]
  exact shapeCast_a_1a_apply _ _ 0 k

/-- The one-row matrix made of b2 has b2's entry k at (0, k). -/
theorem V1_main_v3 (c : Dev nD) (k : Fin 128) :
    (V1 m ρ c main_v3 : S1x128.Idx → EReal) (ix2 (0 : Fin 1) k) = (m ((c : Thread nD τ).loc main_arg5) : S128.Idx → EReal) (ix1 k) := by
  have e : (V1 m ρ c main_v3 : S1x128.Idx → EReal)
      = shapeCast S1x128 (m ((c : Thread nD τ).loc main_arg5) : S128.Idx → EReal) shapeCasts_S128_S1x128 := by
    show StableHlo.after hostOps0 (W0 m ρ c) (Proc.devRef .tc main_v3) = _
    after_results
    rfl
  rw [e]
  exact shapeCast_a_1a_apply _ _ 0 k

end Cert.KernelSide

end
-- ==== Proof.KDot.lean ====
/-
  A matrix product into a zero accumulator, read at an entry.

  For a product of an a × k by a k × b matrix (the left operand's axis 1 contracted against the right operand's
  axis 0, no batch axis) accumulated into the zero splat, entry (p, q) of the result is the sum over the
  contracted coordinate c of A (p, c) · B (c, q): at the ideal values nothing is rounded and no order of
  summation is left in it.  The contraction's index set has one axis; the sum is re-indexed by its coordinate.
-/
import Idealize.ShloMosaic.PureOps.Ideal
import Idealize.ShloMosaic.PureOps.Ideal.Laws
import Idealize.ShloMosaic.Lib.ValueIdx

noncomputable section

open scoped BigOperators

namespace Cert.KernelSide

open Idealize.ShloMosaic Idealize.ShloMosaic.ValueIdx

/-- Entry (p, q) of an a × k by k × b product into the zero accumulator. -/
theorem matmul_zero_apply {a k b : Nat} {φ₁ φ₂ : FTy}
    (w : DotDims.WF ⟨2, ![a, k]⟩ ⟨2, ![k, b]⟩ ⟨2, ![a, b]⟩ [1] [0] [0] [1] [] [])
    (prec : Option ContractPrecision) (A : FVec Ideal ⟨2, ![a, k]⟩ φ₁) (B : FVec Ideal ⟨2, ![k, b]⟩ φ₂)
    (p : Fin a) (q : Fin b) :
    matmul (F := Ideal) (⟨[1], [0], [0], [1], [], [], w⟩ : DotDims _ _ _) prec A B
        (constant (F := Ideal) ⟨2, ![a, b]⟩ .f32 0x00000000#32) (ix2 p q)
      = ∑ c : Fin k, A (ix2 p c) * B (ix2 c q) := by
  show FloatOps.matmul _ prec A B _ (ix2 p q) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![a, k]⟩ ⟨2, ![k, b]⟩ ⟨2, ![a, b]⟩) k rfl rfl c
  have l2 : (⟨[1], [0], [0], [1], [], [], w⟩ : DotDims ⟨2, ![a, k]⟩ ⟨2, ![k, b]⟩ ⟨2, ![a, b]⟩).lhsIdx (ix2 p q)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, k]⟩ ⟨2, ![k, b]⟩ ⟨2, ![a, b]⟩).rhsIdx (ix2 p q)
      ((contrEquiv1 _ k rfl rfl).symm c) = ix2 c q := by
    funext ax; apply Fin.ext
    match ax with
    | ⟨0, _⟩ => simp [DotDims.rhsIdx]; exact c2
    | ⟨1, _⟩ => simp [DotDims.rhsIdx]; rfl
  rw [l2, r2]

end Cert.KernelSide

end
-- ==== Proof.KPay0.lean ====
/-
  The first region's arithmetic at an entry.

  The body multiplies its 512 × 512 block of x by the whole 512 × 256 matrix W1 into a zero accumulator.  At the
  ideal values the format changes around the product are the identity and the cast of a matrix to its own shape
  changes nothing, so entry (p, q) of what is stored is the sum over k of x-block (p, k) · W1 (k, q).
-/
import proofs.«180427_g2000709331088930_pallasbulk_708_2_alg».proof.Proof.Gen.KernelIdeal.Skeleton
import proofs.«180427_g2000709331088930_pallasbulk_708_2_alg».proof.Proof.KDot
import proofs.«180427_g2000709331088930_pallasbulk_708_2_alg».proof.Proof.Spec
import Idealize.ShloMosaic.Lib.Pipeline.Value
import Idealize.ShloMosaic.Lib.ValueLayout

set_option maxRecDepth 16384

noncomputable section

open scoped BigOperators

namespace Cert.KernelSide

open Cert.KernelIdeal Cert.KernelIdeal.Gen
open Idealize.ShloMosaic Idealize.ShloMosaic.ValueIdx

/-- Entry (p, q) of the first region's stored block. -/
theorem pay0_apply (v0 : Vec Ideal S512x512 .f32) (v2 : Vec Ideal S512x256 .bf16) (p : Fin 512) (q : Fin 256) :
    k0_pay1 v0 v2 (ix2 p q) = ∑ k : Fin 512, v0 (ix2 p k) * v2 (ix2 k q) := by
  unfold k0_pay1
  refine (matmul_zero_apply dot_S512x512_S512x256_S512x256_1_0_0_1_n_n_wf none
    (truncf .bf16 v0 bitsLt_bf16_f32) (shapeCast S512x256 v2 shapeCasts_S512x256_S512x256) p q).trans ?_
  rw [shapeCast_self]
  rfl

/-- The same at any index of the block. -/
theorem pay0_at (v0 : Vec Ideal S512x512 .f32) (v2 : Vec Ideal S512x256 .bf16) (y : S512x256.Idx) :
    k0_pay1 v0 v2 y = ∑ k : Fin 512, v0 (ix2 (y 0 : Fin 512) k) * v2 (ix2 k (y 1 : Fin 256)) := by
  obtain ⟨p, q, rfl⟩ : ∃ (p : Fin 512) (q : Fin 256), y = ix2 p q := ⟨y 0, y 1, eq_ix2 y⟩
  exact pay0_apply v0 v2 p q

end Cert.KernelSide

end
-- ==== Proof.KReg0.lean ====
/-
  The first region's output array, from its blocks.

  The grid has eight points.  At point t the region reads rows 512·t … 512·t + 511 of x (a 512 × 512 block) and the
  whole 512 × 256 matrix W1, and writes rows 512·t … 512·t + 511 of its 4096 × 256 output.  What it writes at block
  entry (p, q) is Σ_k x-block (p, k) · W1 (k, q), and the x-block's entry (p, k) is x (512·t + p, k); so the block
  written at point t is the block at t of the one function  s1 (i, j) = Σ_k x (i, k) · W1 (k, j)  of the contents
  the region is entered with.  Row r lies in the block of point r / 512, so the eight blocks cover the array and
  it ends holding s1.
-/
import proofs.«180427_g2000709331088930_pallasbulk_708_2_alg».proof.Proof.Gen.KernelIdeal.Frame
import proofs.«180427_g2000709331088930_pallasbulk_708_2_alg».proof.Proof.KPay0
import Idealize.ShloMosaic.Lib.Pipeline.Value
import Idealize.ShloMosaic.Lib.ValueIdx

set_option maxRecDepth 16384

noncomputable section

open scoped BigOperators

namespace Cert.KernelSide

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The product of a 4096 × 512 by a 512 × 256 matrix, entry by entry. -/
def prod0 (x : S4096x512.Idx → EReal) (w : S512x256.Idx → EReal) : S4096x256.Idx → EReal := fun i =>
  ∑ k : Fin 512, x (ix2 (i 0 : Fin 4096) k) * w (ix2 k (i 1 : Fin 256))

/-- s1 = x · W1 over the contents the region is entered with. -/
def G0 (c : Dev nD) : S4096x256.Idx → EReal := prod0 (V c main_arg0) (V c main_v0)

/-- The printed index maps over the grid: the x window and the output window are at block (t, 0), the W1 window at
    block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x window's block at point t holds rows 512·t … of x. -/
theorem iblk0_0_apply (c : Dev nD) (t : Fin cfg0.N) (y : S512x512.Idx) (i : S4096x512.Idx)
    (h0 : (i 0).val = 512 * t.val + (y 0).val) (h1 : (i 1).val = (y 1).val) :
    (iblk0 V c 0 t : S512x512.Idx → EReal) y = (V c main_arg0 : S4096x512.Idx → EReal) i := by
  obtain ⟨e0, e1, -⟩ := idx0 t
  show (V c main_arg0 : S4096x512.Idx → EReal) (((cfg0.win 0).blk t).view.emb y) = _
  refine congrArg (V c main_arg0 : S4096x512.Idx → EReal) (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 512 + 1 * (y 1).val = (i 1).val; rw [e1, h1]; omega

/-- The W1 window's block at every point is all of W1. -/
theorem iblk0_1_apply (c : Dev nD) (t : Fin cfg0.N) (y : S512x256.Idx) :
    (iblk0 V c 1 t : S512x256.Idx → EReal) y = (V c main_v0 : S512x256.Idx → EReal) y := by
  obtain ⟨-, -, e2, e3, -⟩ := idx0 t
  show (V c main_v0 : S512x256.Idx → EReal) (((cfg0.win 1).blk t).view.emb y) = _
  refine congrArg (V c main_v0 : S512x256.Idx → EReal) (funext fun a => Fin.ext ?_)
  match a with
  | ⟨0, _⟩ => show win0_1.index t (0 : Fin 2) * 512 + 1 * (y 0).val = (y 0).val; rw [e2]; omega
  | ⟨1, _⟩ => show win0_1.index t (1 : Fin 2) * 256 + 1 * (y 1).val = (y 1).val; rw [e3]; omega

/-- What point t writes back is the block at t of s1. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S512x512) hz0, View.ld_unit_zero (S := S512x256) hz0]
  obtain ⟨-, -, -, -, e4, e5⟩ := idx0 t
  funext y
  show k0_pay1 (iblk0 V c 0 t) (iblk0 V c 1 t) y = G0 V c (((cfg0.win 2).blk t).view.emb y)
  refine (pay0_at (iblk0 V c 0 t) (iblk0 V c 1 t) y).trans ?_
  unfold G0 prod0
  refine Finset.sum_congr rfl fun k _ => ?_
  refine congrArg₂ (· * ·) ?_ ?_
  · refine iblk0_0_apply V c t _ _ ?_ rfl
    show win0_2.index t (0 : Fin 2) * 512 + 1 * (y 0).val = 512 * t.val + (y 0).val
    rw [e4]; omega
  · refine (iblk0_1_apply V c t _).trans ?_
    refine congrArg (V c main_v0 : S512x256.Idx → EReal) (funext fun a => Fin.ext ?_)
    match a with
    | ⟨0, _⟩ => rfl
    | ⟨1, _⟩ => show (y 1).val = win0_2.index t (1 : Fin 2) * 256 + 1 * (y 1).val; rw [e5]; omega

/-- An index of the output array is in point t's block iff each coordinate is in the block's range on its axis. -/
theorem mem_blk0 (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v4).slice (win0_2.rect t)).set ↔ _
  rw [View.set_slice_whole, Rect.mem_set_unit]
  exact Iff.rfl

/-- Row r is in the block of point r / 512: the eight blocks cover the output array. -/
theorem cover0 (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 256 ≤ (i 1).val ∧ (i 1).val < win0_2.index t (1 : Fin 2) * 256 + 256
    rw [e5]; omega

/-- The first region's output array ends holding s1. -/
theorem final0 (c : Dev nD) : (dat0 V c).arrAt 2 cfg0.N = G0 V c :=
  (dat0 V c).arrAt_eq_of_cover 2 (G0 V c) (fun t _ => flushed0_eq V c t) cover0

end Cert.KernelSide

end
-- ==== Proof.KPay1.lean ====
/-
  The second region's arithmetic at an entry.

  The body multiplies its 512 × 4096 block of adj by the whole 4096 × 256 matrix s1 into a zero accumulator, adds
  the bias row b1 to every row, takes the maximum with zero, and multiplies the result by the whole 256 × 128
  matrix W2 into a zero accumulator.  At the ideal values the format changes are the identity, so entry (p, q)
  of what is stored is the sum over k of  max (Σ_j adj-block (p, j) · s1 (j, k) + b1 (0, k), 0) · W2 (k, q).
-/
import proofs.«180427_g2000709331088930_pallasbulk_708_2_alg».proof.Proof.Gen.KernelIdeal.Skeleton
import proofs.«180427_g2000709331088930_pallasbulk_708_2_alg».proof.Proof.KDot
import proofs.«180427_g2000709331088930_pallasbulk_708_2_alg».proof.Proof.Spec
import Idealize.ShloMosaic.Lib.Pipeline.Value
import Idealize.ShloMosaic.Lib.ValueLayout

set_option maxRecDepth 16384

noncomputable section

open scoped BigOperators

namespace Cert.KernelSide

open Cert.KernelIdeal Cert.KernelIdeal.Gen
open Idealize.ShloMosaic Idealize.ShloMosaic.ValueIdx

/-- Entry (p, k) of the hidden block: the product's entry plus the bias, cut below at zero. -/
theorem hid_apply (v0 : Vec Ideal S512x4096 .f32) (v2 : Vec Ideal S4096x256 .bf16) (v5 : Vec Ideal S1x256 .f32)
    (p : Fin 512) (k : Fin 256) :
    (maximumf
        (addf
          (matmul (F := Ideal) dot_S512x4096_S4096x256_S512x256_1_0_0_1_n_n none
            (truncf .bf16 (v0 : FVec Ideal S512x4096 .f32) bitsLt_bf16_f32 : FVec Ideal S512x4096 .bf16)
            (shapeCast S4096x256 (v2 : FVec Ideal S4096x256 .bf16) shapeCasts_S4096x256_S4096x256 : FVec Ideal S4096x256 .bf16)
            (constant (F := Ideal) S512x256 .f32 0x00000000#32))
          (broadcastTo S512x256 (shapeCast S1x256 (v5 : FVec Ideal S1x256 .f32) shapeCasts_S1x256_S1x256 : FVec Ideal S1x256 .f32)
            broadcasts_S1x256_S512x256))
        (broadcast S512x256 (Scalar.ofBits (F := Ideal) .f32 0x00000000#32)) : FVec Ideal S512x256 .f32) (ix2 p k)
      = max ((∑ j : Fin 4096, v0 (ix2 p j) * v2 (ix2 j k)) + v5 (ix2 (0 : Fin 1) k)) (Ideal.ofBits .f32 0x00000000#32) := by
  rw [maximumf_apply, addf_apply, broadcast_apply]
  refine congrArg₂ max (congrArg₂ (· + ·) ?_ ?_) rfl
  · refine (matmul_zero_apply dot_S512x4096_S4096x256_S512x256_1_0_0_1_n_n_wf none
      (truncf .bf16 (v0 : FVec Ideal S512x4096 .f32) bitsLt_bf16_f32 : FVec Ideal S512x4096 .bf16)
      (shapeCast S4096x256 (v2 : FVec Ideal S4096x256 .bf16) shapeCasts_S4096x256_S4096x256 : FVec Ideal S4096x256 .bf16) p k).trans ?_
    rw [shapeCast_self]
    rfl
  · refine (broadcastTo_1b_ab_apply (shapeCast S1x256 (v5 : FVec Ideal S1x256 .f32) shapeCasts_S1x256_S1x256 : FVec Ideal S1x256 .f32)
      broadcasts_S1x256_S512x256 p k).trans ?_
    rw [shapeCast_self]

/-- Entry (p, q) of the second region's stored block. -/
theorem pay1_apply (v0 : Vec Ideal S512x4096 .f32) (v2 : Vec Ideal S4096x256 .bf16) (v5 : Vec Ideal S1x256 .f32)
    (v12 : Vec Ideal S256x128 .bf16) (p : Fin 512) (q : Fin 128) :
    k1_pay1 v0 v2 v5 v12 (ix2 p q)
      = ∑ k : Fin 256, max ((∑ j : Fin 4096, v0 (ix2 p j) * v2 (ix2 j k)) + v5 (ix2 (0 : Fin 1) k)) (Ideal.ofBits .f32 0x00000000#32)
          * v12 (ix2 k q) := by
  unfold k1_pay1
  refine (matmul_zero_apply dot_S512x256_S256x128_S512x128_1_0_0_1_n_n_wf none _
    (shapeCast S256x128 v12 shapeCasts_S256x128_S256x128) p q).trans ?_
  refine Finset.sum_congr rfl fun k _ => ?_
  refine congrArg₂ (· * ·) ?_ ?_
  · exact hid_apply v0 v2 v5 p k
  · rw [shapeCast_self]

/-- The same at any index of the block. -/
theorem pay1_at (v0 : Vec Ideal S512x4096 .f32) (v2 : Vec Ideal S4096x256 .bf16) (v5 : Vec Ideal S1x256 .f32)
    (v12 : Vec Ideal S256x128 .bf16) (y : S512x128.Idx) :
    k1_pay1 v0 v2 v5 v12 y
      = ∑ k : Fin 256, max ((∑ j : Fin 4096, v0 (ix2 (y 0 : Fin 512) j) * v2 (ix2 j k)) + v5 (ix2 (0 : Fin 1) k)) (Ideal.ofBits .f32 0x00000000#32)
          * v12 (ix2 k (y 1 : Fin 128)) := by
  obtain ⟨p, q, rfl⟩ : ∃ (p : Fin 512) (q : Fin 128), y = ix2 p q := ⟨y 0, y 1, eq_ix2 y⟩
  exact pay1_apply v0 v2 v5 v12 p q

end Cert.KernelSide

end
-- ==== Proof.KReg1.lean ====
/-
  The second region's output array, from its blocks.

  The grid has eight points.  At point t the region reads rows 512·t … 512·t + 511 of adj (a 512 × 4096 block), the
  whole 4096 × 256 matrix s1, the one-row matrix b1 and the whole 256 × 128 matrix W2, and writes rows
  512·t … 512·t + 511 of its 4096 × 128 output.  What it writes at block entry (p, q) is
  Σ_k max (Σ_j adj-block (p, j) · s1 (j, k) + b1 (0, k), 0) · W2 (k, q), and the adj-block's entry (p, j) is
  adj (512·t + p, j); so the block written at point t is the block at t of the one function
  s2 (i, q) = Σ_k max (Σ_j adj (i, j) · s1 (j, k) + b1 (0, k), 0) · W2 (k, q)  of the contents the region is entered
  with.  Row r lies in the block of point r / 512, so the eight blocks cover the array and it ends holding s2.
-/
import proofs.«180427_g2000709331088930_pallasbulk_708_2_alg».proof.Proof.Gen.KernelIdeal.Frame
import proofs.«180427_g2000709331088930_pallasbulk_708_2_alg».proof.Proof.KPay1
import Idealize.ShloMosaic.Lib.Pipeline.Value
import Idealize.ShloMosaic.Lib.ValueIdx

set_option maxRecDepth 16384

noncomputable section

open scoped BigOperators

namespace Cert.KernelSide

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- max (adj · s1 + b1, 0) · W2, entry by entry, for a 4096 × 4096 matrix adj, a 4096 × 256 matrix s1, a one-row matrix
    b1 and a 256 × 128 matrix W2. -/
def layer1 (adj : S4096x4096.Idx → EReal) (s1 : S4096x256.Idx → EReal) (b1 : S1x256.Idx → EReal)
    (w2 : S256x128.Idx → EReal) : S4096x128.Idx → EReal := fun i =>
  ∑ k : Fin 256,
    max ((∑ j : Fin 4096, adj (ix2 (i 0 : Fin 4096) j) * s1 (ix2 j k)) + b1 (ix2 (0 : Fin 1) k)) (Ideal.ofBits .f32 0x00000000#32)
      * w2 (ix2 k (i 1 : Fin 128))

/-- s2 = max (adj · s1 + b1, 0) · W2 over the contents the region is entered with. -/
def G1 (c : Dev nD) : S4096x128.Idx → EReal :=
  layer1 (V c main_arg1) (V c main_v4) (V c main_v2) (V c main_v1)

/-- The printed index maps over the grid: the adj window and the output window are at block (t, 0), the other
    windows at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adj window's block at point t holds rows 512·t … of adj. -/
theorem iblk1_0_apply (c : Dev nD) (t : Fin cfg1.N) (y : S512x4096.Idx) (i : S4096x4096.Idx)
    (h0 : (i 0).val = 512 * t.val + (y 0).val) (h1 : (i 1).val = (y 1).val) :
    (iblk1 V c 0 t : S512x4096.Idx → EReal) y = (V c main_arg1 : S4096x4096.Idx → EReal) i := by
  obtain ⟨e0, e1, -⟩ := idx1 t
  show (V c main_arg1 : S4096x4096.Idx → EReal) (((cfg1.win 0).blk t).view.emb y) = _
  refine congrArg (V c main_arg1 : S4096x4096.Idx → EReal) (funext fun a => Fin.ext ?_)
  match a with
  | ⟨0, _⟩ => show win1_0.index t (0 : Fin 2) * 512 + 1 * (y 0).val = (i 0).val; rw [e0, h0]; omega
  | ⟨1, _⟩ => show win1_0.index t (1 : Fin 2) * 4096 + 1 * (y 1).val = (i 1).val; rw [e1, h1]; omega

/-- The s1 window's block at every point is all of s1. -/
theorem iblk1_1_apply (c : Dev nD) (t : Fin cfg1.N) (y : S4096x256.Idx) :
    (iblk1 V c 1 t : S4096x256.Idx → EReal) y = (V c main_v4 : S4096x256.Idx → EReal) y := by
  obtain ⟨-, -, e2, e3, -⟩ := idx1 t
  show (V c main_v4 : S4096x256.Idx → EReal) (((cfg1.win 1).blk t).view.emb y) = _
  refine congrArg (V c main_v4 : S4096x256.Idx → EReal) (funext fun a => Fin.ext ?_)
  match a with
  | ⟨0, _⟩ => show win1_1.index t (0 : Fin 2) * 4096 + 1 * (y 0).val = (y 0).val; rw [e2]; omega
  | ⟨1, _⟩ => show win1_1.index t (1 : Fin 2) * 256 + 1 * (y 1).val = (y 1).val; rw [e3]; omega

/-- The b1 window's block at every point is the whole one-row matrix. -/
theorem iblk1_2_apply (c : Dev nD) (t : Fin cfg1.N) (y : S1x256.Idx) :
    (iblk1 V c 2 t : S1x256.Idx → EReal) y = (V c main_v2 : S1x256.Idx → EReal) y := by
  obtain ⟨-, -, -, -, e4, e5, -⟩ := idx1 t
  show (V c main_v2 : S1x256.Idx → EReal) (((cfg1.win 2).blk t).view.emb y) = _
  refine congrArg (V c main_v2 : S1x256.Idx → EReal) (funext fun a => Fin.ext ?_)
  match a with
  | ⟨0, _⟩ => show win1_2.index t (0 : Fin 2) * 1 + 1 * (y 0).val = (y 0).val; rw [e4]; omega
  | ⟨1, _⟩ => show win1_2.index t (1 : Fin 2) * 256 + 1 * (y 1).val = (y 1).val; rw [e5]; omega

/-- The W2 window's block at every point is all of W2. -/
theorem iblk1_3_apply (c : Dev nD) (t : Fin cfg1.N) (y : S256x128.Idx) :
    (iblk1 V c 3 t : S256x128.Idx → EReal) y = (V c main_v1 : S256x128.Idx → EReal) y := by
  obtain ⟨-, -, -, -, -, -, e6, e7, -⟩ := idx1 t
  show (V c main_v1 : S256x128.Idx → EReal) (((cfg1.win 3).blk t).view.emb y) = _
  refine congrArg (V c main_v1 : S256x128.Idx → EReal) (funext fun a => Fin.ext ?_)
  match a with
  | ⟨0, _⟩ => show win1_3.index t (0 : Fin 2) * 256 + 1 * (y 0).val = (y 0).val; rw [e6]; omega
  | ⟨1, _⟩ => show win1_3.index t (1 : Fin 2) * 128 + 1 * (y 1).val = (y 1).val; rw [e7]; omega

/-- What point t writes back is the block at t of s2. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S512x4096) hz1, View.ld_unit_zero (S := S4096x256) hz1,
    View.ld_unit_zero (S := S1x256) hz1, View.ld_unit_zero (S := S256x128) hz1]
  obtain ⟨-, -, -, -, -, -, -, -, e8, e9⟩ := idx1 t
  funext y
  show k1_pay1 (iblk1 V c 0 t) (iblk1 V c 1 t) (iblk1 V c 2 t) (iblk1 V c 3 t) y = G1 V c (((cfg1.win 4).blk t).view.emb y)
  refine (pay1_at (iblk1 V c 0 t) (iblk1 V c 1 t) (iblk1 V c 2 t) (iblk1 V c 3 t) y).trans ?_
  unfold G1 layer1
  refine Finset.sum_congr rfl fun k _ => ?_
  refine congrArg₂ (· * ·) (congrArg₂ max (congrArg₂ (· + ·) (Finset.sum_congr rfl fun j _ => congrArg₂ (· * ·) ?_ ?_) ?_) rfl) ?_
  · refine iblk1_0_apply V c t _ _ ?_ rfl
    show win1_4.index t (0 : Fin 2) * 512 + 1 * (y 0).val = 512 * t.val + (y 0).val
    rw [e8]; omega
  · exact iblk1_1_apply V c t _
  · exact iblk1_2_apply V c t _
  · refine (iblk1_3_apply V c t _).trans ?_
    refine congrArg (V c main_v1 : S256x128.Idx → EReal) (funext fun a => Fin.ext ?_)
    match a with
    | ⟨0, _⟩ => rfl
    | ⟨1, _⟩ => show (y 1).val = win1_4.index t (1 : Fin 2) * 128 + 1 * (y 1).val; rw [e9]; omega

/-- An index of the output array is in point t's block iff each coordinate is in the block's range on its axis. -/
theorem mem_blk1 (t : Fin cfg1.N) (i : S4096x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v5).slice (win1_4.rect t)).set ↔ _
  rw [View.set_slice_whole, Rect.mem_set_unit]
  exact Iff.rfl

/-- Row r is in the block of point r / 512: the eight blocks cover the output array. -/
theorem cover1 (i : S4096x128.Idx) :
    ∃ t : Fin cfg1.N, (cfg1.win 4).flush t = true ∧ i ∈ ((cfg1.win 4).blk t).view.set := by
  have hi0 : (i 0).val < 4096 := (i 0).isLt
  have hi1 : (i 1).val < 128 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, -, -, -, -, -, -, e8, e9⟩ := idx1 t
  refine ⟨t, flush1_4 t, ?_⟩
  rw [mem_blk1]
  intro a
  match a with
  | ⟨0, _⟩ =>
    show win1_4.index t (0 : Fin 2) * 512 ≤ (i 0).val ∧ (i 0).val < win1_4.index t (0 : Fin 2) * 512 + 512
    rw [e8, ht]; omega
  | ⟨1, _⟩ =>
    show win1_4.index t (1 : Fin 2) * 128 ≤ (i 1).val ∧ (i 1).val < win1_4.index t (1 : Fin 2) * 128 + 128
    rw [e9]; omega

/-- The second region's output array ends holding s2. -/
theorem final1 (c : Dev nD) : (dat1 V c).arrAt 4 cfg1.N = G1 V c :=
  (dat1 V c).arrAt_eq_of_cover 4 (G1 V c) (fun t _ => flushed1_eq V c t) cover1

end Cert.KernelSide

end
-- ==== Proof.KPay2.lean ====
/-
  The third region's arithmetic, as the row-wise log-softmax of a slab of logits.

  The body multiplies its 512 × 4096 block of adj by the whole 4096 × 128 matrix s2 into a zero accumulator and adds
  the bias row b2 to every row: a 512 × 128 slab of logits.  What it stores is that slab with each row's maximum
  subtracted and then the logarithm of the row's sum of exponentials subtracted: the vector function lsm of the
  slab, operation for operation.  Only the slab is read entry by entry: entry (r, q) is
  Σ_j adj-block (r, j) · s2 (j, q) + b2 (0, q).
-/
import proofs.«180427_g2000709331088930_pallasbulk_708_2_alg».proof.Proof.Gen.KernelIdeal.Skeleton
import proofs.«180427_g2000709331088930_pallasbulk_708_2_alg».proof.Proof.KDot
import proofs.«180427_g2000709331088930_pallasbulk_708_2_alg».proof.Proof.Spec
import Idealize.ShloMosaic.Lib.Pipeline.Value
import Idealize.ShloMosaic.Lib.ValueLayout

set_option maxRecDepth 16384

noncomputable section

open scoped BigOperators

namespace Cert.KernelSide

open Cert.KernelIdeal Cert.KernelIdeal.Gen
open Idealize.ShloMosaic Idealize.ShloMosaic.ValueIdx

open Cert.GcnSpec

/-- The slab of logits the third region's body forms from its loaded blocks. -/
def logits2 (v0 : Vec Ideal S512x4096 .f32) (v2 : Vec Ideal S4096x128 .bf16) (v5 : Vec Ideal S1x128 .f32) :
    FVec Ideal Sslab .f32 :=
  addf
    (matmul (F := Ideal) dot_S512x4096_S4096x128_S512x128_1_0_0_1_n_n none
      (truncf .bf16 (v0 : FVec Ideal S512x4096 .f32) bitsLt_bf16_f32 : FVec Ideal S512x4096 .bf16)
      (shapeCast S4096x128 (v2 : FVec Ideal S4096x128 .bf16) shapeCasts_S4096x128_S4096x128 : FVec Ideal S4096x128 .bf16)
      (constant (F := Ideal) S512x128 .f32 0x00000000#32))
    (broadcastTo S512x128 (shapeCast S1x128 (v5 : FVec Ideal S1x128 .f32) shapeCasts_S1x128_S1x128 : FVec Ideal S1x128 .f32)
      broadcasts_S1x128_S512x128)

/-- What the third region stores is the row-wise log-softmax of that slab: the same vector operations in the same
    order. -/
theorem pay2_eq_lsm (v0 : Vec Ideal S512x4096 .f32) (v2 : Vec Ideal S4096x128 .bf16) (v5 : Vec Ideal S1x128 .f32) :
    k2_pay1 v0 v2 v5 = lsm (logits2 v0 v2 v5) := rfl

/-- Entry (r, q) of the slab of logits. -/
theorem logits2_apply (v0 : Vec Ideal S512x4096 .f32) (v2 : Vec Ideal S4096x128 .bf16) (v5 : Vec Ideal S1x128 .f32)
    (r : Fin 512) (q : Fin 128) :
    logits2 v0 v2 v5 (ix2 r q) = (∑ j : Fin 4096, v0 (ix2 r j) * v2 (ix2 j q)) + v5 (ix2 (0 : Fin 1) q) := by
  unfold logits2
  rw [addf_apply]
  refine congrArg₂ (· + ·) ?_ ?_
  · refine (matmul_zero_apply dot_S512x4096_S4096x128_S512x128_1_0_0_1_n_n_wf none
      (truncf .bf16 (v0 : FVec Ideal S512x4096 .f32) bitsLt_bf16_f32 : FVec Ideal S512x4096 .bf16)
      (shapeCast S4096x128 (v2 : FVec Ideal S4096x128 .bf16) shapeCasts_S4096x128_S4096x128 : FVec Ideal S4096x128 .bf16) r q).trans ?_
    rw [shapeCast_self]
    rfl
  · refine (broadcastTo_1b_ab_apply (shapeCast S1x128 (v5 : FVec Ideal S1x128 .f32) shapeCasts_S1x128_S1x128 : FVec Ideal S1x128 .f32)
      broadcasts_S1x128_S512x128 r q).trans ?_
    rw [shapeCast_self]

/-- The slab of logits as one function of its index. -/
theorem logits2_eq (v0 : Vec Ideal S512x4096 .f32) (v2 : Vec Ideal S4096x128 .bf16) (v5 : Vec Ideal S1x128 .f32) :
    logits2 v0 v2 v5
      = fun y : Sslab.Idx => (∑ j : Fin 4096, v0 (ix2 (y 0 : Fin 512) j) * v2 (ix2 j (y 1 : Fin 128))) + v5 (ix2 (0 : Fin 1) (y 1 : Fin 128)) := by
  funext y
  obtain ⟨r, q, rfl⟩ : ∃ (r : Fin 512) (q : Fin 128), y = ix2 r q := ⟨y 0, y 1, eq_ix2 y⟩
  exact logits2_apply v0 v2 v5 r q

/-- What the third region stores: the row-wise log-softmax of the slab  Σ_j adj-block (r, j) · s2 (j, q) + b2 (0, q). -/
theorem pay2_eq (v0 : Vec Ideal S512x4096 .f32) (v2 : Vec Ideal S4096x128 .bf16) (v5 : Vec Ideal S1x128 .f32) :
    k2_pay1 v0 v2 v5
      = lsm (fun y : Sslab.Idx => (∑ j : Fin 4096, v0 (ix2 (y 0 : Fin 512) j) * v2 (ix2 j (y 1 : Fin 128))) + v5 (ix2 (0 : Fin 1) (y 1 : Fin 128))) := by
  rw [pay2_eq_lsm, logits2_eq]

end Cert.KernelSide

end
-- ==== Proof.KReg2.lean ====
/-
  The third region's output array, from its blocks.

  The grid has eight points.  At point t the region reads rows 512·t … 512·t + 511 of adj (a 512 × 4096 block), the
  whole 4096 × 128 matrix s2 and the one-row matrix b2, and writes rows 512·t … 512·t + 511 of its 4096 × 128
  output: the row-wise log-softmax of the 512 × 128 slab of logits  Σ_j adj-block (r, j) · s2 (j, q) + b2 (0, q).
  The adj-block's entry (r, j) is adj (512·t + r, j), so that slab is slab t of the logits of the contents the
  region is entered with, and the block written at point t is the block at t of the one array whose rows
  512·t … 512·t + 511 are the log-softmax of slab t.  Row r lies in the block of point r / 512, so the eight blocks
  cover the array.
-/
import proofs.«180427_g2000709331088930_pallasbulk_708_2_alg».proof.Proof.Gen.KernelIdeal.Frame
import proofs.«180427_g2000709331088930_pallasbulk_708_2_alg».proof.Proof.KPay2
import Idealize.ShloMosaic.Lib.Pipeline.Value
import Idealize.ShloMosaic.Lib.ValueIdx

set_option maxRecDepth 16384

noncomputable section

open scoped BigOperators

namespace Cert.KernelSide

open Cert.KernelIdeal Cert.KernelIdeal.Gen
open Idealize.ShloMosaic Idealize.ShloMosaic.TcCoe Idealize.ShloMosaic.ValueIdx Idealize.SL.Sem
open Idealize.ShloMosaic.Pipeline (Dat)

open Cert.GcnSpec

variable (V : (c : Dev nD) → (b : Ref sig .tc) → Buf (Elt Ideal) ((c : Thread nD τ).loc b))

theorem hz2 : (![0, 0] : Fin 2 → Nat) = fun _ => 0 := funext fun a => by fin_cases a <;> rfl

/-- The 4096 × 128 array whose rows 512·t … 512·t + 511 are the 512 × 128 slab L t. -/
def slabwise (L : Fin 8 → FVec Ideal Sslab .f32) : FVec Ideal Sout .f32 := fun i =>
  L ⟨(i 0).val / 512, by have h : (i 0).val < 4096 := (i 0).isLt; omega⟩
    (ix2 (⟨(i 0).val % 512, Nat.mod_lt _ (by norm_num)⟩ : Fin 512) (i 1))

/-- Row 512·t + r of the array made of slabs is row r of slab t. -/
theorem slabwise_at (L : Fin 8 → FVec Ideal Sslab .f32) (i : Sout.Idx) (t : Fin 8) (y : Sslab.Idx)
    (h0 : (i 0).val = 512 * t.val + (y 0).val) (h1 : (i 1).val = (y 1).val) : slabwise L i = L t y := by
  have hy0 : (y 0).val < 512 := (y 0).isLt
  have ht : t.val < 8 := t.isLt
  have e1 : (⟨(i 0).val / 512, by have h : (i 0).val < 4096 := (i 0).isLt; omega⟩ : Fin 8) = t :=
    Fin.ext (by show (i 0).val / 512 = t.val; omega)
  have e2 : (⟨(i 0).val % 512, Nat.mod_lt _ (by norm_num)⟩ : Fin 512) = y 0 :=
    Fin.ext (by show (i 0).val % 512 = (y 0).val; omega)
  have e3 : (i 1 : Fin 128) = y 1 := Fin.ext h1
  unfold slabwise
  rw [e1, e2, e3]
  exact congrArg (L t) (eq_ix2 y).symm

/-- Slab t of adj · s2 + b2, entry by entry, for a 4096 × 4096 matrix adj, a 4096 × 128 matrix s2 and a one-row
    matrix b2. -/
def slabOf (adj : S4096x4096.Idx → EReal) (s2 : S4096x128.Idx → EReal) (b2 : S1x128.Idx → EReal) (t : Fin 8) :
    FVec Ideal Sslab .f32 := fun y =>
  (∑ j : Fin 4096, adj (ix2 (rowOf t (y 0)) j) * s2 (ix2 j (y 1 : Fin 128))) + b2 (ix2 (0 : Fin 1) (y 1 : Fin 128))

/-- Slab t of the logits adj · s2 + b2 over the contents the region is entered with. -/
def slab2 (c : Dev nD) (t : Fin 8) : FVec Ideal Sslab .f32 :=
  slabOf (V c main_arg1) (V c main_v5) (V c main_v3) t

/-- The array whose slab t is the row-wise log-softmax of slab t of the logits. -/
def G2 (c : Dev nD) : FVec Ideal Sout .f32 := slabwise fun t => lsm (slab2 V c t)

/-- The printed index maps over the grid: the adj window and the output window are at block (t, 0), the other
    windows at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The adj window's block at point t holds rows 512·t … of adj. -/
theorem iblk2_0_apply (c : Dev nD) (t : Fin cfg2.N) (y : S512x4096.Idx) (i : S4096x4096.Idx)
    (h0 : (i 0).val = 512 * t.val + (y 0).val) (h1 : (i 1).val = (y 1).val) :
    (iblk2 V c 0 t : S512x4096.Idx → EReal) y = (V c main_arg1 : S4096x4096.Idx → EReal) i := by
  obtain ⟨e0, e1, -⟩ := idx2 t
  show (V c main_arg1 : S4096x4096.Idx → EReal) (((cfg2.win 0).blk t).view.emb y) = _
  refine congrArg (V c main_arg1 : S4096x4096.Idx → EReal) (funext fun a => Fin.ext ?_)
  match a with
  | ⟨0, _⟩ => show win2_0.index t (0 : Fin 2) * 512 + 1 * (y 0).val = (i 0).val; rw [e0, h0]; omega
  | ⟨1, _⟩ => show win2_0.index t (1 : Fin 2) * 4096 + 1 * (y 1).val = (i 1).val; rw [e1, h1]; omega

/-- The s2 window's block at every point is all of s2. -/
theorem iblk2_1_apply (c : Dev nD) (t : Fin cfg2.N) (y : S4096x128.Idx) :
    (iblk2 V c 1 t : S4096x128.Idx → EReal) y = (V c main_v5 : S4096x128.Idx → EReal) y := by
  obtain ⟨-, -, e2, e3, -⟩ := idx2 t
  show (V c main_v5 : S4096x128.Idx → EReal) (((cfg2.win 1).blk t).view.emb y) = _
  refine congrArg (V c main_v5 : S4096x128.Idx → EReal) (funext fun a => Fin.ext ?_)
  match a with
  | ⟨0, _⟩ => show win2_1.index t (0 : Fin 2) * 4096 + 1 * (y 0).val = (y 0).val; rw [e2]; omega
  | ⟨1, _⟩ => show win2_1.index t (1 : Fin 2) * 128 + 1 * (y 1).val = (y 1).val; rw [e3]; omega

/-- The b2 window's block at every point is the whole one-row matrix. -/
theorem iblk2_2_apply (c : Dev nD) (t : Fin cfg2.N) (y : S1x128.Idx) :
    (iblk2 V c 2 t : S1x128.Idx → EReal) y = (V c main_v3 : S1x128.Idx → EReal) y := by
  obtain ⟨-, -, -, -, e4, e5, -⟩ := idx2 t
  show (V c main_v3 : S1x128.Idx → EReal) (((cfg2.win 2).blk t).view.emb y) = _
  refine congrArg (V c main_v3 : S1x128.Idx → EReal) (funext fun a => Fin.ext ?_)
  match a with
  | ⟨0, _⟩ => show win2_2.index t (0 : Fin 2) * 1 + 1 * (y 0).val = (y 0).val; rw [e4]; omega
  | ⟨1, _⟩ => show win2_2.index t (1 : Fin 2) * 128 + 1 * (y 1).val = (y 1).val; rw [e5]; omega

/-- What the body leaves at point t is the row-wise log-softmax of slab t of the logits. -/
theorem stored2_eq (c : Dev nD) (t : Fin cfg2.N) (ht8 : t.val < 8) :
    k2_pay1 (iblk2 V c 0 t) (iblk2 V c 1 t) (iblk2 V c 2 t) = lsm (slab2 V c ⟨t.val, ht8⟩) := by
  rw [pay2_eq]
  refine congrArg lsm (funext fun y => ?_)
  unfold slab2 slabOf
  refine congrArg₂ (· + ·) (Finset.sum_congr rfl fun j _ => congrArg₂ (· * ·) ?_ ?_) ?_
  · exact iblk2_0_apply V c t _ _ rfl rfl
  · exact iblk2_1_apply V c t _
  · exact iblk2_2_apply V c t _

/-- What point t writes back is the block at t of the array of log-softmaxed slabs. -/
theorem flushed2_eq (c : Dev nD) (t : Fin cfg2.N) :
    (dat2 V c).flushed 3 t = ((cfg2.win 3).blk t).view.read (Elt Ideal) (G2 V c) := by
  have hN : cfg2.N = 8 := N_2
  have ht8 : t.val < 8 := by have := t.isLt; omega
  show (cfg2.win 3).cut (grid2.coords t) ((dat2 V c).after 3 t) = _
  rw [after2_3]
  unfold out2_3
  rw [View.canon_unit_zero hz2]
  simp only [View.ld_unit_zero (S := S512x4096) hz2, View.ld_unit_zero (S := S4096x128) hz2,
    View.ld_unit_zero (S := S1x128) hz2]
  rw [stored2_eq V c t ht8]
  obtain ⟨-, -, -, -, -, -, e6, e7⟩ := idx2 t
  funext y
  show lsm (slab2 V c ⟨t.val, ht8⟩) y = G2 V c (((cfg2.win 3).blk t).view.emb y)
  unfold G2
  refine (slabwise_at (fun t => lsm (slab2 V c t)) _ ⟨t.val, ht8⟩ y ?_ ?_).symm
  · show win2_3.index t (0 : Fin 2) * 512 + 1 * (y 0).val = 512 * t.val + (y 0).val
    rw [e6]; omega
  · show win2_3.index t (1 : Fin 2) * 128 + 1 * (y 1).val = (y 1).val
    rw [e7]; omega

/-- An index of the output array is in point t's block iff each coordinate is in the block's range on its axis. -/
theorem mem_blk2 (t : Fin cfg2.N) (i : S4096x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v6).slice (win2_3.rect t)).set ↔ _
  rw [View.set_slice_whole, Rect.mem_set_unit]
  exact Iff.rfl

/-- Row r is in the block of point r / 512: the eight blocks cover the output array. -/
theorem cover2 (i : S4096x128.Idx) :
    ∃ t : Fin cfg2.N, (cfg2.win 3).flush t = true ∧ i ∈ ((cfg2.win 3).blk t).view.set := by
  have hi0 : (i 0).val < 4096 := (i 0).isLt
  have hi1 : (i 1).val < 128 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨-, -, -, -, -, -, e6, e7⟩ := idx2 t
  refine ⟨t, flush2_3 t, ?_⟩
  rw [mem_blk2]
  intro a
  match a with
  | ⟨0, _⟩ =>
    show win2_3.index t (0 : Fin 2) * 512 ≤ (i 0).val ∧ (i 0).val < win2_3.index t (0 : Fin 2) * 512 + 512
    rw [e6, ht]; omega
  | ⟨1, _⟩ =>
    show win2_3.index t (1 : Fin 2) * 128 ≤ (i 1).val ∧ (i 1).val < win2_3.index t (1 : Fin 2) * 128 + 128
    rw [e7]; omega

/-- The third region's output array ends holding the array of log-softmaxed slabs. -/
theorem final2 (c : Dev nD) : (dat2 V c).arrAt 3 cfg2.N = G2 V c :=
  (dat2 V c).arrAt_eq_of_cover 3 (G2 V c) (fun t _ => flushed2_eq V c t) cover2

end Cert.KernelSide

end
-- ==== Proof.KValue.lean ====
/-
  The value of the three-region program: its result array is the two-layer graph convolution with a log-softmax
  head of its six arguments.

  The regions are chained through the contents at their boundaries.  The first region is entered with x as
  launched and W1 converted (the identity at the ideal values) and leaves s1 = x · W1.  The second is entered with
  adj as launched, s1, the one-row matrix of b1 and W2 converted, and leaves s2 = max (adj · s1 + b1, 0) · W2.  The
  third is entered with adj as launched, s2 and the one-row matrix of b2, and leaves the array whose slab t is the
  row-wise log-softmax of slab t of the logits adj · s2 + b2: the specification's result.  A buffer that a region
  neither reads through a window nor writes keeps its contents across the region.
-/
import proofs.«180427_g2000709331088930_pallasbulk_708_2_alg».proof.Proof.Spec
import proofs.«180427_g2000709331088930_pallasbulk_708_2_alg».proof.Proof.KRun
import proofs.«180427_g2000709331088930_pallasbulk_708_2_alg».proof.Proof.KHost
import proofs.«180427_g2000709331088930_pallasbulk_708_2_alg».proof.Proof.KReg0
import proofs.«180427_g2000709331088930_pallasbulk_708_2_alg».proof.Proof.KReg1
import proofs.«180427_g2000709331088930_pallasbulk_708_2_alg».proof.Proof.KReg2

set_option maxRecDepth 16384

noncomputable section

open scoped BigOperators

namespace Cert.KernelSide

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The six argument arrays as launched -/

abbrev aX (c : Dev nD) : FVec Ideal Sx .f32 := m ((c.tc : Thread nD τ).loc main_arg0)
abbrev aAdj (c : Dev nD) : FVec Ideal Sadj .f32 := m ((c.tc : Thread nD τ).loc main_arg1)
abbrev aW1 (c : Dev nD) : FVec Ideal Sw1 .f32 := m ((c.tc : Thread nD τ).loc main_arg2)
abbrev aB1 (c : Dev nD) : FVec Ideal Sb1 .f32 := m ((c.tc : Thread nD τ).loc main_arg3)
abbrev aW2 (c : Dev nD) : FVec Ideal Sw2 .f32 := m ((c.tc : Thread nD τ).loc main_arg4)
abbrev aB2 (c : Dev nD) : FVec Ideal Sb2 .f32 := m ((c.tc : Thread nD τ).loc main_arg5)

/-! ## The first region leaves s1 -/

/-- What the second region finds in the first region's output array: s1 = x · W1. -/
theorem val_v4 (c : Dev nD) :
    (V2 m ρ c main_v4 : S4096x256.Idx → EReal) = fun i => s1At (aX m c) (aW1 m c) (i 0) (i 1) := by
  have h : (V2 m ρ c main_v4 : S4096x256.Idx → EReal) = G0 (V1 m ρ) c := (W2_arr m ρ c 2).trans (final0 (V1 m ρ) c)
  rw [h]
  funext i
  unfold G0 prod0 s1At
  rw [V1_main_arg0 m ρ c, V1_main_v0 m ρ c]

/-! ## What the second region is entered with -/

/-- adj is as launched when the second region is entered. -/
theorem V2_main_arg1 (c : Dev nD) : V2 m ρ c main_arg1 = m ((c.tc : Thread nD τ).loc main_arg1) :=
  (W2_of_ne m ρ c main_arg1 (by decide)).trans (V1_main_arg1 m ρ c)

/-- The one-row matrix of b1 is untouched by the first region. -/
theorem V2_main_v2 (c : Dev nD) (k : Fin 256) :
    (V2 m ρ c main_v2 : S1x256.Idx → EReal) (ix2 (0 : Fin 1) k) = aB1 m c (ix1 k) := by
  have h : V2 m ρ c main_v2 = V1 m ρ c main_v2 := W2_of_ne m ρ c main_v2 (by decide)
  rw [h]
  exact V1_main_v2 m ρ c k

/-- The converted W2 is untouched by the first region. -/
theorem V2_main_v1 (c : Dev nD) : (V2 m ρ c main_v1 : S256x128.Idx → EReal) = aW2 m c := by
  have h : V2 m ρ c main_v1 = V1 m ρ c main_v1 := W2_of_ne m ρ c main_v1 (by decide)
  rw [h]
  exact V1_main_v1 m ρ c

/-! ## The second region leaves s2 -/

/-- What the third region finds in the second region's output array: s2 = max (adj · s1 + b1, 0) · W2. -/
theorem val_v5 (c : Dev nD) :
    (V3 m ρ c main_v5 : S4096x128.Idx → EReal)
      = fun i => s2At (aX m c) (aAdj m c) (aW1 m c) (aB1 m c) (aW2 m c) (i 0) (i 1) := by
  have h : (V3 m ρ c main_v5 : S4096x128.Idx → EReal) = G1 (V2 m ρ) c := (W3_arr m ρ c 4).trans (final1 (V2 m ρ) c)
  rw [h]
  funext i
  unfold G1 layer1 s2At hidAt
  refine Finset.sum_congr rfl fun k _ => ?_
  rw [V2_main_arg1 m ρ c, val_v4 m ρ c, V2_main_v2 m ρ c k, V2_main_v1 m ρ c]
  rfl

/-! ## What the third region is entered with -/

/-- adj is as launched when the third region is entered: the second region only reads it. -/
theorem V3_main_arg1 (c : Dev nD) : V3 m ρ c main_arg1 = m ((c.tc : Thread nD τ).loc main_arg1) :=
  ((W3_arr m ρ c 0).trans (((dat1 (V2 m ρ) c).arrAt_in 0 rfl _).trans (A_eq1 (V2 m ρ) c 0))).trans (V2_main_arg1 m ρ c)

/-- The one-row matrix of b2 is untouched by the first two regions. -/
theorem V3_main_v3 (c : Dev nD) (q : Fin 128) :
    (V3 m ρ c main_v3 : S1x128.Idx → EReal) (ix2 (0 : Fin 1) q) = aB2 m c (ix1 q) := by
  have h : V3 m ρ c main_v3 = V1 m ρ c main_v3 :=
    (W3_of_ne m ρ c main_v3 (by decide)).trans (W2_of_ne m ρ c main_v3 (by decide))
  rw [h]
  exact V1_main_v3 m ρ c q

/-! ## The third region leaves the result -/

/-- Slab t of the logits the third region forms is slab t of the specification's logits. -/
theorem slab2_eq (c : Dev nD) (t : Fin 8) :
    slab2 (V3 m ρ) c t = logitSlab (aX m c) (aAdj m c) (aW1 m c) (aB1 m c) (aW2 m c) (aB2 m c) t := by
  funext y
  unfold slab2 slabOf logitSlab logitAt
  rw [V3_main_arg1 m ρ c, val_v5 m ρ c, V3_main_v3 m ρ c (y 1)]
  rfl

/-- The result array after the run is the specification's result. -/
theorem result_eq (c : Dev nD) :
    (dat2 (V3 m ρ) c).arrAt 3 cfg2.N = out (aX m c) (aAdj m c) (aW1 m c) (aB1 m c) (aW2 m c) (aB2 m c) := by
  rw [final2 (V3 m ρ) c]
  unfold G2
  rw [show (fun t => lsm (slab2 (V3 m ρ) c t)) = outSlab (aX m c) (aAdj m c) (aW1 m c) (aB1 m c) (aW2 m c) (aB2 m c) from
    funext fun t => by unfold outSlab; rw [slab2_eq m ρ c t]]
  rfl

/-! ## The run -/

/-- The program terminates with its result array at the specification's result of its six argument arrays, and the
    arguments unchanged. -/
theorem run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v6)
        = Cert.GcnSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_arr m ρ)

end Cert.KernelSide

end
-- ==== Proof.RAReg0.lean ====
/- Region 0 of the reference program (`cc0__support_kernel`: one block of rows times a whole matrix), at a parameter `V`,
   the buffer contents when the region is entered: each window's block at a grid point, what the body leaves in the
   output window's buffer (its single store, of the matmul payload of the two loaded blocks), the body's triple, the
   pipeline's proof data and the body obligation at every point. Generic in the float interpretation. -/
import proofs.«180427_g2000709331088930_pallasbulk_708_2_alg».proof.Proof.Gen.ReferenceIdeal.Launch
import proofs.«180427_g2000709331088930_pallasbulk_708_2_alg».proof.Proof.Gen.ReferenceIdeal.Skeleton
import proofs.«180427_g2000709331088930_pallasbulk_708_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.RefSide.A

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the whole second matrix, fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S512x512 := Rect.unit (s := S512x512) ![0, 0] S512x512.size inb_S512x512_S512x512_0_0
abbrev r0_1 : Rect S512x256 := Rect.unit (s := S512x256) ![0, 0] S512x256.size inb_S512x256_S512x256_0_0
abbrev r0_2 : Rect S512x256 := Rect.unit (s := S512x256) ![0, 0] S512x256.size inb_S512x256_S512x256_0_0

/-! ## What the body leaves in the output window's buffer -/

/-- Window 2's staging buffer after the body, from the input windows' blocks: its one store, of the payload. -/
def out0_2 (x0 : Vec F S512x512 .bf16) (x1 : Vec F S512x256 .bf16) : Vec F S512x256 .bf16 :=
  View.canon [⟨r0_2, k0_pay1 (View.ld x0 r0_0) (View.ld x1 r0_1)⟩]

/-- The store is of the whole buffer, so it covers it. -/
theorem cover0_2 (p0 : Vec F S512x256 .bf16) (y : S512x256.Idx) :
    ∃ pc ∈ ([⟨r0_2, p0⟩] : List (View.Piece (Elt F) S512x256 .bf16)), y ∈ pc.1.set :=
  View.cover_of_tiled [⟨r0_2, p0⟩] S512x256.size (by rfl) y

/-! ## The body's triple -/

set_option maxHeartbeats 1000000 in
/-- The body on whole staging memrefs, the inputs' at read contents and the output's at anything, runs to the
    continuation holding the inputs' as they were and the output's at `out0_2` of the inputs'. -/
theorem sound_kernel0 (c : Dev nD) (E : Set ℕ) (i : grid0.Coords) (arg1 : Memref sig .tc .vmem S512x512 .bf16) (harg1 : arg1.IsWhole) (arg2 : Memref sig .tc .vmem S512x256 .bf16) (harg2 : arg2.IsWhole) (arg3 : Memref sig .tc .vmem S512x256 .bf16) (harg3 : arg3.IsWhole)
    (x0 : Vec F S512x512 .bf16) (x1 : Vec F S512x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t`
    each input's buffer at its block and the output's at `out0_2` of the input blocks; the invariant of a body
    that touches nothing else; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.RefSide.A

end
-- ==== Proof.RAReg2.lean ====
/- Region 2 of the reference program (`cc2__support_kernel`: one block of rows times a whole matrix), at a parameter `V`,
   the buffer contents when the region is entered: each window's block at a grid point, what the body leaves in the
   output window's buffer (its single store, of the matmul payload of the two loaded blocks), the body's triple, the
   pipeline's proof data and the body obligation at every point. Generic in the float interpretation. -/
import proofs.«180427_g2000709331088930_pallasbulk_708_2_alg».proof.Proof.Gen.ReferenceIdeal.Launch
import proofs.«180427_g2000709331088930_pallasbulk_708_2_alg».proof.Proof.Gen.ReferenceIdeal.Skeleton
import proofs.«180427_g2000709331088930_pallasbulk_708_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.RefSide.A

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1 (the whole second matrix, fetched once). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_0 : Rect S512x256 := Rect.unit (s := S512x256) ![0, 0] S512x256.size inb_S512x256_S512x256_0_0
abbrev r2_1 : Rect S256x128 := Rect.unit (s := S256x128) ![0, 0] S256x128.size inb_S256x128_S256x128_0_0
abbrev r2_2 : Rect S512x128 := Rect.unit (s := S512x128) ![0, 0] S512x128.size inb_S512x128_S512x128_0_0

/-! ## What the body leaves in the output window's buffer -/

/-- Window 2's staging buffer after the body, from the input windows' blocks: its one store, of the payload. -/
def out2_2 (x0 : Vec F S512x256 .bf16) (x1 : Vec F S256x128 .bf16) : Vec F S512x128 .bf16 :=
  View.canon [⟨r2_2, k2_pay1 (View.ld x0 r2_0) (View.ld x1 r2_1)⟩]

/-- The store is of the whole buffer, so it covers it. -/
theorem cover2_2 (p0 : Vec F S512x128 .bf16) (y : S512x128.Idx) :
    ∃ pc ∈ ([⟨r2_2, p0⟩] : List (View.Piece (Elt F) S512x128 .bf16)), y ∈ pc.1.set :=
  View.cover_of_tiled [⟨r2_2, p0⟩] S512x128.size (by rfl) y

/-! ## The body's triple -/

set_option maxHeartbeats 1000000 in
/-- The body on whole staging memrefs, the inputs' at read contents and the output's at anything, runs to the
    continuation holding the inputs' as they were and the output's at `out2_2` of the inputs'. -/
theorem sound_kernel2 (c : Dev nD) (E : Set ℕ) (i : grid2.Coords) (arg1 : Memref sig .tc .vmem S512x256 .bf16) (harg1 : arg1.IsWhole) (arg2 : Memref sig .tc .vmem S256x128 .bf16) (harg2 : arg2.IsWhole) (arg3 : Memref sig .tc .vmem S512x128 .bf16) (harg3 : arg3.IsWhole)
    (x0 : Vec F S512x256 .bf16) (x1 : Vec F S256x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__support_kernel i arg1 harg1 arg2 harg2 arg3 harg3) K := by
  simp only [cc2__support_kernel_eq_skeleton]; unfold cc2__support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t`
    each input's buffer at its block and the output's at `out2_2` of the input blocks; the invariant of a body
    that touches nothing else; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.RefSide.A

end
-- ==== Proof.RBShared1.lean ====
/-
  Region 1 of the reference program: a propagation step out = epilogue (adj · s + b) computed over an 8 × 8 grid
  (row slab i, column slab k), the partial products accumulated in a scratch buffer that the kernel carries from one
  grid point to the next: cleared at k = 0, added to at every k, read out through the epilogue into the output
  block at k = 7.  This module holds what the three control cases share: the two branch conditions in closed form
  over the 64 grid points (point t has k = t mod 8), where the output window is idle, the staging memrefs, and the
  region invariant split into the carried scratch and everything else the region never opens.
-/
import proofs.«180427_g2000709331088930_pallasbulk_708_2_alg».proof.Proof.Gen.ReferenceIdeal.Launch
import proofs.«180427_g2000709331088930_pallasbulk_708_2_alg».proof.Proof.Gen.ReferenceIdeal.Skeleton
import proofs.«180427_g2000709331088930_pallasbulk_708_2_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- "k = 0": the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the epilogue runs and the output block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 7 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1 : View sig .tc .vmem S512x256 .bf16 := (Memref.whole cc1_stg3_0 : Memref sig .tc .vmem S512x256 .bf16).view
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S512x256 .f32 := Memref.whole cc1_scratch0
abbrev VS1 : View sig .tc .vmem S512x256 .f32 := scM1.view

/-! ## The region invariant, split at the accumulator -/

/-- Every scoped buffer of the core other than this call's staging buffers and its accumulator, at some contents each:
    the region never opens them. -/
abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA
  rw [Pipeline.scopedRest_split_of_list spec1 c [cc1_scratch0] (by decide) (by decide)]
  simp only [scM1, owns_whole, bigSepL]
  rfl

end Cert.RefSide.B

end
-- ==== Proof.RBRun1A.lean ====
/-
  Region 1 of the reference program, the kernel body in one of its three control cases.
  At a point with k = 0: the accumulator, whatever it held, is cleared and the slab product added to it; the output block is
    not touched.
  The body is run symbolically on whole staging memrefs; what its stores leave in the accumulator
  is recorded as the list of stored pieces (last first) that the run finds.
-/
import proofs.«180427_g2000709331088930_pallasbulk_708_2_alg».proof.Proof.RBShared1

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
/-- At a point with k = 0: the accumulator, whatever it held, is cleared and the slab product added to it; the output block is
    not touched. -/
noncomputable def kernelRun1_A (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : cond1_0 i) (hc1 : ¬cond1_1 i)
    (x0 : Vec F S512x512 .bf16) (x1 : Vec F S512x256 .bf16) (x2 : Vec F S1x256 .f32) :
    { LS : List (View.Piece (Elt F) S512x256 .f32) //
      ∀ (xi : Vec F S512x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__prop_act_kernel i arg2 harg2 arg3 harg3 arg4 harg4 arg5 harg5 arg6 harg6) K } := by
  refine ⟨?_, fun xi E K => ?run⟩
  case run =>
    simp only [cc1__prop_act_kernel_eq_skeleton]; unfold cc1__prop_act_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.RefSide.B

end
-- ==== Proof.RBRun1B.lean ====
/-
  Region 1 of the reference program, the kernel body in one of its three control cases.
  At a point with 0 < k < 7: the slab product is added to what the point before left in the accumulator; the output block
    is not touched.
  The body is run symbolically on whole staging memrefs; what its stores leave in the accumulator
  is recorded as the list of stored pieces (last first) that the run finds.
-/
import proofs.«180427_g2000709331088930_pallasbulk_708_2_alg».proof.Proof.RBShared1

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
/-- At a point with 0 < k < 7: the slab product is added to what the point before left in the accumulator; the output block
    is not touched. -/
noncomputable def kernelRun1_B (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : ¬cond1_1 i)
    (x0 : Vec F S512x512 .bf16) (x1 : Vec F S512x256 .bf16) (x2 : Vec F S1x256 .f32) (xs : Vec F S512x256 .f32) :
    { LS : List (View.Piece (Elt F) S512x256 .f32) //
      ∀ (xi : Vec F S512x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__prop_act_kernel i arg2 harg2 arg3 harg3 arg4 harg4 arg5 harg5 arg6 harg6) K } := by
  refine ⟨?_, fun xi E K => ?run⟩
  case run =>
    simp only [cc1__prop_act_kernel_eq_skeleton]; unfold cc1__prop_act_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.RefSide.B

end
-- ==== Proof.RBRun1C.lean ====
/-
  Region 1 of the reference program, the kernel body in one of its three control cases.
  At a point with k = 7: the slab product is added to what the point before left in the accumulator, and the epilogue of
    the completed sum is stored over the whole output block.
  The body is run symbolically on whole staging memrefs; what its stores leave in the accumulator and in the output block
  is recorded as the list of stored pieces (last first) that the run finds.
-/
import proofs.«180427_g2000709331088930_pallasbulk_708_2_alg».proof.Proof.RBShared1

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
/-- At a point with k = 7: the slab product is added to what the point before left in the accumulator, and the epilogue of
    the completed sum is stored over the whole output block. -/
noncomputable def kernelRun1_C (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : cond1_1 i)
    (x0 : Vec F S512x512 .bf16) (x1 : Vec F S512x256 .bf16) (x2 : Vec F S1x256 .f32) (xs : Vec F S512x256 .f32) :
    Σ' (LO : List (View.Piece (Elt F) S512x256 .bf16)), { LS : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__prop_act_kernel i arg2 harg2 arg3 harg3 arg4 harg4 arg5 harg5 arg6 harg6) K } := by
  refine ⟨?_, ?_, fun E K => ?run⟩
  case run =>
    simp only [cc1__prop_act_kernel_eq_skeleton]; unfold cc1__prop_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.RefSide.B

end
-- ==== Proof.RBAcc1.lean ====
/-
  Region 1 of the reference program: what the accumulator and the output block hold after each grid point.
  Each control case's stored pieces cover the buffer they are stored into, so what the case leaves there is one
  function of what it read.  Point by point: at k = 0 the accumulator restarts from the slab product alone, at the
  other points it continues from what the point before left, and at k = 7 the output block is the epilogue of the
  completed accumulator.  The region invariant carries the accumulator at exactly these contents from one point to
  the next.
-/
import proofs.«180427_g2000709331088930_pallasbulk_708_2_alg».proof.Proof.RBRun1A
import proofs.«180427_g2000709331088930_pallasbulk_708_2_alg».proof.Proof.RBRun1B
import proofs.«180427_g2000709331088930_pallasbulk_708_2_alg».proof.Proof.RBRun1C

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : cond1_0 i) (hc1 : ¬cond1_1 i)
    (x0 : Vec F S512x512 .bf16) (x1 : Vec F S512x256 .bf16) (x2 : Vec F S1x256 .f32) (y : S512x256.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S512x256.size (by sl_kernel_rfl) y

/-- The accumulator after a point with k = 0. -/
def sout1_A (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : cond1_0 i) (hc1 : ¬cond1_1 i)
    (x0 : Vec F S512x512 .bf16) (x1 : Vec F S512x256 .bf16) (x2 : Vec F S1x256 .f32) : Vec F S512x256 .f32 :=
  VS1.read (Elt F) (VS1.writes (Elt F) VS1.junk (kernelRun1_A c i arg2 harg2 arg3 harg3 arg4 harg4 arg5 harg5 arg6 harg6 hc0 hc1 x0 x1 x2).1)

theorem scover1_B (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : ¬cond1_1 i)
    (x0 : Vec F S512x512 .bf16) (x1 : Vec F S512x256 .bf16) (x2 : Vec F S1x256 .f32) (xs : Vec F S512x256 .f32) (y : S512x256.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S512x256.size (by sl_kernel_rfl) y

/-- The accumulator after a point with 0 < k < 7, from what the point before left. -/
def sout1_B (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : ¬cond1_1 i)
    (x0 : Vec F S512x512 .bf16) (x1 : Vec F S512x256 .bf16) (x2 : Vec F S1x256 .f32) (xs : Vec F S512x256 .f32) : Vec F S512x256 .f32 :=
  VS1.read (Elt F) (VS1.writes (Elt F) VS1.junk (kernelRun1_B c i arg2 harg2 arg3 harg3 arg4 harg4 arg5 harg5 arg6 harg6 hc0 hc1 x0 x1 x2 xs).1)

theorem scover1_C (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : cond1_1 i)
    (x0 : Vec F S512x512 .bf16) (x1 : Vec F S512x256 .bf16) (x2 : Vec F S1x256 .f32) (xs : Vec F S512x256 .f32) (y : S512x256.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S512x256.size (by sl_kernel_rfl) y

/-- The accumulator after a point with k = 7. -/
def sout1_C (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : cond1_1 i)
    (x0 : Vec F S512x512 .bf16) (x1 : Vec F S512x256 .bf16) (x2 : Vec F S1x256 .f32) (xs : Vec F S512x256 .f32) : Vec F S512x256 .f32 :=
  VS1.read (Elt F) (VS1.writes (Elt F) VS1.junk (kernelRun1_C c i arg2 harg2 arg3 harg3 arg4 harg4 arg5 harg5 arg6 harg6 hc0 hc1 x0 x1 x2 xs).2.1)

theorem cover1_C (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : cond1_1 i)
    (x0 : Vec F S512x512 .bf16) (x1 : Vec F S512x256 .bf16) (x2 : Vec F S1x256 .f32) (xs : Vec F S512x256 .f32) (y : S512x256.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S512x256.size (by sl_kernel_rfl) y

/-- The output block after a point with k = 7. -/
def out1_C (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : cond1_1 i)
    (x0 : Vec F S512x512 .bf16) (x1 : Vec F S512x256 .bf16) (x2 : Vec F S1x256 .f32) (xs : Vec F S512x256 .f32) : Vec F S512x256 .bf16 :=
  VO1.read (Elt F) (VO1.writes (Elt F) VO1.junk (kernelRun1_C c i arg2 harg2 arg3 harg3 arg4 harg4 arg5 harg5 arg6 harg6 hc0 hc1 x0 x1 x2 xs).1)

/-- Where the output window is idle nothing consults its block: a placeholder. -/
def idleOut1 : Vec F S512x256 .bf16 := VO1.read (Elt F) VO1.junk

/-! ## Point by point -/

/-- The three cases at point t, on the memrefs and blocks the pipeline calls the body with. -/
def accA1 (c : Dev nD) (t : Fin cfg1.N) (hc0 : cond1_0 (grid1.coords t)) (hc1 : ¬cond1_1 (grid1.coords t)) : Vec F S512x256 .f32 :=
  sout1_A c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t)
def accB1 (c : Dev nD) (t : Fin cfg1.N) (hc0 : ¬cond1_0 (grid1.coords t)) (hc1 : ¬cond1_1 (grid1.coords t)) (xs : Vec F S512x256 .f32) : Vec F S512x256 .f32 :=
  sout1_B c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) xs
def accC1 (c : Dev nD) (t : Fin cfg1.N) (hc0 : ¬cond1_0 (grid1.coords t)) (hc1 : cond1_1 (grid1.coords t)) (xs : Vec F S512x256 .f32) : Vec F S512x256 .f32 :=
  sout1_C c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) xs
def outC1 (c : Dev nD) (t : Fin cfg1.N) (hc0 : ¬cond1_0 (grid1.coords t)) (hc1 : cond1_1 (grid1.coords t)) (xs : Vec F S512x256 .f32) : Vec F S512x256 .bf16 :=
  out1_C c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) xs

/-- THE ACCUMULATION: the output block and the accumulator after the body at position n. -/
def outsAt1 (c : Dev nD) : (n : ℕ) → n < cfg1.N → Vec F S512x256 .bf16 × Vec F S512x256 .f32
  | 0, hn => (idleOut1, accA1 V c ⟨0, hn⟩ ((hcond1_0 ⟨0, hn⟩).mpr (Nat.zero_mod _)) (fun h => by have := (hcond1_1 ⟨0, hn⟩).mp h; (try dsimp only at this); omega))
  | n + 1, hn =>
    if h0 : (n + 1) % 8 = 0 then
      (idleOut1, accA1 V c ⟨n + 1, hn⟩ ((hcond1_0 ⟨n + 1, hn⟩).mpr h0) (fun h => by have := (hcond1_1 ⟨n + 1, hn⟩).mp h; (try dsimp only at this); omega))
    else if h1 : (n + 1) % 8 = 7 then
      (outC1 V c ⟨n + 1, hn⟩ (fun h => h0 ((hcond1_0 ⟨n + 1, hn⟩).mp h)) ((hcond1_1 ⟨n + 1, hn⟩).mpr h1) (outsAt1 c n (Nat.lt_of_succ_lt hn)).2,
       accC1 V c ⟨n + 1, hn⟩ (fun h => h0 ((hcond1_0 ⟨n + 1, hn⟩).mp h)) ((hcond1_1 ⟨n + 1, hn⟩).mpr h1) (outsAt1 c n (Nat.lt_of_succ_lt hn)).2)
    else
      (idleOut1, accB1 V c ⟨n + 1, hn⟩ (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 8 = 0) (hc0 : cond1_0 (grid1.coords t)) (hc1 : ¬cond1_1 (grid1.coords t)) :
    outsAt1 V c t.val t.isLt = (idleOut1, accA1 V c t hc0 hc1) := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) (hc0 : ¬cond1_0 (grid1.coords t)) (hc1 : ¬cond1_1 (grid1.coords t)) :
    outsAt1 V c t.val t.isLt = (idleOut1, accB1 V c t hc0 hc1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) (hc0 : ¬cond1_0 (grid1.coords t)) (hc1 : cond1_1 (grid1.coords t)) :
    outsAt1 V c t.val t.isLt = (outC1 V c t hc0 hc1 (outsAt1 V c (t.val - 1) (Nat.lt_of_le_of_lt (Nat.sub_le _ _) t.isLt)).2,
      accC1 V c t hc0 hc1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region invariant -/

/-- Before the first point: every scoped buffer at anything; afterwards: the accumulator at what the point before left,
    the other scoped buffers at anything; the generator register at some state throughout. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.RefSide.B

end
-- ==== Proof.RBBody1.lean ====
/-
  Region 1 of the reference program: the body at every grid point meets the pipeline's obligation.
  The point's position decides the control case (k = t mod 8); the invariant hands the body the accumulator at what
  the point before left (at anything before the first point, and at k = 0 its contents do not matter), and takes it
  back at this point's contents; the input blocks are left as found; the output block is stored only at k = 7 and is
  otherwise handed back untouched, the pipeline neither writing it back nor reading it there.
-/
import proofs.«180427_g2000709331088930_pallasbulk_708_2_alg».proof.Proof.RBAcc1

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [outsAt1_A V c t h0 hc0 hc1]
    unfold accA1 sout1_A; (try dsimp only)
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun hz => h0 (by rw [hz])
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1 hc0 hc1]
      unfold outC1 accC1 out1_C sout1_C; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover1_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1 hc0 hc1]
      unfold accB1 sout1_B; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover1_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is every scoped buffer at anything and the generator register. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the accumulator's contents are forgotten. -/
theorem Phi_out1 (c : Dev nD) : (dat1 V c).Φ (Fin.last cfg1.N) ⊢ Pipeline.ΦA spec1 c := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, Hoth⟩, Hg⟩
  isplitl [HS Hoth]
  · isplitl [HS]
    · iexists _; iexact HS
    iexact Hoth
  iexact Hg

end Cert.RefSide.B

end
-- ==== Proof.RBShared3.lean ====
/-
  Region 3 of the reference program: a propagation step out = epilogue (adj · s + b) computed over an 8 × 8 grid
  (row slab i, column slab k), the partial products accumulated in a scratch buffer that the kernel carries from one
  grid point to the next: cleared at k = 0, added to at every k, read out through the epilogue into the output
  block at k = 7.  This module holds what the three control cases share: the two branch conditions in closed form
  over the 64 grid points (point t has k = t mod 8), where the output window is idle, the staging memrefs, and the
  region invariant split into the carried scratch and everything else the region never opens.
-/
import proofs.«180427_g2000709331088930_pallasbulk_708_2_alg».proof.Proof.Gen.ReferenceIdeal.Launch
import proofs.«180427_g2000709331088930_pallasbulk_708_2_alg».proof.Proof.Gen.ReferenceIdeal.Skeleton
import proofs.«180427_g2000709331088930_pallasbulk_708_2_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions -/

/-- "k = 0": the accumulator is cleared. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- "k = 7": the epilogue runs and the output block is stored. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from k = 7 the output window is idle and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

abbrev VO3 : View sig .tc .vmem S512x128 .f32 := (Memref.whole cc3_stg3_0 : Memref sig .tc .vmem S512x128 .f32).view
abbrev ms3_0 (t : Fin cfg3.N) : Memref sig .tc .vmem S512x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x128 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3 : Memref sig .tc .vmem S512x128 .f32 := Memref.whole cc3_scratch0
abbrev VS3 : View sig .tc .vmem S512x128 .f32 := scM3.view

/-! ## The region invariant, split at the accumulator -/

/-- Every scoped buffer of the core other than this call's staging buffers and its accumulator, at some contents each:
    the region never opens them. -/
abbrev others3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3 fullShare d) ∗ others3 (F := F) c) ∗ (∃ r, prngReg c r)) := by
  unfold Pipeline.ΦA
  rw [Pipeline.scopedRest_split_of_list spec3 c [cc3_scratch0] (by decide) (by decide)]
  simp only [scM3, owns_whole, bigSepL]
  rfl

end Cert.RefSide.B

end
-- ==== Proof.RBRun3A.lean ====
/-
  Region 3 of the reference program, the kernel body in one of its three control cases.
  At a point with k = 0: the accumulator, whatever it held, is cleared and the slab product added to it; the output block is
    not touched.
  The body is run symbolically on whole staging memrefs; what its stores leave in the accumulator
  is recorded as the list of stored pieces (last first) that the run finds.
-/
import proofs.«180427_g2000709331088930_pallasbulk_708_2_alg».proof.Proof.RBShared3

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
/-- At a point with k = 0: the accumulator, whatever it held, is cleared and the slab product added to it; the output block is
    not touched. -/
noncomputable def kernelRun3_A (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond3_0 i) (hc1 : ¬cond3_1 i)
    (x0 : Vec F S512x512 .bf16) (x1 : Vec F S512x128 .bf16) (x2 : Vec F S1x128 .f32) :
    { LS : List (View.Piece (Elt F) S512x128 .f32) //
      ∀ (xi : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc3__prop_logsoftmax_kernel i arg2 harg2 arg3 harg3 arg4 harg4 arg5 harg5 arg6 harg6) K } := by
  refine ⟨?_, fun xi E K => ?run⟩
  case run =>
    simp only [cc3__prop_logsoftmax_kernel_eq_skeleton]; unfold cc3__prop_logsoftmax_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.RefSide.B

end
-- ==== Proof.RBRun3B.lean ====
/-
  Region 3 of the reference program, the kernel body in one of its three control cases.
  At a point with 0 < k < 7: the slab product is added to what the point before left in the accumulator; the output block
    is not touched.
  The body is run symbolically on whole staging memrefs; what its stores leave in the accumulator
  is recorded as the list of stored pieces (last first) that the run finds.
-/
import proofs.«180427_g2000709331088930_pallasbulk_708_2_alg».proof.Proof.RBShared3

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
/-- At a point with 0 < k < 7: the slab product is added to what the point before left in the accumulator; the output block
    is not touched. -/
noncomputable def kernelRun3_B (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : ¬cond3_1 i)
    (x0 : Vec F S512x512 .bf16) (x1 : Vec F S512x128 .bf16) (x2 : Vec F S1x128 .f32) (xs : Vec F S512x128 .f32) :
    { LS : List (View.Piece (Elt F) S512x128 .f32) //
      ∀ (xi : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc3__prop_logsoftmax_kernel i arg2 harg2 arg3 harg3 arg4 harg4 arg5 harg5 arg6 harg6) K } := by
  refine ⟨?_, fun xi E K => ?run⟩
  case run =>
    simp only [cc3__prop_logsoftmax_kernel_eq_skeleton]; unfold cc3__prop_logsoftmax_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.RefSide.B

end
-- ==== Proof.RBRun3C.lean ====
/-
  Region 3 of the reference program, the kernel body in one of its three control cases.
  At a point with k = 7: the slab product is added to what the point before left in the accumulator, and the epilogue of
    the completed sum is stored over the whole output block.
  The body is run symbolically on whole staging memrefs; what its stores leave in the accumulator and in the output block
  is recorded as the list of stored pieces (last first) that the run finds.
-/
import proofs.«180427_g2000709331088930_pallasbulk_708_2_alg».proof.Proof.RBShared3

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
/-- At a point with k = 7: the slab product is added to what the point before left in the accumulator, and the epilogue of
    the completed sum is stored over the whole output block. -/
noncomputable def kernelRun3_C (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : cond3_1 i)
    (x0 : Vec F S512x512 .bf16) (x1 : Vec F S512x128 .bf16) (x2 : Vec F S1x128 .f32) (xs : Vec F S512x128 .f32) :
    Σ' (LO : List (View.Piece (Elt F) S512x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3__prop_logsoftmax_kernel i arg2 harg2 arg3 harg3 arg4 harg4 arg5 harg5 arg6 harg6) K } := by
  refine ⟨?_, ?_, fun E K => ?run⟩
  case run =>
    simp only [cc3__prop_logsoftmax_kernel_eq_skeleton]; unfold cc3__prop_logsoftmax_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.RefSide.B

end
-- ==== Proof.RBAcc3.lean ====
/-
  Region 3 of the reference program: what the accumulator and the output block hold after each grid point.
  Each control case's stored pieces cover the buffer they are stored into, so what the case leaves there is one
  function of what it read.  Point by point: at k = 0 the accumulator restarts from the slab product alone, at the
  other points it continues from what the point before left, and at k = 7 the output block is the epilogue of the
  completed accumulator.  The region invariant carries the accumulator at exactly these contents from one point to
  the next.
-/
import proofs.«180427_g2000709331088930_pallasbulk_708_2_alg».proof.Proof.RBRun3A
import proofs.«180427_g2000709331088930_pallasbulk_708_2_alg».proof.Proof.RBRun3B
import proofs.«180427_g2000709331088930_pallasbulk_708_2_alg».proof.Proof.RBRun3C

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover3_A (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond3_0 i) (hc1 : ¬cond3_1 i)
    (x0 : Vec F S512x512 .bf16) (x1 : Vec F S512x128 .bf16) (x2 : Vec F S1x128 .f32) (y : S512x128.Idx) :
    ∃ pc ∈ (kernelRun3_A c i arg2 harg2 arg3 harg3 arg4 harg4 arg5 harg5 arg6 harg6 hc0 hc1 x0 x1 x2).1, y ∈ pc.1.set :=
  View.cover_of_tiledL (kernelRun3_A c i arg2 harg2 arg3 harg3 arg4 harg4 arg5 harg5 arg6 harg6 hc0 hc1 x0 x1 x2).1 S512x128.size (by sl_kernel_rfl) y

/-- The accumulator after a point with k = 0. -/
def sout3_A (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond3_0 i) (hc1 : ¬cond3_1 i)
    (x0 : Vec F S512x512 .bf16) (x1 : Vec F S512x128 .bf16) (x2 : Vec F S1x128 .f32) : Vec F S512x128 .f32 :=
  VS3.read (Elt F) (VS3.writes (Elt F) VS3.junk (kernelRun3_A c i arg2 harg2 arg3 harg3 arg4 harg4 arg5 harg5 arg6 harg6 hc0 hc1 x0 x1 x2).1)

theorem scover3_B (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : ¬cond3_1 i)
    (x0 : Vec F S512x512 .bf16) (x1 : Vec F S512x128 .bf16) (x2 : Vec F S1x128 .f32) (xs : Vec F S512x128 .f32) (y : S512x128.Idx) :
    ∃ pc ∈ (kernelRun3_B c i arg2 harg2 arg3 harg3 arg4 harg4 arg5 harg5 arg6 harg6 hc0 hc1 x0 x1 x2 xs).1, y ∈ pc.1.set :=
  View.cover_of_tiledL (kernelRun3_B c i arg2 harg2 arg3 harg3 arg4 harg4 arg5 harg5 arg6 harg6 hc0 hc1 x0 x1 x2 xs).1 S512x128.size (by sl_kernel_rfl) y

/-- The accumulator after a point with 0 < k < 7, from what the point before left. -/
def sout3_B (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : ¬cond3_1 i)
    (x0 : Vec F S512x512 .bf16) (x1 : Vec F S512x128 .bf16) (x2 : Vec F S1x128 .f32) (xs : Vec F S512x128 .f32) : Vec F S512x128 .f32 :=
  VS3.read (Elt F) (VS3.writes (Elt F) VS3.junk (kernelRun3_B c i arg2 harg2 arg3 harg3 arg4 harg4 arg5 harg5 arg6 harg6 hc0 hc1 x0 x1 x2 xs).1)

theorem scover3_C (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : cond3_1 i)
    (x0 : Vec F S512x512 .bf16) (x1 : Vec F S512x128 .bf16) (x2 : Vec F S1x128 .f32) (xs : Vec F S512x128 .f32) (y : S512x128.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S512x128.size (by sl_kernel_rfl) y

/-- The accumulator after a point with k = 7. -/
def sout3_C (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : cond3_1 i)
    (x0 : Vec F S512x512 .bf16) (x1 : Vec F S512x128 .bf16) (x2 : Vec F S1x128 .f32) (xs : Vec F S512x128 .f32) : Vec F S512x128 .f32 :=
  VS3.read (Elt F) (VS3.writes (Elt F) VS3.junk (kernelRun3_C c i arg2 harg2 arg3 harg3 arg4 harg4 arg5 harg5 arg6 harg6 hc0 hc1 x0 x1 x2 xs).2.1)

theorem cover3_C (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : cond3_1 i)
    (x0 : Vec F S512x512 .bf16) (x1 : Vec F S512x128 .bf16) (x2 : Vec F S1x128 .f32) (xs : Vec F S512x128 .f32) (y : S512x128.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S512x128.size (by sl_kernel_rfl) y

/-- The output block after a point with k = 7. -/
def out3_C (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : cond3_1 i)
    (x0 : Vec F S512x512 .bf16) (x1 : Vec F S512x128 .bf16) (x2 : Vec F S1x128 .f32) (xs : Vec F S512x128 .f32) : Vec F S512x128 .f32 :=
  VO3.read (Elt F) (VO3.writes (Elt F) VO3.junk (kernelRun3_C c i arg2 harg2 arg3 harg3 arg4 harg4 arg5 harg5 arg6 harg6 hc0 hc1 x0 x1 x2 xs).1)

/-- Where the output window is idle nothing consults its block: a placeholder. -/
def idleOut3 : Vec F S512x128 .f32 := VO3.read (Elt F) VO3.junk

/-! ## Point by point -/

/-- The three cases at point t, on the memrefs and blocks the pipeline calls the body with. -/
def accA3 (c : Dev nD) (t : Fin cfg3.N) (hc0 : cond3_0 (grid3.coords t)) (hc1 : ¬cond3_1 (grid3.coords t)) : Vec F S512x128 .f32 :=
  sout3_A c (grid3.coords t) (ms3_0 t) (hs3_0 t) (ms3_1 t) (hs3_1 t) (ms3_2 t) (hs3_2 t) (ms3_3 t) (hs3_3 t) scM3 (Memref.isWhole_whole _) hc0 hc1 (iblk3 V c 0 t) (iblk3 V c 1 t) (iblk3 V c 2 t)
def accB3 (c : Dev nD) (t : Fin cfg3.N) (hc0 : ¬cond3_0 (grid3.coords t)) (hc1 : ¬cond3_1 (grid3.coords t)) (xs : Vec F S512x128 .f32) : Vec F S512x128 .f32 :=
  sout3_B c (grid3.coords t) (ms3_0 t) (hs3_0 t) (ms3_1 t) (hs3_1 t) (ms3_2 t) (hs3_2 t) (ms3_3 t) (hs3_3 t) scM3 (Memref.isWhole_whole _) hc0 hc1 (iblk3 V c 0 t) (iblk3 V c 1 t) (iblk3 V c 2 t) xs
def accC3 (c : Dev nD) (t : Fin cfg3.N) (hc0 : ¬cond3_0 (grid3.coords t)) (hc1 : cond3_1 (grid3.coords t)) (xs : Vec F S512x128 .f32) : Vec F S512x128 .f32 :=
  sout3_C c (grid3.coords t) (ms3_0 t) (hs3_0 t) (ms3_1 t) (hs3_1 t) (ms3_2 t) (hs3_2 t) (ms3_3 t) (hs3_3 t) scM3 (Memref.isWhole_whole _) hc0 hc1 (iblk3 V c 0 t) (iblk3 V c 1 t) (iblk3 V c 2 t) xs
def outC3 (c : Dev nD) (t : Fin cfg3.N) (hc0 : ¬cond3_0 (grid3.coords t)) (hc1 : cond3_1 (grid3.coords t)) (xs : Vec F S512x128 .f32) : Vec F S512x128 .f32 :=
  out3_C c (grid3.coords t) (ms3_0 t) (hs3_0 t) (ms3_1 t) (hs3_1 t) (ms3_2 t) (hs3_2 t) (ms3_3 t) (hs3_3 t) scM3 (Memref.isWhole_whole _) hc0 hc1 (iblk3 V c 0 t) (iblk3 V c 1 t) (iblk3 V c 2 t) xs

/-- THE ACCUMULATION: the output block and the accumulator after the body at position n. -/
def outsAt3 (c : Dev nD) : (n : ℕ) → n < cfg3.N → Vec F S512x128 .f32 × Vec F S512x128 .f32
  | 0, hn => (idleOut3, accA3 V c ⟨0, hn⟩ ((hcond3_0 ⟨0, hn⟩).mpr (Nat.zero_mod _)) (fun h => by have := (hcond3_1 ⟨0, hn⟩).mp h; (try dsimp only at this); omega))
  | n + 1, hn =>
    if h0 : (n + 1) % 8 = 0 then
      (idleOut3, accA3 V c ⟨n + 1, hn⟩ ((hcond3_0 ⟨n + 1, hn⟩).mpr h0) (fun h => by have := (hcond3_1 ⟨n + 1, hn⟩).mp h; (try dsimp only at this); omega))
    else if h1 : (n + 1) % 8 = 7 then
      (outC3 V c ⟨n + 1, hn⟩ (fun h => h0 ((hcond3_0 ⟨n + 1, hn⟩).mp h)) ((hcond3_1 ⟨n + 1, hn⟩).mpr h1) (outsAt3 c n (Nat.lt_of_succ_lt hn)).2,
       accC3 V c ⟨n + 1, hn⟩ (fun h => h0 ((hcond3_0 ⟨n + 1, hn⟩).mp h)) ((hcond3_1 ⟨n + 1, hn⟩).mpr h1) (outsAt3 c n (Nat.lt_of_succ_lt hn)).2)
    else
      (idleOut3, accB3 V c ⟨n + 1, hn⟩ (fun h => h0 ((hcond3_0 ⟨n + 1, hn⟩).mp h)) (fun h => h1 ((hcond3_1 ⟨n + 1, hn⟩).mp h)) (outsAt3 c n (Nat.lt_of_succ_lt hn)).2)

theorem outsAt3_A (c : Dev nD) (t : Fin cfg3.N) (h0 : t.val % 8 = 0) (hc0 : cond3_0 (grid3.coords t)) (hc1 : ¬cond3_1 (grid3.coords t)) :
    outsAt3 V c t.val t.isLt = (idleOut3, accA3 V c t hc0 hc1) := by
  obtain ⟨n, hn⟩ := t
  cases n with
  | zero => rfl
  | succ n => exact (dif_pos h0).trans rfl

theorem outsAt3_B (c : Dev nD) (t : Fin cfg3.N) (h0 : ¬t.val % 8 = 0) (h1 : ¬t.val % 8 = 7) (hc0 : ¬cond3_0 (grid3.coords t)) (hc1 : ¬cond3_1 (grid3.coords t)) :
    outsAt3 V c t.val t.isLt = (idleOut3, accB3 V c t hc0 hc1 (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 8 = 0) (h1 : t.val % 8 = 7) (hc0 : ¬cond3_0 (grid3.coords t)) (hc1 : cond3_1 (grid3.coords t)) :
    outsAt3 V c t.val t.isLt = (outC3 V c t hc0 hc1 (outsAt3 V c (t.val - 1) (Nat.lt_of_le_of_lt (Nat.sub_le _ _) t.isLt)).2,
      accC3 V c t hc0 hc1 (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region invariant -/

/-- Before the first point: every scoped buffer at anything; afterwards: the accumulator at what the point before left,
    the other scoped buffers at anything; the generator register at some state throughout. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ others3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ others3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ others3 (F := F) c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Cert.RefSide.B

end
-- ==== Proof.RBBody3.lean ====
/-
  Region 3 of the reference program: the body at every grid point meets the pipeline's obligation.
  The point's position decides the control case (k = t mod 8); the invariant hands the body the accumulator at what
  the point before left (at anything before the first point, and at k = 0 its contents do not matter), and takes it
  back at this point's contents; the input blocks are left as found; the output block is stored only at k = 7 and is
  otherwise handed back untouched, the pipeline neither writing it back nor reading it there.
-/
import proofs.«180427_g2000709331088930_pallasbulk_708_2_alg».proof.Proof.RBAcc3

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 64 := lt_of_lt_of_eq t.isLt (show cfg3.N = 64 from N_3)
  by_cases h0 : t.val % 8 = 0
  · have h1 : ¬t.val % 8 = 7 := by omega
    have hc0 : cond3_0 (grid3.coords t) := (hcond3_0 t).mpr h0
    have hc1 : ¬cond3_1 (grid3.coords t) := fun h => h1 ((hcond3_1 t).mp h)
    rw [Dat.leavesExact_idle (dat3 V c) 3 t (idleAt3_3 t hc1) (noFlush3_3 t hc1)]
    rw [outsAt3_A V c t h0 hc0 hc1]
    unfold accA3 sout3_A; (try dsimp only)
    by_cases hz : t.val = 0
    · rw [PhiS3_castSucc V c t, PhiS3_zero V c _ _ hz, PhiA3_eq]
      iintro ⟨⟨⟨HS, Hoth⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover3_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hoth⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover3_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hc0 : ¬cond3_0 (grid3.coords t) := fun h => h0 ((hcond3_0 t).mp h)
    have hz : t.val ≠ 0 := fun hz => h0 (by rw [hz])
    by_cases h1 : t.val % 8 = 7
    · have hc1 : cond3_1 (grid3.coords t) := (hcond3_1 t).mpr h1
      rw [show (dat3 V c).leavesExact 3 t = owns (c : Thread nD τ) (ms3_3 t) fullShare ((dat3 V c).after 3 t) from by
        unfold Dat.leavesExact; rw [liveAt3_3 t hc1], after3_3]
      rw [outsAt3_C V c t h0 h1 hc0 hc1]
      unfold outC3 accC3 out3_C sout3_C; (try dsimp only)
      rw [PhiS3_castSucc V c t, PhiS3_pos V c _ _ hz]
      iintro ⟨⟨⟨HS, Hoth⟩, Hg⟩, Ho, ⟨%d0, H0⟩, ⟨%d1, H1⟩, ⟨%d2, H2⟩, ⟨%d3, H3⟩⟩
      iapply ((kernelRun3_C c (grid3.coords t) _ _ _ _ _ _ _ _ _ _ hc0 hc1 (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover3_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · have hc1 : ¬cond3_1 (grid3.coords t) := fun h => h1 ((hcond3_1 t).mp h)
      rw [Dat.leavesExact_idle (dat3 V c) 3 t (idleAt3_3 t hc1) (noFlush3_3 t hc1)]
      rw [outsAt3_B V c t h0 h1 hc0 hc1]
      unfold accB3 sout3_B; (try dsimp only)
      rw [PhiS3_castSucc V c t, PhiS3_pos V c _ _ hz]
      iintro ⟨⟨⟨HS, Hoth⟩, Hg⟩, Ho, ⟨%d0, H0⟩, ⟨%d1, H1⟩, ⟨%d2, H2⟩, ⟨%d3, H3⟩⟩
      iapply ((kernelRun3_B c (grid3.coords t) _ _ _ _ _ _ _ _ _ _ hc0 hc1 (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover3_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-- Before the first point the invariant is every scoped buffer at anything and the generator register. -/
theorem Phi_in3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives that back: the accumulator's contents are forgotten. -/
theorem Phi_out3 (c : Dev nD) : (dat3 V c).Φ (Fin.last cfg3.N) ⊢ Pipeline.ΦA spec3 c := by
  have hN : cfg3.N = 64 := N_3
  rw [show (dat3 V c).Φ (Fin.last cfg3.N) = PhiS3 V c (Fin.last cfg3.N).val (Nat.le_of_lt_succ (Fin.last cfg3.N).isLt) from rfl,
    PhiS3_pos V c _ _ (by rw [Fin.val_last]; omega), PhiA3_eq]
  iintro ⟨⟨HS, Hoth⟩, Hg⟩
  isplitl [HS Hoth]
  · isplitl [HS]
    · iexists _; iexact HS
    iexact Hoth
  iexact Hg

end Cert.RefSide.B

end
-- ==== Proof.RRun.lean ====
/-
  The reference program's run, segment by segment: thirty host operations, then four kernel regions.
  The buffer contents at each boundary are a fold from the launch memory: after the host operations, then after each
  region with that region's arrays at what its write-backs leave and every other buffer as it was.  No region has an
  argument array among its windows and no host operation writes one, so every argument reaches the end as launched;
  the result buffer ends at what the last region's write-backs leave in its output array.
-/
import proofs.«180427_g2000709331088930_pallasbulk_708_2_alg».proof.Proof.RAReg0
import proofs.«180427_g2000709331088930_pallasbulk_708_2_alg».proof.Proof.RAReg2
import proofs.«180427_g2000709331088930_pallasbulk_708_2_alg».proof.Proof.RBBody1
import proofs.«180427_g2000709331088930_pallasbulk_708_2_alg».proof.Proof.RBBody3
import proofs.«180427_g2000709331088930_pallasbulk_708_2_alg».proof.Proof.Gen.ReferenceIdeal.Regions
import Idealize.ShloMosaic.Lib.Pipeline.RegionsLoop
import Idealize.ShloMosaic.Lib.Pipeline.FrameSuffix

set_option maxRecDepth 16384

noncomputable section

namespace Cert.RefSide.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.RefSide.A Cert.RefSide.B

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m ((c : Dev nD), b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At region 3's exit: its arrays at what the pipeline leaves, every other buffer as entered. -/
def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

/-! ## The arguments end as launched -/

theorem W1_of_arg (c : Dev nD) (b : Ref sig .tc) (h : b ∉ hostOps0_W) : W1 m c (Proc.devRef .tc b) = m ((c : Thread nD τ).loc b) :=
  (StableHlo.after_of_writes_sub hostOps0 _ hostOps0_writes h).trans rfl
theorem W5_main_arg0 (c : Dev nD) : W5 m c (Proc.devRef .tc main_arg0) = m ((c : Thread nD τ).loc main_arg0) :=
  (W5_of_ne m c main_arg0 (by decide)).trans <| (W4_of_ne m c main_arg0 (by decide)).trans <| (W3_of_ne m c main_arg0 (by decide)).trans <|
    (W2_of_ne m c main_arg0 (by decide)).trans (W1_of_arg m c main_arg0 (by decide))
theorem W5_main_arg1 (c : Dev nD) : W5 m c (Proc.devRef .tc main_arg1) = m ((c : Thread nD τ).loc main_arg1) :=
  (W5_of_ne m c main_arg1 (by decide)).trans <| (W4_of_ne m c main_arg1 (by decide)).trans <| (W3_of_ne m c main_arg1 (by decide)).trans <|
    (W2_of_ne m c main_arg1 (by decide)).trans (W1_of_arg m c main_arg1 (by decide))
theorem W5_main_arg2 (c : Dev nD) : W5 m c (Proc.devRef .tc main_arg2) = m ((c : Thread nD τ).loc main_arg2) :=
  (W5_of_ne m c main_arg2 (by decide)).trans <| (W4_of_ne m c main_arg2 (by decide)).trans <| (W3_of_ne m c main_arg2 (by decide)).trans <|
    (W2_of_ne m c main_arg2 (by decide)).trans (W1_of_arg m c main_arg2 (by decide))
theorem W5_main_arg3 (c : Dev nD) : W5 m c (Proc.devRef .tc main_arg3) = m ((c : Thread nD τ).loc main_arg3) :=
  (W5_of_ne m c main_arg3 (by decide)).trans <| (W4_of_ne m c main_arg3 (by decide)).trans <| (W3_of_ne m c main_arg3 (by decide)).trans <|
    (W2_of_ne m c main_arg3 (by decide)).trans (W1_of_arg m c main_arg3 (by decide))
theorem W5_main_arg4 (c : Dev nD) : W5 m c (Proc.devRef .tc main_arg4) = m ((c : Thread nD τ).loc main_arg4) :=
  (W5_of_ne m c main_arg4 (by decide)).trans <| (W4_of_ne m c main_arg4 (by decide)).trans <| (W3_of_ne m c main_arg4 (by decide)).trans <|
    (W2_of_ne m c main_arg4 (by decide)).trans (W1_of_arg m c main_arg4 (by decide))
theorem W5_main_arg5 (c : Dev nD) : W5 m c (Proc.devRef .tc main_arg5) = m ((c : Thread nD τ).loc main_arg5) :=
  (W5_of_ne m c main_arg5 (by decide)).trans <| (W4_of_ne m c main_arg5 (by decide)).trans <| (W3_of_ne m c main_arg5 (by decide)).trans <|
    (W2_of_ne m c main_arg5 (by decide)).trans (W1_of_arg m c main_arg5 (by decide))

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-- The generator register, anything, and region 1's scoped rest make the region's invariant before the first point. -/
theorem PhiA_of1 (P : sProp 𝕄) (c : Dev nD) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and that invariant gives them back. -/
theorem PhiA_back1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-- The generator register, anything, and region 3's scoped rest make the region's invariant before the first point. -/
theorem PhiA_of3 (P : sProp 𝕄) (c : Dev nD) :
    iprop((∃ r, prngReg c r) ∗ P ∗ Pipeline.scopedRest (Ix := Unit) (Name := ℕ) (U := UR sig nD τ) (Lvl := ℕ) (Val := Elt F) spec3 c)
      ⊢ (Pipeline.ΦA spec3 c : sProp 𝕄) := by
  unfold Pipeline.ΦA
  iintro ⟨Hp, -, Hr⟩
  isplitl [Hr]; · iexact Hr
  iexact Hp
/-- and that invariant gives them back. -/
theorem PhiA_back3 (c : Dev nD) :
    (Pipeline.ΦA spec3 c : sProp 𝕄)
      ⊢ iprop((∃ r, prngReg c r) ∗ BI.emp ∗ Pipeline.scopedRest (Ix := Unit) (Name := ℕ) (U := UR sig nD τ) (Lvl := ℕ) (Val := Elt F) spec3 c) := by
  unfold Pipeline.ΦA
  iintro ⟨Hr, Hp⟩
  isplitl [Hp]; · iexact Hp
  isplitr; · iempintro
  iexact Hr

/-! ## The regions as segments -/

set_option backward.isDefEq.respectTransparency.types false in
/-- Region 0: entered from every unscoped buffer at the contents before it, left at the contents after it; its arrays
    are split out of the unscoped buffers and put back at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at the contents after it; its arrays
    are split out of the unscoped buffers and put back at what the write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_of1 _ c).trans (Phi_in1 (V2 m) c)
  hout c := by
    rw [Pipeline.ownSems0_none]
    exact (Phi_out1 (V2 m) c).trans (PhiA_back1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at the contents after it; its arrays
    are split out of the unscoped buffers and put back at what the write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at the contents after it; its arrays
    are split out of the unscoped buffers and put back at what the write-backs leave. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_of3 _ c).trans (Phi_in3 (V4 m) c)
  hout c := by
    rw [Pipeline.ownSems0_none]
    exact (Phi_out3 (V4 m) c).trans (PhiA_back3 c)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .region (reg3 m) ]
theorem main_run (c : Dev nD) : main (F := F) c = Pipeline.Seg.run (segs m) := (main_chain c).trans (by chain_rfl)

set_option backward.isDefEq.respectTransparency.types false in
/-- From any memory with zero counters every weakly fair execution of the reference program terminates without a
    fault; the result buffer ends at what region 3's write-backs leave in its output array, and every argument array
    as launched. -/
theorem run_arr : θ_run defs (onTc (τ := τ) (main (F := F))) ⟨m, fun _ => 0, ρ⟩ (fun r => ∀ c : Dev nD,
      r.2.mem ((c.tc : Thread nD τ).loc main_v21) = (dat3 (V4 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨(h c _ (mem_uc main_v21 (by decide))).trans (W5_arr m c 3),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c),
       (h c _ (mem_uc main_arg4 (by decide))).trans (W5_main_arg4 m c),
       (h c _ (mem_uc main_arg5 (by decide))).trans (W5_main_arg5 m c)⟩)

end Cert.RefSide.Run

end
-- ==== Proof.RTrack.lean ====
/-
  Which boundary contents each region reads: a buffer a region does not stage is the same before and after it, an
  input window's array is left as entered, and an output window's array ends at what the write-backs leave.  So the
  adjacency, the two weight matrices and the two bias rows are read, wherever a later region stages them, at what
  the host operations left; and each region's product is read by the next region at what that region's write-backs
  left.
-/
import proofs.«180427_g2000709331088930_pallasbulk_708_2_alg».proof.Proof.RRun

set_option maxRecDepth 16384

noncomputable section

namespace Cert.RefSide.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.RefSide.A Cert.RefSide.B

variable (m : (ℓ : Loc nD τ sig) → Buf (Elt F) ℓ) (ρ : Dev nD → PrngReg)

theorem V2_v18 (c : Dev nD) : V2 m c main_v18 = (dat0 (V1 m) c).arrAt 2 cfg0.N := W2_arr m c 2
theorem V2_v5 (c : Dev nD) : V2 m c main_v5 = V1 m c main_v5 := W2_of_ne m c main_v5 (by decide)
theorem V2_v14 (c : Dev nD) : V2 m c main_v14 = V1 m c main_v14 := W2_of_ne m c main_v14 (by decide)
theorem V3_v19 (c : Dev nD) : V3 m c main_v19 = (dat1 (V2 m) c).arrAt 3 cfg1.N := W3_arr m c 3
theorem V3_v11 (c : Dev nD) : V3 m c main_v11 = V1 m c main_v11 :=
  (W3_of_ne m c main_v11 (by decide)).trans (W2_of_ne m c main_v11 (by decide))
theorem V3_v5 (c : Dev nD) : V3 m c main_v5 = V1 m c main_v5 :=
  (W3_arr m c 0).trans <| ((dat1 (V2 m) c).arrAt_in 0 rfl _).trans <| (A_eq1 (V2 m) c 0).trans (V2_v5 m c)
theorem V4_v20 (c : Dev nD) : V4 m c main_v20 = (dat2 (V3 m) c).arrAt 2 cfg2.N := W4_arr m c 2
theorem V4_v5 (c : Dev nD) : V4 m c main_v5 = V1 m c main_v5 :=
  (W4_of_ne m c main_v5 (by decide)).trans (V3_v5 m c)
theorem V4_v17 (c : Dev nD) : V4 m c main_v17 = V1 m c main_v17 :=
  (W4_of_ne m c main_v17 (by decide)).trans <| (W3_of_ne m c main_v17 (by decide)).trans (W2_of_ne m c main_v17 (by decide))

end Cert.RefSide.Run

end
-- ==== Proof.RAPay.lean ====
/- The payloads of the reference's two "rows times matrix" bodies, read at an index at the ideal values: a matrix
   product accumulated into a zero splat is, entry by entry, the sum over the contracted axis of the products of the
   operands' entries; the casts to the same shape and the change of float format are the identity there. -/
import proofs.«180427_g2000709331088930_pallasbulk_708_2_alg».proof.Proof.Gen.ReferenceIdeal.Skeleton
import Idealize.ShloMosaic.Lib.ValueIdx
import Idealize.ShloMosaic.Lib.Pipeline.Value
import Idealize.ShloMosaic.PureOps.Ideal.Laws

noncomputable section

namespace Cert.RefSide.A

open Cert.ReferenceIdeal Cert.ReferenceIdeal.Gen
open Idealize.ShloMosaic Idealize.ShloMosaic.ValueIdx

/-- The dimension numbers of the first product: [512,512] × [512,256], contracting axis 1 with axis 0. -/
abbrev dotA : DotDims S512x512 S512x256 S512x256 := dot_S512x512_S512x256_S512x256_1_0_0_1_n_n
/-- The dimension numbers of the second product: [512,256] × [256,128], contracting axis 1 with axis 0. -/
abbrev dotB : DotDims S512x256 S256x128 S512x128 := dot_S512x256_S256x128_S512x128_1_0_0_1_n_n

/-! ## The operand indices of the first product, axis by axis -/

theorem lhsA_0 (i : S512x256.Idx) (q : dotA.contr.Idx) : (dotA.lhsIdx i q 0).val = (i 0).val := by
  unfold DotDims.lhsIdx
  rw [dif_neg (show ¬(0 : Fin S512x512.rank) ∈ dotA.lhsBatch by decide), dif_pos (show (0 : Fin S512x512.rank) ∈ dotA.lhsNonContracting by decide)]
  rfl
theorem lhsA_1 (i : S512x256.Idx) (q : dotA.contr.Idx) : (dotA.lhsIdx i q 1).val = (q ⟨0, by decide⟩).val :=
  dotA.lhsIdx_val_of_single rfl i q
theorem rhsA_0 (i : S512x256.Idx) (q : dotA.contr.Idx) : (dotA.rhsIdx i q 0).val = (q ⟨0, by decide⟩).val :=
  dotA.rhsIdx_val_of_single rfl i q
theorem rhsA_1 (i : S512x256.Idx) (q : dotA.contr.Idx) : (dotA.rhsIdx i q 1).val = (i 1).val := by
  unfold DotDims.rhsIdx
  rw [dif_neg (show ¬(1 : Fin S512x256.rank) ∈ dotA.rhsBatch by decide), dif_pos (show (1 : Fin S512x256.rank) ∈ dotA.rhsNonContracting by decide)]
  rfl

/-- Entry (p, q) of the first body's payload: row p of the left block times column q of the right matrix. -/
theorem k0_pay1_apply (v0 : FVec Ideal S512x512 .bf16) (v2 : FVec Ideal S512x256 .bf16) (p : Fin 512) (q : Fin 256) :
    (k0_pay1 (F := Ideal) v0 v2 : FVec Ideal S512x256 .bf16) (ix2 p q) = ∑ k : Fin 512, v0 (ix2 p k) * v2 (ix2 k q) := by
  unfold k0_pay1
  simp only [shapeCast_self]
  refine (Ideal.matmul_constant_zero_apply dotA none v0 v2 (ix2 p q)).trans ?_
  rw [← Equiv.sum_comp (contrEquiv1 dotA 512 rfl rfl).symm]
  refine Finset.sum_congr rfl fun k _ => ?_
  have hk := contrEquiv1_symm_val dotA 512 rfl rfl k
  have el : dotA.lhsIdx (ix2 p q) ((contrEquiv1 dotA 512 rfl rfl).symm k) = ix2 p k := funext fun a => Fin.ext (by
    match a with
    | ⟨0, _⟩ => exact lhsA_0 _ _
    | ⟨1, _⟩ => exact (lhsA_1 _ _).trans hk)
  have er : dotA.rhsIdx (ix2 p q) ((contrEquiv1 dotA 512 rfl rfl).symm k) = ix2 k q := funext fun a => Fin.ext (by
    match a with
    | ⟨0, _⟩ => exact (rhsA_0 _ _).trans hk
    | ⟨1, _⟩ => exact rhsA_1 _ _)
  rw [el, er]

/-! ## The operand indices of the second product, axis by axis -/

theorem lhsB_0 (i : S512x128.Idx) (q : dotB.contr.Idx) : (dotB.lhsIdx i q 0).val = (i 0).val := by
  unfold DotDims.lhsIdx
  rw [dif_neg (show ¬(0 : Fin S512x256.rank) ∈ dotB.lhsBatch by decide), dif_pos (show (0 : Fin S512x256.rank) ∈ dotB.lhsNonContracting by decide)]
  rfl
theorem lhsB_1 (i : S512x128.Idx) (q : dotB.contr.Idx) : (dotB.lhsIdx i q 1).val = (q ⟨0, by decide⟩).val :=
  dotB.lhsIdx_val_of_single rfl i q
theorem rhsB_0 (i : S512x128.Idx) (q : dotB.contr.Idx) : (dotB.rhsIdx i q 0).val = (q ⟨0, by decide⟩).val :=
  dotB.rhsIdx_val_of_single rfl i q
theorem rhsB_1 (i : S512x128.Idx) (q : dotB.contr.Idx) : (dotB.rhsIdx i q 1).val = (i 1).val := by
  unfold DotDims.rhsIdx
  rw [dif_neg (show ¬(1 : Fin S256x128.rank) ∈ dotB.rhsBatch by decide), dif_pos (show (1 : Fin S256x128.rank) ∈ dotB.rhsNonContracting by decide)]
  rfl

/-- Entry (p, q) of the second body's payload: row p of the left block times column q of the right matrix. -/
theorem k2_pay1_apply (v0 : FVec Ideal S512x256 .bf16) (v2 : FVec Ideal S256x128 .bf16) (p : Fin 512) (q : Fin 128) :
    (k2_pay1 (F := Ideal) v0 v2 : FVec Ideal S512x128 .bf16) (ix2 p q) = ∑ k : Fin 256, v0 (ix2 p k) * v2 (ix2 k q) := by
  unfold k2_pay1
  simp only [shapeCast_self]
  refine (Ideal.matmul_constant_zero_apply dotB none v0 v2 (ix2 p q)).trans ?_
  rw [← Equiv.sum_comp (contrEquiv1 dotB 256 rfl rfl).symm]
  refine Finset.sum_congr rfl fun k _ => ?_
  have hk := contrEquiv1_symm_val dotB 256 rfl rfl k
  have el : dotB.lhsIdx (ix2 p q) ((contrEquiv1 dotB 256 rfl rfl).symm k) = ix2 p k := funext fun a => Fin.ext (by
    match a with
    | ⟨0, _⟩ => exact lhsB_0 _ _
    | ⟨1, _⟩ => exact (lhsB_1 _ _).trans hk)
  have er : dotB.rhsIdx (ix2 p q) ((contrEquiv1 dotB 256 rfl rfl).symm k) = ix2 k q := funext fun a => Fin.ext (by
    match a with
    | ⟨0, _⟩ => exact (rhsB_0 _ _).trans hk
    | ⟨1, _⟩ => exact rhsB_1 _ _)
  rw [el, er]

end Cert.RefSide.A

end
-- ==== Proof.RAVal0.lean ====
/- The output array of region 0 of the reference program after its eight grid points, at the ideal values: each
   point writes back one block of 512 rows, the product of that block of rows of the left array with the whole right
   matrix; row r is covered by point r / 512; so the array ends as the full matrix product, entry by entry. -/
import proofs.«180427_g2000709331088930_pallasbulk_708_2_alg».proof.Proof.RAReg0
import proofs.«180427_g2000709331088930_pallasbulk_708_2_alg».proof.Proof.RAPay
import Idealize.ShloMosaic.Lib.Pipeline.Value

set_option maxRecDepth 16384

noncomputable section

namespace Cert.RefSide.A

open Cert.ReferenceIdeal Cert.ReferenceIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The full product of a [4096, 512] array with a [512, 256] matrix, entry by entry. -/
def prod0 (a : S4096x512.Idx → EReal) (b : S512x256.Idx → EReal) : S4096x256.Idx → EReal :=
  fun i => ∑ k : Fin 512, a (ix2 (i 0 : Fin 4096) k) * b (ix2 k (i 1 : Fin 256))

theorem zeroOff0 : (![0, 0] : Fin 2 → Nat) = fun _ => 0 := funext fun a => by fin_cases a <;> rfl

/-- The payload at entry (p, q) of a block is the product's entry `i`, when row p of the left block is row `i 0`
    of the left array and column q of the right block is column `i 1` of the right matrix. -/
theorem pay0_at (a : S4096x512.Idx → EReal) (b : S512x256.Idx → EReal) (x0 : FVec Ideal S512x512 .bf16) (x1 : FVec Ideal S512x256 .bf16)
    (p : Fin 512) (q : Fin 256) (i : S4096x256.Idx)
    (h0 : ∀ k : Fin 512, x0 (ix2 p k) = a (ix2 (i 0 : Fin 4096) k))
    (h1 : ∀ k : Fin 512, x1 (ix2 k q) = b (ix2 k (i 1 : Fin 256))) :
    (k0_pay1 (F := Ideal) x0 x1 : FVec Ideal S512x256 .bf16) (ix2 p q) = prod0 a b i := by
  rw [k0_pay1_apply]
  exact Finset.sum_congr rfl fun k _ => by rw [h0 k, h1 k]

/-- The printed index maps, decided over the grid: the left window and the output move down one block of rows per
    point; the right window stays on the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Two functions on a [512, 256] block that agree at every pair of coordinates are equal. -/
theorem blockExt0 (f g : S512x256.Idx → EReal) (h : ∀ (p : Fin 512) (q : Fin 256), f (ix2 p q) = g (ix2 p q)) : f = g :=
  funext fun j => by rw [eq_ix2 j]; exact h _ _

/-- What point `t` writes back is block `t` of the full product of the arrays as the region finds them. -/
theorem flushed0_eq (c : Dev nD) (t : Fin cfg0.N) :
    (dat0 V c).flushed 2 t = ((cfg0.win 2).blk t).view.read (Elt Ideal) (prod0 (V c main_v2) (V c main_v8)) := by
  show (cfg0.win 2).cut (grid0.coords t) ((dat0 V c).after 2 t) = _
  rw [after0_2]
  unfold out0_2
  rw [View.canon_unit_zero zeroOff0]
  simp only [View.ld_unit_zero (S := S512x512) zeroOff0, View.ld_unit_zero (S := S512x256) zeroOff0]
  obtain ⟨e0, e1, e2, e3, e4, e5⟩ := idx_facts0 t
  refine blockExt0 _ _ fun p q => ?_
  show (k0_pay1 (F := Ideal) (iblk0 V c 0 t) (iblk0 V c 1 t) : FVec Ideal S512x256 .bf16) (ix2 p q)
    = prod0 (V c main_v2) (V c main_v8) (((cfg0.win 2).blk t).view.emb (ix2 p q))
  refine pay0_at (V c main_v2) (V c main_v8) (iblk0 V c 0 t) (iblk0 V c 1 t) p q _ (fun k => ?_) (fun k => ?_)
  · show V c main_v2 (((cfg0.win 0).blk t).view.emb (ix2 p k)) = V c main_v2 _
    refine congrArg (V c main_v2) ?_
    funext a; apply Fin.ext
    match a with
    | ⟨0, _⟩ =>
      show win0_0.index t (0 : Fin 2) * 512 + 1 * p.val = win0_2.index t (0 : Fin 2) * 512 + 1 * p.val
      omega
    | ⟨1, _⟩ =>
      show win0_0.index t (1 : Fin 2) * 512 + 1 * k.val = k.val
      omega
  · show V c main_v8 (((cfg0.win 1).blk t).view.emb (ix2 k q)) = V c main_v8 _
    refine congrArg (V c main_v8) ?_
    funext a; apply Fin.ext
    match a with
    | ⟨0, _⟩ =>
      show win0_1.index t (0 : Fin 2) * 512 + 1 * k.val = k.val
      omega
    | ⟨1, _⟩ =>
      show win0_1.index t (1 : Fin 2) * 256 + 1 * q.val = win0_2.index t (1 : Fin 2) * 256 + 1 * q.val
      omega

/-- An index of the output array is in point `t`'s block iff each coordinate is in the block's range on its axis. -/
theorem mem_blk0 (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v18).slice (win0_2.rect t)).set ↔ _
  rw [View.set_slice_whole, Rect.mem_set_unit]
  exact Iff.rfl

/-- Every index of the output array is in some point's block: row r in point r / 512's. -/
theorem cover0 (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  have hN : grid0.N = 8 := N_0
  have ht : (i 0).val / 512 < cfg0.N := by show _ < grid0.N; rw [hN]; omega
  refine ⟨⟨(i 0).val / 512, ht⟩, flush0_2 _, ?_⟩
  rw [mem_blk0]
  obtain ⟨e0, e1, e2, e3, e4, e5⟩ := idx_facts0 ⟨(i 0).val / 512, ht⟩
  have e4' : win0_2.index ⟨(i 0).val / 512, ht⟩ (0 : Fin 2) = (i 0).val / 512 := e4
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    omega
  | ⟨1, _⟩ =>
    show win0_2.index ⟨(i 0).val / 512, ht⟩ (1 : Fin 2) * 256 ≤ (i 1).val ∧ (i 1).val < win0_2.index ⟨(i 0).val / 512, ht⟩ (1 : Fin 2) * 256 + 256
    omega

/-- The product read at an index. -/
theorem prod0_apply (a : S4096x512.Idx → EReal) (b : S512x256.Idx → EReal) (i : S4096x256.Idx) :
    prod0 a b i = ∑ k : Fin 512, a (ix2 (i 0 : Fin 4096) k) * b (ix2 k (i 1 : Fin 256)) := rfl

/-- The product read at a pair of coordinates. -/
theorem prod0_ix2 (a : S4096x512.Idx → EReal) (b : S512x256.Idx → EReal) (r : Fin 4096) (q : Fin 256) :
    prod0 a b (ix2 r q) = ∑ k : Fin 512, a (ix2 r k) * b (ix2 k q) := rfl

/-- The output array after all eight points is the full product, as one function of the two input arrays as the
    region finds them. -/
theorem final0 (c : Dev nD) : (dat0 V c).arrAt 2 cfg0.N = prod0 (V c main_v2) (V c main_v8) :=
  (dat0 V c).arrAt_eq_of_cover 2 (prod0 (V c main_v2) (V c main_v8)) (fun t _ => flushed0_eq V c t) cover0

end Cert.RefSide.A

end
-- ==== Proof.RAVal2.lean ====
/- The output array of region 2 of the reference program after its eight grid points, at the ideal values: each
   point writes back one block of 512 rows, the product of that block of rows of the left array with the whole right
   matrix; row r is covered by point r / 512; so the array ends as the full matrix product, entry by entry. -/
import proofs.«180427_g2000709331088930_pallasbulk_708_2_alg».proof.Proof.RAReg2
import proofs.«180427_g2000709331088930_pallasbulk_708_2_alg».proof.Proof.RAPay
import Idealize.ShloMosaic.Lib.Pipeline.Value

set_option maxRecDepth 16384

noncomputable section

namespace Cert.RefSide.A

open Cert.ReferenceIdeal Cert.ReferenceIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The full product of a [4096, 256] array with a [256, 128] matrix, entry by entry. -/
def prod2 (a : S4096x256.Idx → EReal) (b : S256x128.Idx → EReal) : S4096x128.Idx → EReal :=
  fun i => ∑ k : Fin 256, a (ix2 (i 0 : Fin 4096) k) * b (ix2 k (i 1 : Fin 128))

theorem zeroOff2 : (![0, 0] : Fin 2 → Nat) = fun _ => 0 := funext fun a => by fin_cases a <;> rfl

/-- The payload at entry (p, q) of a block is the product's entry `i`, when row p of the left block is row `i 0`
    of the left array and column q of the right block is column `i 1` of the right matrix. -/
theorem pay2_at (a : S4096x256.Idx → EReal) (b : S256x128.Idx → EReal) (x0 : FVec Ideal S512x256 .bf16) (x1 : FVec Ideal S256x128 .bf16)
    (p : Fin 512) (q : Fin 128) (i : S4096x128.Idx)
    (h0 : ∀ k : Fin 256, x0 (ix2 p k) = a (ix2 (i 0 : Fin 4096) k))
    (h1 : ∀ k : Fin 256, x1 (ix2 k q) = b (ix2 k (i 1 : Fin 128))) :
    (k2_pay1 (F := Ideal) x0 x1 : FVec Ideal S512x128 .bf16) (ix2 p q) = prod2 a b i := by
  rw [k2_pay1_apply]
  exact Finset.sum_congr rfl fun k _ => by rw [h0 k, h1 k]

/-- The printed index maps, decided over the grid: the left window and the output move down one block of rows per
    point; the right window stays on the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Two functions on a [512, 128] block that agree at every pair of coordinates are equal. -/
theorem blockExt2 (f g : S512x128.Idx → EReal) (h : ∀ (p : Fin 512) (q : Fin 128), f (ix2 p q) = g (ix2 p q)) : f = g :=
  funext fun j => by rw [eq_ix2 j]; exact h _ _

/-- What point `t` writes back is block `t` of the full product of the arrays as the region finds them. -/
theorem flushed2_eq (c : Dev nD) (t : Fin cfg2.N) :
    (dat2 V c).flushed 2 t = ((cfg2.win 2).blk t).view.read (Elt Ideal) (prod2 (V c main_v19) (V c main_v11)) := by
  show (cfg2.win 2).cut (grid2.coords t) ((dat2 V c).after 2 t) = _
  rw [after2_2]
  unfold out2_2
  rw [View.canon_unit_zero zeroOff2]
  simp only [View.ld_unit_zero (S := S512x256) zeroOff2, View.ld_unit_zero (S := S256x128) zeroOff2]
  obtain ⟨e0, e1, e2, e3, e4, e5⟩ := idx_facts2 t
  refine blockExt2 _ _ fun p q => ?_
  show (k2_pay1 (F := Ideal) (iblk2 V c 0 t) (iblk2 V c 1 t) : FVec Ideal S512x128 .bf16) (ix2 p q)
    = prod2 (V c main_v19) (V c main_v11) (((cfg2.win 2).blk t).view.emb (ix2 p q))
  refine pay2_at (V c main_v19) (V c main_v11) (iblk2 V c 0 t) (iblk2 V c 1 t) p q _ (fun k => ?_) (fun k => ?_)
  · show V c main_v19 (((cfg2.win 0).blk t).view.emb (ix2 p k)) = V c main_v19 _
    refine congrArg (V c main_v19) ?_
    funext a; apply Fin.ext
    match a with
    | ⟨0, _⟩ =>
      show win2_0.index t (0 : Fin 2) * 512 + 1 * p.val = win2_2.index t (0 : Fin 2) * 512 + 1 * p.val
      omega
    | ⟨1, _⟩ =>
      show win2_0.index t (1 : Fin 2) * 256 + 1 * k.val = k.val
      omega
  · show V c main_v11 (((cfg2.win 1).blk t).view.emb (ix2 k q)) = V c main_v11 _
    refine congrArg (V c main_v11) ?_
    funext a; apply Fin.ext
    match a with
    | ⟨0, _⟩ =>
      show win2_1.index t (0 : Fin 2) * 256 + 1 * k.val = k.val
      omega
    | ⟨1, _⟩ =>
      show win2_1.index t (1 : Fin 2) * 128 + 1 * q.val = win2_2.index t (1 : Fin 2) * 128 + 1 * q.val
      omega

/-- An index of the output array is in point `t`'s block iff each coordinate is in the block's range on its axis. -/
theorem mem_blk2 (t : Fin cfg2.N) (i : S4096x128.Idx) :
    i ∈ ((cfg2.win 2).blk t).view.set ↔ ∀ a : Fin 2, win2_2.index t a * S512x128.size a ≤ (i a).val ∧ (i a).val < win2_2.index t a * S512x128.size a + S512x128.size a := by
  show i ∈ ((View.whole main_v20).slice (win2_2.rect t)).set ↔ _
  rw [View.set_slice_whole, Rect.mem_set_unit]
  exact Iff.rfl

/-- Every index of the output array is in some point's block: row r in point r / 512's. -/
theorem cover2 (i : S4096x128.Idx) : ∃ t : Fin cfg2.N, (cfg2.win 2).flush t = true ∧ i ∈ ((cfg2.win 2).blk t).view.set := by
  have hi0 : (i 0).val < 4096 := (i 0).isLt
  have hi1 : (i 1).val < 128 := (i 1).isLt
  have hN : grid2.N = 8 := N_2
  have ht : (i 0).val / 512 < cfg2.N := by show _ < grid2.N; rw [hN]; omega
  refine ⟨⟨(i 0).val / 512, ht⟩, flush2_2 _, ?_⟩
  rw [mem_blk2]
  obtain ⟨e0, e1, e2, e3, e4, e5⟩ := idx_facts2 ⟨(i 0).val / 512, ht⟩
  have e4' : win2_2.index ⟨(i 0).val / 512, ht⟩ (0 : Fin 2) = (i 0).val / 512 := e4
  intro a
  match a with
  | ⟨0, _⟩ =>
    show win2_2.index ⟨(i 0).val / 512, ht⟩ (0 : Fin 2) * 512 ≤ (i 0).val ∧ (i 0).val < win2_2.index ⟨(i 0).val / 512, ht⟩ (0 : Fin 2) * 512 + 512
    omega
  | ⟨1, _⟩ =>
    show win2_2.index ⟨(i 0).val / 512, ht⟩ (1 : Fin 2) * 128 ≤ (i 1).val ∧ (i 1).val < win2_2.index ⟨(i 0).val / 512, ht⟩ (1 : Fin 2) * 128 + 128
    omega

/-- The product read at an index. -/
theorem prod2_apply (a : S4096x256.Idx → EReal) (b : S256x128.Idx → EReal) (i : S4096x128.Idx) :
    prod2 a b i = ∑ k : Fin 256, a (ix2 (i 0 : Fin 4096) k) * b (ix2 k (i 1 : Fin 128)) := rfl

/-- The product read at a pair of coordinates. -/
theorem prod2_ix2 (a : S4096x256.Idx → EReal) (b : S256x128.Idx → EReal) (r : Fin 4096) (q : Fin 128) :
    prod2 a b (ix2 r q) = ∑ k : Fin 256, a (ix2 r k) * b (ix2 k q) := rfl

/-- The output array after all eight points is the full product, as one function of the two input arrays as the
    region finds them. -/
theorem final2 (c : Dev nD) : (dat2 V c).arrAt 2 cfg2.N = prod2 (V c main_v19) (V c main_v11) :=
  (dat2 V c).arrAt_eq_of_cover 2 (prod2 (V c main_v19) (V c main_v11)) (fun t _ => flushed2_eq V c t) cover2

end Cert.RefSide.A

end
-- ==== Proof.RAScatter.lean ====
/- A scatter whose body returns the update ("set"), when every update index lands inside the operand and no two land
   on the same place: the result holds each update at the place it lands. Proved once over abstract operands, from the
   definition of the host's scatter as a left fold over the update indices. -/
import Idealize.ShloMosaic.PureOps.ShapeOps
import Idealize.ShloMosaic.Lib.ValueIdx

namespace Cert.RefSide.A

open Idealize.ShloMosaic

/-- A left fold of "overwrite place `e n` with `v n`": a place no element of the list lands on keeps its start value. -/
theorem foldl_set_of_not_mem {ι κ α : Type} [DecidableEq κ] (e : ι → κ) (v : ι → α) :
    ∀ (L : List ι) (x : κ → α) (i : κ), (∀ n ∈ L, e n ≠ i) →
      (L.foldl (fun r n => fun i' => if i' = e n then v n else r i') x) i = x i
  | [], _, _, _ => rfl
  | a :: L, x, i, h => by
    rw [List.foldl_cons, foldl_set_of_not_mem e v L _ i (fun n hn => h n (List.mem_cons_of_mem _ hn))]
    exact if_neg (fun hi => h a List.mem_cons_self hi.symm)

/-- The same fold, over a list without repeats and an injective `e`: the place an element lands on ends at its value. -/
theorem foldl_set_of_mem {ι κ α : Type} [DecidableEq κ] (e : ι → κ) (he : Function.Injective e) (v : ι → α) :
    ∀ (L : List ι) (x : κ → α) (n : ι), L.Nodup → n ∈ L →
      (L.foldl (fun r n => fun i' => if i' = e n then v n else r i') x) (e n) = v n
  | [], _, _, _, h => absurd h List.not_mem_nil
  | a :: L, x, n, hnd, h => by
    rw [List.foldl_cons]
    rcases List.mem_cons.mp h with hna | hL
    · subst hna
      rw [foldl_set_of_not_mem e v L _ (e n) (fun k hk hek => (List.nodup_cons.mp hnd).1 (he hek ▸ hk))]
      exact if_pos rfl
    · exact foldl_set_of_mem e he v L _ n (List.nodup_cons.mp hnd).2 hL

/-- A "set" scatter all of whose updates land inside the operand (`he`: update index `j` lands at `e j`), no two on
    the same place: the result at `e j` is update `j`. -/
theorem scatter_set_apply {s si u : Shape} {α : Type} {w : Nat} (d : ScatterDims s si u) (x : s.Idx → α) (idx : IVec si w)
    (upd : u.Idx → α) (e : u.Idx → s.Idx) (he : ∀ j, d.resultIdx? j idx = some (e j)) (hinj : Function.Injective e) (j : u.Idx) :
    Host.scatter d (fun _ b => b) x idx upd (e j) = upd j := by
  unfold Host.scatter
  have h := foldl_set_of_mem (fun n => e (u.rowMajor.symm n)) (hinj.comp u.rowMajor.symm.injective)
    (fun n => upd (u.rowMajor.symm n)) (List.finRange u.numel) x (u.rowMajor j) (List.nodup_finRange _) (List.mem_finRange _)
  have hfold : ∀ f : (s.Idx → α) → Fin u.numel → (s.Idx → α),
      (∀ r n, f r n = fun i' => if i' = e (u.rowMajor.symm n) then upd (u.rowMajor.symm n) else r i') →
      List.foldl f x (List.finRange u.numel) (e j) = upd j := by
    intro f hf
    rw [show f = _ from funext fun r => funext fun n => hf r n]
    simpa only [Equiv.symm_apply_apply] using h
  refine hfold _ (fun r n => ?_)
  rw [he]

/-- When the landing map is the identity (the update has the operand's shape and starts at the origin), the result is
    the update. -/
theorem scatter_set_whole {s si : Shape} {α : Type} {w : Nat} (d : ScatterDims s si s) (x : s.Idx → α) (idx : IVec si w)
    (upd : s.Idx → α) (he : ∀ j, d.resultIdx? j idx = some j) :
    Host.scatter d (fun _ b => b) x idx upd = upd :=
  funext fun j => scatter_set_apply d x idx upd id he Function.injective_id j

end Cert.RefSide.A
-- ==== Proof.RAHost.lean ====
/- The host operations before the first region of the reference program, read at the ideal values: each operand is
   written whole over an array of zeros by a "set" scatter at the origin after a change of float format that is the
   identity on extended reals, so the four matrices reach the regions as launched, and the two bias vectors as row 0 of
   a one-row array. Stated for any launch contents. -/
import proofs.«180427_g2000709331088930_pallasbulk_708_2_alg».proof.Proof.Gen.ReferenceIdeal.Launch
import proofs.«180427_g2000709331088930_pallasbulk_708_2_alg».proof.Proof.RAScatter
import Idealize.ShloMosaic.Lib.StableHlo.Run
import Idealize.ShloMosaic.Lib.ValueIdx

noncomputable section

namespace Cert.RefSide.A

open Cert.ReferenceIdeal Cert.ReferenceIdeal.Gen
open Idealize.ShloMosaic Idealize.ShloMosaic.TcCoe Idealize.ShloMosaic.ValueIdx Idealize.SL.Sem
open Idealize.ShloMosaic.StableHlo

/-! ### The scatter of a whole S4096x512 update at the origin -/

abbrev scX : ScatterDims S4096x512 S0 S4096x512 := scatter_S4096x512_S0_S4096x512_01_n_n_0

theorem scX_start (j : S4096x512.Idx) (idx : IVec S0 32) (a : Fin S4096x512.rank) : scX.start j idx a = 0 := by
  unfold ScatterDims.start
  exact dif_neg (fun h => absurd h List.not_mem_nil)

theorem scX_window (j : S4096x512.Idx) (a : Fin S4096x512.rank) : scX.window j a = (j a).val := by
  match a with
  | ⟨0, _⟩ => rfl
  | ⟨1, _⟩ => rfl

/-- Every update index lands on itself. -/
theorem scX_result (j : S4096x512.Idx) (idx : IVec S0 32) : scX.resultIdx? j idx = some j := by
  unfold ScatterDims.resultIdx?
  rw [dif_pos (fun a => by rw [scX_start, scX_window]; have := (j a).isLt; constructor <;> omega)]
  refine congrArg some (funext fun a => Fin.ext ?_)
  show (scX.start j idx a + (scX.window j a : Int)).toNat = (j a).val
  rw [scX_start, scX_window]; omega

/-! ### The scatter of a whole S4096x4096 update at the origin -/

abbrev scAdj : ScatterDims S4096x4096 S0 S4096x4096 := scatter_S4096x4096_S0_S4096x4096_01_n_n_0

theorem scAdj_start (j : S4096x4096.Idx) (idx : IVec S0 32) (a : Fin S4096x4096.rank) : scAdj.start j idx a = 0 := by
  unfold ScatterDims.start
  exact dif_neg (fun h => absurd h List.not_mem_nil)

theorem scAdj_window (j : S4096x4096.Idx) (a : Fin S4096x4096.rank) : scAdj.window j a = (j a).val := by
  match a with
  | ⟨0, _⟩ => rfl
  | ⟨1, _⟩ => rfl

/-- Every update index lands on itself. -/
theorem scAdj_result (j : S4096x4096.Idx) (idx : IVec S0 32) : scAdj.resultIdx? j idx = some j := by
  unfold ScatterDims.resultIdx?
  rw [dif_pos (fun a => by rw [scAdj_start, scAdj_window]; have := (j a).isLt; constructor <;> omega)]
  refine congrArg some (funext fun a => Fin.ext ?_)
  show (scAdj.start j idx a + (scAdj.window j a : Int)).toNat = (j a).val
  rw [scAdj_start, scAdj_window]; omega

/-! ### The scatter of a whole S512x256 update at the origin -/

abbrev scW1 : ScatterDims S512x256 S0 S512x256 := scatter_S512x256_S0_S512x256_01_n_n_0

theorem scW1_start (j : S512x256.Idx) (idx : IVec S0 32) (a : Fin S512x256.rank) : scW1.start j idx a = 0 := by
  unfold ScatterDims.start
  exact dif_neg (fun h => absurd h List.not_mem_nil)

theorem scW1_window (j : S512x256.Idx) (a : Fin S512x256.rank) : scW1.window j a = (j a).val := by
  match a with
  | ⟨0, _⟩ => rfl
  | ⟨1, _⟩ => rfl

/-- Every update index lands on itself. -/
theorem scW1_result (j : S512x256.Idx) (idx : IVec S0 32) : scW1.resultIdx? j idx = some j := by
  unfold ScatterDims.resultIdx?
  rw [dif_pos (fun a => by rw [scW1_start, scW1_window]; have := (j a).isLt; constructor <;> omega)]
  refine congrArg some (funext fun a => Fin.ext ?_)
  show (scW1.start j idx a + (scW1.window j a : Int)).toNat = (j a).val
  rw [scW1_start, scW1_window]; omega

/-! ### The scatter of a whole S256x128 update at the origin -/

abbrev scW2 : ScatterDims S256x128 S0 S256x128 := scatter_S256x128_S0_S256x128_01_n_n_0

theorem scW2_start (j : S256x128.Idx) (idx : IVec S0 32) (a : Fin S256x128.rank) : scW2.start j idx a = 0 := by
  unfold ScatterDims.start
  exact dif_neg (fun h => absurd h List.not_mem_nil)

theorem scW2_window (j : S256x128.Idx) (a : Fin S256x128.rank) : scW2.window j a = (j a).val := by
  match a with
  | ⟨0, _⟩ => rfl
  | ⟨1, _⟩ => rfl

/-- Every update index lands on itself. -/
theorem scW2_result (j : S256x128.Idx) (idx : IVec S0 32) : scW2.resultIdx? j idx = some j := by
  unfold ScatterDims.resultIdx?
  rw [dif_pos (fun a => by rw [scW2_start, scW2_window]; have := (j a).isLt; constructor <;> omega)]
  refine congrArg some (funext fun a => Fin.ext ?_)
  show (scW2.start j idx a + (scW2.window j a : Int)).toNat = (j a).val
  rw [scW2_start, scW2_window]; omega

/-! ### The scatter of a length-256 vector into row 0 of a [1, 256] array, at start index 0 -/

abbrev scB1 : ScatterDims S1x256 S1 S256 := scatter_S1x256_S1_S256_0_0_0_0

theorem scB1_start (j : S256.Idx) (idx : IVec S1 32) (hidx : ∀ k, idx k = 0#32) (a : Fin S1x256.rank) : scB1.start j idx a = 0 := by
  unfold ScatterDims.start
  split
  · rw [hidx]; rfl
  · rfl

theorem scB1_window (j : S256.Idx) (a : Fin S1x256.rank) : scB1.window j a = ((ix2 (0 : Fin 1) (j 0 : Fin 256)) a).val := by
  match a with
  | ⟨0, _⟩ => rfl
  | ⟨1, _⟩ => rfl

/-- Update index j lands at (0, j). -/
theorem scB1_result (j : S256.Idx) (idx : IVec S1 32) (hidx : ∀ k, idx k = 0#32) :
    scB1.resultIdx? j idx = some (ix2 (0 : Fin 1) (j 0 : Fin 256)) := by
  have hlt : ∀ a, ((ix2 (0 : Fin 1) (j 0 : Fin 256)) a).val < S1x256.size a := fun a => ((ix2 (0 : Fin 1) (j 0 : Fin 256)) a).isLt
  unfold ScatterDims.resultIdx?
  rw [dif_pos (fun a => by rw [scB1_start j idx hidx, scB1_window]; have := hlt a; constructor <;> omega)]
  refine congrArg some (funext fun a => Fin.ext ?_)
  show (scB1.start j idx a + (scB1.window j a : Int)).toNat = _
  rw [scB1_start j idx hidx, scB1_window]; omega

theorem scB1_inj : Function.Injective (fun j : S256.Idx => ix2 (0 : Fin 1) (j 0 : Fin 256)) := fun j j' h => by
  funext a
  match a with
  | ⟨0, _⟩ => exact congrFun h 1

/-! ### The scatter of a length-128 vector into row 0 of a [1, 128] array, at start index 0 -/

abbrev scB2 : ScatterDims S1x128 S1 S128 := scatter_S1x128_S1_S128_0_0_0_0

theorem scB2_start (j : S128.Idx) (idx : IVec S1 32) (hidx : ∀ k, idx k = 0#32) (a : Fin S1x128.rank) : scB2.start j idx a = 0 := by
  unfold ScatterDims.start
  split
  · rw [hidx]; rfl
  · rfl

theorem scB2_window (j : S128.Idx) (a : Fin S1x128.rank) : scB2.window j a = ((ix2 (0 : Fin 1) (j 0 : Fin 128)) a).val := by
  match a with
  | ⟨0, _⟩ => rfl
  | ⟨1, _⟩ => rfl

/-- Update index j lands at (0, j). -/
theorem scB2_result (j : S128.Idx) (idx : IVec S1 32) (hidx : ∀ k, idx k = 0#32) :
    scB2.resultIdx? j idx = some (ix2 (0 : Fin 1) (j 0 : Fin 128)) := by
  have hlt : ∀ a, ((ix2 (0 : Fin 1) (j 0 : Fin 128)) a).val < S1x128.size a := fun a => ((ix2 (0 : Fin 1) (j 0 : Fin 128)) a).isLt
  unfold ScatterDims.resultIdx?
  rw [dif_pos (fun a => by rw [scB2_start j idx hidx, scB2_window]; have := hlt a; constructor <;> omega)]
  refine congrArg some (funext fun a => Fin.ext ?_)
  show (scB2.start j idx a + (scB2.window j a : Int)).toNat = _
  rw [scB2_start j idx hidx, scB2_window]; omega

theorem scB2_inj : Function.Injective (fun j : S128.Idx => ix2 (0 : Fin 1) (j 0 : Fin 128)) := fun j j' h => by
  funext a
  match a with
  | ⟨0, _⟩ => exact congrFun h 1

/-! ## The six arrays the regions read, after the host operations, from any launch contents -/

variable (W0 : Valuation τ sig (Elt Ideal))

/-- The first region's left array is the first argument. -/
theorem host_v2 : (StableHlo.after (hostOps0 (F := Ideal)) W0 (Proc.devRef .tc main_v2) : S4096x512.Idx → EReal)
    = (W0 (Proc.devRef .tc main_arg0) : S4096x512.Idx → EReal) := by
  after_results
  exact (scatter_set_whole scX _ _ _ (fun j => scX_result j _)).trans rfl

/-- The adjacency array is the second argument. -/
theorem host_v5 : (StableHlo.after (hostOps0 (F := Ideal)) W0 (Proc.devRef .tc main_v5) : S4096x4096.Idx → EReal)
    = (W0 (Proc.devRef .tc main_arg1) : S4096x4096.Idx → EReal) := by
  after_results
  exact (scatter_set_whole scAdj _ _ _ (fun j => scAdj_result j _)).trans rfl

/-- The first weight matrix is the third argument. -/
theorem host_v8 : (StableHlo.after (hostOps0 (F := Ideal)) W0 (Proc.devRef .tc main_v8) : S512x256.Idx → EReal)
    = (W0 (Proc.devRef .tc main_arg2) : S512x256.Idx → EReal) := by
  after_results
  exact (scatter_set_whole scW1 _ _ _ (fun j => scW1_result j _)).trans rfl

/-- The second weight matrix is the fifth argument. -/
theorem host_v11 : (StableHlo.after (hostOps0 (F := Ideal)) W0 (Proc.devRef .tc main_v11) : S256x128.Idx → EReal)
    = (W0 (Proc.devRef .tc main_arg4) : S256x128.Idx → EReal) := by
  after_results
  exact (scatter_set_whole scW2 _ _ _ (fun j => scW2_result j _)).trans rfl

/-- Row 0 of the first bias array is the fourth argument. -/
theorem host_v14 (k : Fin 256) : (StableHlo.after (hostOps0 (F := Ideal)) W0 (Proc.devRef .tc main_v14) : S1x256.Idx → EReal) (ix2 (0 : Fin 1) k)
    = (W0 (Proc.devRef .tc main_arg3) : S256.Idx → EReal) (ix1 k) := by
  after_results
  exact scatter_set_apply scB1 _ _ _ (fun j : S256.Idx => ix2 (0 : Fin 1) (j 0 : Fin 256)) (fun j => scB1_result j _ (fun _ => rfl)) scB1_inj (ix1 k)

/-- Row 0 of the second bias array is the sixth argument. -/
theorem host_v17 (k : Fin 128) : (StableHlo.after (hostOps0 (F := Ideal)) W0 (Proc.devRef .tc main_v17) : S1x128.Idx → EReal) (ix2 (0 : Fin 1) k)
    = (W0 (Proc.devRef .tc main_arg5) : S128.Idx → EReal) (ix1 k) := by
  after_results
  exact scatter_set_apply scB2 _ _ _ (fun j : S128.Idx => ix2 (0 : Fin 1) (j 0 : Fin 128)) (fun j => scB2_result j _ (fun _ => rfl)) scB2_inj (ix1 k)

end Cert.RefSide.A

end
-- ==== Proof.RVal1.lean ====
/-
  The reference program's intermediate arrays, entry by entry, as the specification's finite sums: the first
  projection x · W1 as region 0 leaves it, and the host operations' zero-padded copies of the arguments, which are the
  arguments themselves because the padded sizes are the sizes.
-/
import proofs.«180427_g2000709331088930_pallasbulk_708_2_alg».proof.Proof.RTrack
import proofs.«180427_g2000709331088930_pallasbulk_708_2_alg».proof.Proof.RAVal0
import proofs.«180427_g2000709331088930_pallasbulk_708_2_alg».proof.Proof.RAVal2
import proofs.«180427_g2000709331088930_pallasbulk_708_2_alg».proof.Proof.RAHost
import proofs.«180427_g2000709331088930_pallasbulk_708_2_alg».proof.Proof.Spec

set_option maxRecDepth 16384

noncomputable section

namespace Cert.RefSide.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.RefSide.A Cert.RefSide.B Cert.GcnSpec Idealize.ShloMosaic.ValueIdx

variable (m : (ℓ : Loc nD τ sig) → Buf (Elt Ideal) ℓ)

/-- The six argument arrays on core c. -/
abbrev ax (c : Dev nD) : FVec Ideal Sx .f32 := m ((c.tc : Thread nD τ).loc main_arg0)
abbrev aadj (c : Dev nD) : FVec Ideal Sadj .f32 := m ((c.tc : Thread nD τ).loc main_arg1)
abbrev aw1 (c : Dev nD) : FVec Ideal Sw1 .f32 := m ((c.tc : Thread nD τ).loc main_arg2)
abbrev ab1 (c : Dev nD) : FVec Ideal Sb1 .f32 := m ((c.tc : Thread nD τ).loc main_arg3)
abbrev aw2 (c : Dev nD) : FVec Ideal Sw2 .f32 := m ((c.tc : Thread nD τ).loc main_arg4)
abbrev ab2 (c : Dev nD) : FVec Ideal Sb2 .f32 := m ((c.tc : Thread nD τ).loc main_arg5)

theorem in_x (c : Dev nD) : (V1 m c main_v2 : S4096x512.Idx → EReal) = ax m c := host_v2 (W0 m c)
theorem in_adj (c : Dev nD) : (V1 m c main_v5 : S4096x4096.Idx → EReal) = aadj m c := host_v5 (W0 m c)
theorem in_w1 (c : Dev nD) : (V1 m c main_v8 : S512x256.Idx → EReal) = aw1 m c := host_v8 (W0 m c)
theorem in_w2 (c : Dev nD) : (V1 m c main_v11 : S256x128.Idx → EReal) = aw2 m c := host_v11 (W0 m c)
theorem in_b1 (c : Dev nD) (k : Fin 256) : (V1 m c main_v14 : S1x256.Idx → EReal) (ix2 (0 : Fin 1) k) = ab1 m c (ix1 k) := host_v14 (W0 m c) k
theorem in_b2 (c : Dev nD) (k : Fin 128) : (V1 m c main_v17 : S1x128.Idx → EReal) (ix2 (0 : Fin 1) k) = ab2 m c (ix1 k) := host_v17 (W0 m c) k

/-- Region 0 leaves x · W1. -/
theorem s1_entry (c : Dev nD) (r : Fin 4096) (k : Fin 256) :
    (V2 m c main_v18 : S4096x256.Idx → EReal) (ix2 r k) = s1At (ax m c) (aw1 m c) r k := by
  rw [V2_v18 m c, final0 (V1 m) c, prod0_ix2, in_x m c, in_w1 m c]
  rfl

end Cert.RefSide.Run

end
-- ==== Proof.RVPay1.lean ====
/- The three payloads of the first propagation body, read entry by entry at the ideal values: the cleared
   accumulator is zero everywhere; the accumulation step adds to the loaded accumulator the product of the row block
   of the left matrix with the column block of the right one; the epilogue adds the bias row and clamps at zero.
   The casts to the same shape and the change of float format are the identity there. -/
import proofs.«180427_g2000709331088930_pallasbulk_708_2_alg».proof.Proof.RAPay

noncomputable section

namespace Cert.RefSide.B

open Cert.ReferenceIdeal Cert.ReferenceIdeal.Gen
open Idealize.ShloMosaic Idealize.ShloMosaic.ValueIdx

/-- Entry (p, q) of a [512,512] × [512,256] product accumulated into a zero splat. -/
theorem val_matmul1_apply (v4 : FVec Ideal S512x512 .bf16) (v6 : FVec Ideal S512x256 .bf16) (p : Fin 512) (q : Fin 256) :
    (matmul (F := Ideal) dot_S512x512_S512x256_S512x256_1_0_0_1_n_n none v4 v6 (constant S512x256 .f32 0x00000000#32) : FVec Ideal S512x256 .f32) (ix2 p q)
      = ∑ k : Fin 512, v4 (ix2 p k) * v6 (ix2 k q) := by
  have h := Cert.RefSide.A.k0_pay1_apply v4 v6 p q
  unfold k0_pay1 at h
  simp only [shapeCast_self] at h
  exact h

/-- The cleared accumulator is zero at every entry. -/
theorem val_k1_pay1_apply (p : Fin 512) (q : Fin 256) :
    (k1_pay1 (F := Ideal) : FVec Ideal S512x256 .f32) (ix2 p q) = 0 := by
  unfold k1_pay1
  simp only [shapeCast_self]
  exact Ideal.ofBits_zero_f32

/-- Entry (p, q) after one accumulation step: the loaded accumulator plus row p of the left block times column q of
    the right block. -/
theorem val_k1_pay2_apply (v3 : FVec Ideal S512x256 .f32) (v4 : FVec Ideal S512x512 .bf16) (v6 : FVec Ideal S512x256 .bf16)
    (p : Fin 512) (q : Fin 256) :
    (k1_pay2 (F := Ideal) v3 v4 v6 : FVec Ideal S512x256 .f32) (ix2 p q) = v3 (ix2 p q) + ∑ k : Fin 512, v4 (ix2 p k) * v6 (ix2 k q) := by
  unfold k1_pay2
  simp only [shapeCast_self]
  exact congrArg (v3 (ix2 p q) + ·) (val_matmul1_apply v4 v6 p q)

/-- Entry (p, q) of the epilogue: the accumulator plus the bias of column q, clamped at zero. -/
theorem val_k1_pay3_apply (v16 : FVec Ideal S512x256 .f32) (v17 : FVec Ideal S1x256 .f32) (p : Fin 512) (q : Fin 256) :
    (k1_pay3 (F := Ideal) v16 v17 : FVec Ideal S512x256 .bf16) (ix2 p q)
      = max (v16 (ix2 p q) + v17 (ix2 (0 : Fin 1) q)) (Ideal.ofBits .f32 0x00000000#32) := by
  unfold k1_pay3
  simp only [shapeCast_self]
  have hb : (broadcastTo S512x256 v17 broadcasts_S1x256_S512x256 : FVec Ideal S512x256 .f32) (ix2 p q) = v17 (ix2 (0 : Fin 1) q) :=
    broadcastTo_apply v17 broadcasts_S1x256_S512x256 (ix2 p q) (ix2 (0 : Fin 1) q) (fun a => by
      match a with
      | ⟨0, _⟩ => rfl
      | ⟨1, _⟩ => rfl)
  exact congrArg (fun z => max (v16 (ix2 p q) + z) (Ideal.ofBits .f32 0x00000000#32)) hb

end Cert.RefSide.B

end
-- ==== Proof.RVPiece1.lean ====
/- Region 1 of the reference program: what each control case leaves, as the body's arithmetic of what it read.
   Every store of the body covers its whole buffer and every load reads a whole buffer, so the contents a case leaves
   are the last store's payload, and a load after a store reads that store's payload: at k = 0 the accumulator is the
   accumulation step applied to the cleared accumulator, elsewhere to what the point before left, and at k = 7 the
   output block is the epilogue of the accumulator just written. -/
import proofs.«180427_g2000709331088930_pallasbulk_708_2_alg».proof.Proof.RBAcc1
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

theorem val_hz2 : (![0, 0] : Fin 2 → Nat) = fun _ => 0 := funext fun a => by fin_cases a <;> rfl

/-- At k = 0 the accumulator ends as the accumulation step of the cleared accumulator and the two blocks. -/
theorem val_sout1_A (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : cond1_0 i) (hc1 : ¬cond1_1 i)
    (x0 : Vec F S512x512 .bf16) (x1 : Vec F S512x256 .bf16) (x2 : Vec F S1x256 .f32) :
    sout1_A c i arg2 harg2 arg3 harg3 arg4 harg4 arg5 harg5 arg6 harg6 hc0 hc1 x0 x1 x2 = k1_pay2 (k1_pay1 (F := F)) x0 x1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S512x256) val_hz2, View.readCov_unit_zero (S := S512x256) _ val_hz2]
  simp only [View.readAt_eq_ld, harg2.read_unread, harg3.read_unread, View.ld_unit_zero (S := S512x512) val_hz2, View.ld_unit_zero (S := S512x256) val_hz2]

/-- At 0 < k < 7 the accumulator ends as the accumulation step of what it held and the two blocks. -/
theorem val_sout1_B (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : ¬cond1_1 i)
    (x0 : Vec F S512x512 .bf16) (x1 : Vec F S512x256 .bf16) (x2 : Vec F S1x256 .f32) (xs : Vec F S512x256 .f32) :
    sout1_B c i arg2 harg2 arg3 harg3 arg4 harg4 arg5 harg5 arg6 harg6 hc0 hc1 x0 x1 x2 xs = k1_pay2 xs x0 x1 := by
  unfold sout1_B
  rw [View.read_writes_eq_canon _ _ _ (scover1_B c i arg2 harg2 arg3 harg3 arg4 harg4 arg5 harg5 arg6 harg6 hc0 hc1 x0 x1 x2 xs)]
  unfold kernelRun1_B
  dsimp only
  sl_unfold_words
  rw [View.canon_unit_zero (S := S512x256) val_hz2]
  simp only [View.readAt_eq_ld, harg2.read_unread, harg3.read_unread, harg6.read_unread, View.ld_unit_zero (S := S512x512) val_hz2, View.ld_unit_zero (S := S512x256) val_hz2]

/-- At k = 7 the accumulator ends as the accumulation step of what it held and the two blocks. -/
theorem val_sout1_C (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : cond1_1 i)
    (x0 : Vec F S512x512 .bf16) (x1 : Vec F S512x256 .bf16) (x2 : Vec F S1x256 .f32) (xs : Vec F S512x256 .f32) :
    sout1_C c i arg2 harg2 arg3 harg3 arg4 harg4 arg5 harg5 arg6 harg6 hc0 hc1 x0 x1 x2 xs = k1_pay2 xs x0 x1 := by
  unfold sout1_C
  rw [View.read_writes_eq_canon _ _ _ (scover1_C c i arg2 harg2 arg3 harg3 arg4 harg4 arg5 harg5 arg6 harg6 hc0 hc1 x0 x1 x2 xs)]
  unfold kernelRun1_C
  dsimp only
  sl_unfold_words
  rw [View.canon_unit_zero (S := S512x256) val_hz2]
  simp only [View.readAt_eq_ld, harg2.read_unread, harg3.read_unread, harg6.read_unread, View.ld_unit_zero (S := S512x512) val_hz2, View.ld_unit_zero (S := S512x256) val_hz2]

/-- At k = 7 the output block is the epilogue of the accumulator just written and the bias row. -/
theorem val_out1_C (c : Dev nD) (i : grid1.Coords) (arg2 : Memref sig .tc .vmem S512x512 .bf16) (harg2 : arg2.IsWhole) (arg3 : Memref sig .tc .vmem S512x256 .bf16) (harg3 : arg3.IsWhole) (arg4 : Memref sig .tc .vmem S1x256 .f32) (harg4 : arg4.IsWhole) (arg5 : Memref sig .tc .vmem S512x256 .bf16) (harg5 : arg5.IsWhole) (arg6 : Memref sig .tc .vmem S512x256 .f32) (harg6 : arg6.IsWhole) (hc0 : ¬cond1_0 i) (hc1 : cond1_1 i)
    (x0 : Vec F S512x512 .bf16) (x1 : Vec F S512x256 .bf16) (x2 : Vec F S1x256 .f32) (xs : Vec F S512x256 .f32) :
    out1_C c i arg2 harg2 arg3 harg3 arg4 harg4 arg5 harg5 arg6 harg6 hc0 hc1 x0 x1 x2 xs = k1_pay3 (k1_pay2 xs x0 x1) x2 := by
  unfold out1_C
  rw [View.read_writes_eq_canon _ _ _ (cover1_C c i arg2 harg2 arg3 harg3 arg4 harg4 arg5 harg5 arg6 harg6 hc0 hc1 x0 x1 x2 xs)]
  unfold kernelRun1_C
  dsimp only
  sl_unfold_words
  rw [View.canon_unit_zero (S := S512x256) val_hz2, View.readCov_unit_zero (S := S512x256) _ val_hz2]
  simp only [View.readAt_eq_ld, harg2.read_unread, harg3.read_unread, harg4.read_unread, harg6.read_unread, View.ld_unit_zero (S := S512x512) val_hz2, View.ld_unit_zero (S := S512x256) val_hz2, View.ld_unit_zero (S := S1x256) val_hz2]

end Cert.RefSide.B

end
-- ==== Proof.RVStep1.lean ====
/- Region 1 of the reference program, at the ideal values: the accumulator after each grid point.
   Point t = 8·I + K works on row slab I of the left matrix and on slab K of the contracted axis.  Its left block is
   rows 512·I.., columns 512·K.. of the left matrix, its right block rows 512·K.. of the right matrix, its bias block
   the whole bias row.  So after point t the accumulator's entry (p, q) is the sum, over the first K + 1 slabs of the
   contracted axis taken one after the other from zero, of the products of row 512·I + p of the left matrix with column
   q of the right one; at K = 7 the output block is the epilogue of the whole sum. -/
import proofs.«180427_g2000709331088930_pallasbulk_708_2_alg».proof.Proof.RBAcc1
import proofs.«180427_g2000709331088930_pallasbulk_708_2_alg».proof.Proof.RVPay1
import proofs.«180427_g2000709331088930_pallasbulk_708_2_alg».proof.Proof.RVPiece1
import proofs.«180427_g2000709331088930_pallasbulk_708_2_alg».proof.Proof.Spec
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

open Cert.GcnSpec (rowOf accUpTo)

variable (V : (c : Dev nD) → (b : Ref sig .tc) → Buf (Elt F) ((c : Thread nD τ).loc b))

/-! ## The accumulator and the output block at a point, as the body's arithmetic -/

theorem val_hc1_0 (t : Fin cfg1.N) (h0 : t.val % 8 = 0) : cond1_0 (grid1.coords t) := (hcond1_0 t).mpr h0
theorem val_nhc1_0 (t : Fin cfg1.N) (h0 : ¬t.val % 8 = 0) : ¬cond1_0 (grid1.coords t) := fun h => h0 ((hcond1_0 t).mp h)
theorem val_hc1_1 (t : Fin cfg1.N) (h1 : t.val % 8 = 7) : cond1_1 (grid1.coords t) := (hcond1_1 t).mpr h1
theorem val_nhc1_1 (t : Fin cfg1.N) (h1 : ¬t.val % 8 = 7) : ¬cond1_1 (grid1.coords t) := fun h => h1 ((hcond1_1 t).mp h)

/-- At k = 0 the accumulator restarts from the slab product alone. -/
theorem val_accAt1_A (c : Dev nD) (t : Fin cfg1.N) (h0 : t.val % 8 = 0) :
    (outsAt1 V c t.val t.isLt).2 = k1_pay2 (k1_pay1 (F := F)) (iblk1 V c 0 t) (iblk1 V c 1 t) := by
  have h1 : ¬t.val % 8 = 7 := by omega
  rw [outsAt1_A V c t h0 (val_hc1_0 t h0) (val_nhc1_1 t h1)]
  dsimp only
  exact val_sout1_A (F := F) c (grid1.coords t) (ms1_0 t) (hs1_0 t) (ms1_1 t) (hs1_1 t) (ms1_2 t) (hs1_2 t) (ms1_3 t) (hs1_3 t) scM1 (Memref.isWhole_whole _) (val_hc1_0 t h0) (val_nhc1_1 t h1) (iblk1 V c 0 t) (iblk1 V c 1 t) (iblk1 V c 2 t)

/-- At k > 0 the accumulator continues from what the point before left. -/
theorem val_accAt1_BC (c : Dev nD) (t : Fin cfg1.N) (h0 : ¬t.val % 8 = 0) :
    (outsAt1 V c t.val t.isLt).2
      = k1_pay2 (outsAt1 V c (t.val - 1) (Nat.lt_of_le_of_lt (Nat.sub_le _ _) t.isLt)).2 (iblk1 V c 0 t) (iblk1 V c 1 t) := by
  by_cases h1 : t.val % 8 = 7
  · rw [outsAt1_C V c t h0 h1 (val_nhc1_0 t h0) (val_hc1_1 t h1)]
    dsimp only
    exact val_sout1_C (F := F) c (grid1.coords t) (ms1_0 t) (hs1_0 t) (ms1_1 t) (hs1_1 t) (ms1_2 t) (hs1_2 t) (ms1_3 t) (hs1_3 t) scM1 (Memref.isWhole_whole _) (val_nhc1_0 t h0) (val_hc1_1 t h1) (iblk1 V c 0 t) (iblk1 V c 1 t) (iblk1 V c 2 t)
      (outsAt1 V c (t.val - 1) (Nat.lt_of_le_of_lt (Nat.sub_le _ _) t.isLt)).2
  · rw [outsAt1_B V c t h0 h1 (val_nhc1_0 t h0) (val_nhc1_1 t h1)]
    dsimp only
    exact val_sout1_B (F := F) c (grid1.coords t) (ms1_0 t) (hs1_0 t) (ms1_1 t) (hs1_1 t) (ms1_2 t) (hs1_2 t) (ms1_3 t) (hs1_3 t) scM1 (Memref.isWhole_whole _) (val_nhc1_0 t h0) (val_nhc1_1 t h1) (iblk1 V c 0 t) (iblk1 V c 1 t) (iblk1 V c 2 t)
      (outsAt1 V c (t.val - 1) (Nat.lt_of_le_of_lt (Nat.sub_le _ _) t.isLt)).2

/-- At k = 7 the output block is the epilogue of the accumulator the point leaves. -/
theorem val_outAt1_C (c : Dev nD) (t : Fin cfg1.N) (h1 : t.val % 8 = 7) :
    (outsAt1 V c t.val t.isLt).1 = k1_pay3 (outsAt1 V c t.val t.isLt).2 (iblk1 V c 2 t) := by
  have h0 : ¬t.val % 8 = 0 := by omega
  rw [val_accAt1_BC V c t h0, outsAt1_C V c t h0 h1 (val_nhc1_0 t h0) (val_hc1_1 t h1)]
  dsimp only
  exact val_out1_C (F := F) c (grid1.coords t) (ms1_0 t) (hs1_0 t) (ms1_1 t) (hs1_1 t) (ms1_2 t) (hs1_2 t) (ms1_3 t) (hs1_3 t) scM1 (Memref.isWhole_whole _) (val_nhc1_0 t h0) (val_hc1_1 t h1) (iblk1 V c 0 t) (iblk1 V c 1 t) (iblk1 V c 2 t)
    (outsAt1 V c (t.val - 1) (Nat.lt_of_le_of_lt (Nat.sub_le _ _) t.isLt)).2

end Cert.RefSide.B

end
-- ==== Proof.RVBlk1.lean ====
/- Region 1 of the reference program: which entries of the arrays a point's blocks hold.
   Point t = 8·I + K of the 8 × 8 grid: the left window's block is rows 512·I.., columns 512·K.. of the 4096 × 4096
   matrix; the right window's block is rows 512·K.. of the 4096 × 256 matrix; the bias window's block is the whole
   1 × 256 row; the output window's block is rows 512·I.. of the 4096 × 256 result.  The printed index maps are
   decided once over the 64 points. -/
import proofs.«180427_g2000709331088930_pallasbulk_708_2_alg».proof.Proof.RBShared1
import proofs.«180427_g2000709331088930_pallasbulk_708_2_alg».proof.Proof.Spec
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

open Cert.GcnSpec (rowOf)

variable (V : (c : Dev nD) → (b : Ref sig .tc) → Buf (Elt Ideal) ((c : Thread nD τ).loc b))

/-- The block indices of the four windows at point t: t / 8 and t % 8 where a window moves, 0 where it does not. -/
theorem val_idx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- Entry (p, k) of the left block at point 8·I + K is entry (512·I + p, 512·K + k) of the left matrix. -/
theorem val_blk1_0 (c : Dev nD) (t : Fin cfg1.N) (I K : Fin 8) (ht : t.val = 8 * I.val + K.val) (p k : Fin 512) :
    (iblk1 (F := Ideal) V c 0 t : FVec Ideal S512x512 .bf16) (ix2 p k)
      = (V c main_v5 : S4096x4096.Idx → EReal) (ix2 (rowOf I p) (rowOf K k)) := by
  obtain ⟨e0, e1, -⟩ := val_idx1 t
  unfold iblk1
  rw [View.read_apply]
  show V c main_v5 (((cfg1.win 0).blk t).view.emb (ix2 p k)) = V c main_v5 (ix2 (rowOf I p) (rowOf K k))
  refine congrArg (V c main_v5) (funext fun a => Fin.ext ?_)
  have hK := K.isLt
  match a with
  | ⟨0, _⟩ => show win1_0.index t (0 : Fin 2) * 512 + 1 * p.val = 512 * I.val + p.val; omega
  | ⟨1, _⟩ => show win1_0.index t (1 : Fin 2) * 512 + 1 * k.val = 512 * K.val + k.val; omega

/-- Entry (k, q) of the right block at point 8·I + K is entry (512·K + k, q) of the right matrix. -/
theorem val_blk1_1 (c : Dev nD) (t : Fin cfg1.N) (I K : Fin 8) (ht : t.val = 8 * I.val + K.val) (k : Fin 512) (q : Fin 256) :
    (iblk1 (F := Ideal) V c 1 t : FVec Ideal S512x256 .bf16) (ix2 k q)
      = (V c main_v18 : S4096x256.Idx → EReal) (ix2 (rowOf K k) q) := by
  obtain ⟨-, -, e0, e1, -⟩ := val_idx1 t
  unfold iblk1
  rw [View.read_apply]
  show V c main_v18 (((cfg1.win 1).blk t).view.emb (ix2 k q)) = V c main_v18 (ix2 (rowOf K k) q)
  refine congrArg (V c main_v18) (funext fun a => Fin.ext ?_)
  have hK := K.isLt
  match a with
  | ⟨0, _⟩ => show win1_1.index t (0 : Fin 2) * 512 + 1 * k.val = 512 * K.val + k.val; omega
  | ⟨1, _⟩ => show win1_1.index t (1 : Fin 2) * 256 + 1 * q.val = q.val; omega

/-- The bias block at every point is the bias row. -/
theorem val_blk1_2 (c : Dev nD) (t : Fin cfg1.N) (z : Fin 1) (q : Fin 256) :
    (iblk1 (F := Ideal) V c 2 t : FVec Ideal S1x256 .f32) (ix2 z q)
      = (V c main_v14 : S1x256.Idx → EReal) (ix2 z q) := by
  obtain ⟨-, -, -, -, e0, e1, -⟩ := val_idx1 t
  unfold iblk1
  rw [View.read_apply]
  show V c main_v14 (((cfg1.win 2).blk t).view.emb (ix2 z q)) = V c main_v14 (ix2 z q)
  refine congrArg (V c main_v14) (funext fun a => Fin.ext ?_)
  match a with
  | ⟨0, _⟩ => show win1_2.index t (0 : Fin 2) * 1 + 1 * z.val = z.val; omega
  | ⟨1, _⟩ => show win1_2.index t (1 : Fin 2) * 256 + 1 * q.val = q.val; omega

/-- Entry (p, q) of the output block at point 8·I + K sits at entry (512·I + p, q) of the result. -/
theorem val_emb1_3 (t : Fin cfg1.N) (I K : Fin 8) (ht : t.val = 8 * I.val + K.val) (p : Fin 512) (q : Fin 256) :
    (((cfg1.win 3).blk t).view.emb (ix2 p q) : S4096x256.Idx) = ix2 (rowOf I p) q := by
  obtain ⟨-, -, -, -, -, -, e0, e1⟩ := val_idx1 t
  refine funext fun a => Fin.ext ?_
  have hK := K.isLt
  match a with
  | ⟨0, _⟩ => show win1_3.index t (0 : Fin 2) * 512 + 1 * p.val = 512 * I.val + p.val; omega
  | ⟨1, _⟩ => show win1_3.index t (1 : Fin 2) * 256 + 1 * q.val = q.val; omega

end Cert.RefSide.B

end
-- ==== Proof.RVCommon.lean ====
/- Partial sums of eight slab sums: the sum of the first n slab sums does not depend on how the bound on n is proved,
   and one more slab adds that slab's 512 terms. -/
import proofs.«180427_g2000709331088930_pallasbulk_708_2_alg».proof.Proof.Spec

noncomputable section

open scoped BigOperators

namespace Cert.RefSide.B

open Cert.GcnSpec (rowOf accUpTo)

theorem val_accUpTo_congr (f : Fin 4096 → EReal) (n m : ℕ) (hn : n ≤ 8) (hm : m ≤ 8) (h : n = m) : accUpTo f n hn = accUpTo f m hm := by
  subst h; rfl

theorem val_accUpTo_succ (f : Fin 4096 → EReal) (K : Fin 8) :
    accUpTo f (K.val + 1) K.isLt = accUpTo f K.val (Nat.le_of_lt K.isLt) + ∑ j : Fin 512, f (rowOf K j) := by
  rw [accUpTo]

end Cert.RefSide.B

end
-- ==== Proof.RVAcc1.lean ====
/- Region 1 of the reference program, at the ideal values: the array the region leaves.
   After point 8·I + K the accumulator's entry (p, q) is the sum of the first K + 1 slab sums, taken from zero one after
   the other, of the products of row 512·I + p of the left matrix with column q of the right one (by induction on the
   point: at K = 0 it restarts from zero, elsewhere it adds one slab to what the point before left).  At K = 7 the eight
   slab sums are the whole sum over the 4096 contracted indices, the output block is its epilogue, and the blocks
   written back at the points 8·I + 7 tile the 4096 rows of the result. -/
import proofs.«180427_g2000709331088930_pallasbulk_708_2_alg».proof.Proof.RVStep1
import proofs.«180427_g2000709331088930_pallasbulk_708_2_alg».proof.Proof.RVBlk1
import proofs.«180427_g2000709331088930_pallasbulk_708_2_alg».proof.Proof.RVCommon
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

open Cert.GcnSpec (rowOf accUpTo)

/-- One term of entry (512·I + p, q) of the product. -/
def val_term1 (a : S4096x4096.Idx → EReal) (s : S4096x256.Idx → EReal) (I : Fin 8) (p : Fin 512) (q : Fin 256) (j : Fin 4096) : EReal :=
  a (ix2 (rowOf I p) j) * s (ix2 j q)

/-- The propagation step with its epilogue, entry by entry: max (a · s + b, 0). -/
def val_prop1 (a : S4096x4096.Idx → EReal) (s : S4096x256.Idx → EReal) (b : S1x256.Idx → EReal) : S4096x256.Idx → EReal :=
  fun i => max ((∑ j : Fin 4096, a (ix2 (i 0 : Fin 4096) j) * s (ix2 j (i 1 : Fin 256))) + b (ix2 (0 : Fin 1) (i 1 : Fin 256)))
    (Ideal.ofBits .f32 0x00000000#32)

theorem val_prop1_ix2 (a : S4096x4096.Idx → EReal) (s : S4096x256.Idx → EReal) (b : S1x256.Idx → EReal) (r : Fin 4096) (q : Fin 256) :
    val_prop1 a s b (ix2 r q)
      = max ((∑ j : Fin 4096, a (ix2 r j) * s (ix2 j q)) + b (ix2 (0 : Fin 1) q)) (Ideal.ofBits .f32 0x00000000#32) := rfl

variable (V : (c : Dev nD) → (b : Ref sig .tc) → Buf (Elt Ideal) ((c : Thread nD τ).loc b))

/-- Row p of a left block times column q of a right block. -/
def val_rowcol1 (x0 : S512x512.Idx → EReal) (x1 : S512x256.Idx → EReal) (p : Fin 512) (q : Fin 256) : EReal :=
  ∑ k : Fin 512, x0 (ix2 p k) * x1 (ix2 k q)

/-- The slab sum a point adds: its two blocks' product at (p, q) is the sum over slab K of the terms. -/
theorem val_slab1 (c : Dev nD) (t : Fin cfg1.N) (I K : Fin 8) (ht : t.val = 8 * I.val + K.val) (p : Fin 512) (q : Fin 256) :
    val_rowcol1 (iblk1 (F := Ideal) V c 0 t) (iblk1 (F := Ideal) V c 1 t) p q
      = ∑ j : Fin 512, val_term1 (V c main_v5) (V c main_v18) I p q (rowOf K j) := by
  unfold val_rowcol1
  exact Finset.sum_congr rfl fun k _ => congrArg₂ (fun (u v : EReal) => u * v) (val_blk1_0 V c t I K ht p k) (val_blk1_1 V c t I K ht k q)

/-- At K = 0: zero plus the first slab sum. -/
theorem val_acc1_A (c : Dev nD) (t : Fin cfg1.N) (I K : Fin 8) (ht : t.val = 8 * I.val + K.val) (hK : K.val = 0) (p : Fin 512) (q : Fin 256) :
    ((outsAt1 (F := Ideal) V c t.val t.isLt).2 : FVec Ideal S512x256 .f32) (ix2 p q)
      = accUpTo (val_term1 (V c main_v5) (V c main_v18) I p q) (K.val + 1) K.isLt := by
  have h0 : t.val % 8 = 0 := by omega
  rw [val_accAt1_A V c t h0]
  refine (val_k1_pay2_apply (k1_pay1 (F := Ideal)) (iblk1 V c 0 t) (iblk1 V c 1 t) p q).trans ?_
  rw [val_accUpTo_succ, val_accUpTo_congr _ K.val 0 _ (Nat.zero_le 8) hK]
  exact congrArg₂ (fun (u v : EReal) => u + v) (val_k1_pay1_apply p q) (val_slab1 V c t I K ht p q)

/-- At K > 0: what the point before left plus slab K's sum. -/
theorem val_acc1_BC (c : Dev nD) (t : Fin cfg1.N) (I K : Fin 8) (ht : t.val = 8 * I.val + K.val) (hK : ¬K.val = 0) (p : Fin 512) (q : Fin 256)
    (hprev : ((outsAt1 (F := Ideal) V c (t.val - 1) (Nat.lt_of_le_of_lt (Nat.sub_le _ _) t.isLt)).2 : FVec Ideal S512x256 .f32) (ix2 p q)
      = accUpTo (val_term1 (V c main_v5) (V c main_v18) I p q) K.val (Nat.le_of_lt K.isLt)) :
    ((outsAt1 (F := Ideal) V c t.val t.isLt).2 : FVec Ideal S512x256 .f32) (ix2 p q)
      = accUpTo (val_term1 (V c main_v5) (V c main_v18) I p q) (K.val + 1) K.isLt := by
  have hKl := K.isLt
  have h0 : ¬t.val % 8 = 0 := by omega
  rw [val_accAt1_BC V c t h0]
  refine (val_k1_pay2_apply (outsAt1 (F := Ideal) V c (t.val - 1) (Nat.lt_of_le_of_lt (Nat.sub_le _ _) t.isLt)).2 (iblk1 V c 0 t) (iblk1 V c 1 t) p q).trans ?_
  rw [val_accUpTo_succ]
  exact congrArg₂ (fun (u v : EReal) => u + v) hprev (val_slab1 V c t I K ht p q)

/-- THE ACCUMULATOR after point 8·I + K: the first K + 1 slab sums of row 512·I + p times column q, from zero. -/
theorem val_acc1 (c : Dev nD) : ∀ (n : ℕ) (hn : n < cfg1.N) (I K : Fin 8), n = 8 * I.val + K.val → ∀ (p : Fin 512) (q : Fin 256),
    ((outsAt1 (F := Ideal) V c n hn).2 : FVec Ideal S512x256 .f32) (ix2 p q)
      = accUpTo (val_term1 (V c main_v5) (V c main_v18) I p q) (K.val + 1) K.isLt := by
  intro n
  induction n with
  | zero =>
    intro hn I K hIK p q
    exact val_acc1_A V c ⟨0, hn⟩ I K hIK (by omega) p q
  | succ m ih =>
    intro hn I K hIK p q
    by_cases hK : K.val = 0
    · exact val_acc1_A V c ⟨m + 1, hn⟩ I K hIK hK p q
    · have hKl := K.isLt
      have ihm := ih (Nat.lt_of_succ_lt hn) I ⟨K.val - 1, by omega⟩ (by dsimp only; omega) p q
      exact val_acc1_BC V c ⟨m + 1, hn⟩ I K hIK hK p q
        (ihm.trans (val_accUpTo_congr _ _ _ _ _ (by dsimp only; omega)))

end Cert.RefSide.B

end
-- ==== Proof.RVFinal1.lean ====
/- Region 1 of the reference program, at the ideal values: the result array.
   The output block is written back only at the points 8·I + 7; there the accumulator holds all eight slab sums, which
   regroup to the sum over the 4096 contracted indices, and the block is the epilogue of that sum: entry (p, q) of
   block I is entry (512·I + p, q) of max (a · s + b, 0).  The blocks of the eight such points tile the result's rows. -/
import proofs.«180427_g2000709331088930_pallasbulk_708_2_alg».proof.Proof.RVAcc1
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

open Cert.GcnSpec (rowOf accUpTo)

variable (V : (c : Dev nD) → (b : Ref sig .tc) → Buf (Elt Ideal) ((c : Thread nD τ).loc b))

/-- What a point 8·I + 7 writes back is block I of the propagation step's result. -/
theorem val_flushed1 (c : Dev nD) (t : Fin cfg1.N) (hf : (cfg1.win 3).flush t = true) :
    (dat1 V c).flushed 3 t
      = ((cfg1.win 3).blk t).view.read (Elt Ideal) (val_prop1 (V c main_v5) (V c main_v18) (V c main_v14)) := by
  have h7 : t.val % 8 = 7 := (flush1_3 t).mp hf
  have hN : cfg1.N = 64 := N_1
  have htl := t.isLt
  have hI : t.val / 8 < 8 := by omega
  have hK : t.val % 8 < 8 := by omega
  have ht : t.val = 8 * (⟨t.val / 8, hI⟩ : Fin 8).val + (⟨t.val % 8, hK⟩ : Fin 8).val := by dsimp only; omega
  show (cfg1.win 3).cut (grid1.coords t) ((dat1 V c).after 3 t) = _
  rw [after1_3, val_outAt1_C V c t h7]
  funext y
  obtain ⟨p, q, rfl⟩ : ∃ (p : Fin 512) (q : Fin 256), y = ix2 p q := ⟨y 0, y 1, eq_ix2 y⟩
  rw [View.read_apply]
  show (k1_pay3 (F := Ideal) (outsAt1 V c t.val t.isLt).2 (iblk1 V c 2 t) : FVec Ideal S512x256 .bf16) (ix2 p q)
    = val_prop1 (V c main_v5) (V c main_v18) (V c main_v14) (((cfg1.win 3).blk t).view.emb (ix2 p q))
  rw [val_emb1_3 t ⟨t.val / 8, hI⟩ ⟨t.val % 8, hK⟩ ht p q, val_prop1_ix2]
  refine (val_k1_pay3_apply (outsAt1 (F := Ideal) V c t.val t.isLt).2 (iblk1 V c 2 t) p q).trans ?_
  have hacc := val_acc1 V c t.val t.isLt ⟨t.val / 8, hI⟩ ⟨t.val % 8, hK⟩ ht p q
  have hall : accUpTo (val_term1 (V c main_v5) (V c main_v18) ⟨t.val / 8, hI⟩ p q) ((⟨t.val % 8, hK⟩ : Fin 8).val + 1) (⟨t.val % 8, hK⟩ : Fin 8).isLt
      = ∑ j : Fin 4096, val_term1 (V c main_v5) (V c main_v18) ⟨t.val / 8, hI⟩ p q j :=
    (val_accUpTo_congr _ _ 8 _ le_rfl (by dsimp only; omega)).trans (Cert.GcnSpec.accUpTo_all _)
  exact congrArg₂ (fun (u v : EReal) => max (u + v) (Ideal.ofBits .f32 0x00000000#32)) (hacc.trans hall) (val_blk1_2 V c t 0 q)

/-- An index of the result is in point t's output block iff each coordinate is in the block's range on its axis. -/
theorem val_mem_blk1_3 (t : Fin cfg1.N) (i : S4096x256.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v19).slice (win1_3.rect t)).set ↔ _
  rw [View.set_slice_whole, Rect.mem_set_unit]
  exact Iff.rfl

/-- Row r of the result is in the block written back at point 8·(r / 512) + 7. -/
theorem val_cover1 (i : S4096x256.Idx) : ∃ t : Fin cfg1.N, (cfg1.win 3).flush t = true ∧ i ∈ ((cfg1.win 3).blk t).view.set := by
  have hN : cfg1.N = 64 := N_1
  have hi0 : (i 0).val < 4096 := (i 0).isLt
  have hi1 : (i 1).val < 256 := (i 1).isLt
  have htl : 8 * ((i 0).val / 512) + 7 < cfg1.N := by omega
  refine ⟨⟨8 * ((i 0).val / 512) + 7, htl⟩, (flush1_3 _).mpr (by dsimp only; omega), ?_⟩
  obtain ⟨-, -, -, -, -, -, e0, e1⟩ := val_idx1 ⟨8 * ((i 0).val / 512) + 7, htl⟩
  rw [val_mem_blk1_3]
  intro a
  match a with
  | ⟨0, _⟩ =>
    show win1_3.index ⟨8 * ((i 0).val / 512) + 7, htl⟩ (0 : Fin 2) * 512 ≤ (i 0).val ∧ (i 0).val < win1_3.index ⟨8 * ((i 0).val / 512) + 7, htl⟩ (0 : Fin 2) * 512 + 512
    rw [e0]; dsimp only; omega
  | ⟨1, _⟩ =>
    show win1_3.index ⟨8 * ((i 0).val / 512) + 7, htl⟩ (1 : Fin 2) * 256 ≤ (i 1).val ∧ (i 1).val < win1_3.index ⟨8 * ((i 0).val / 512) + 7, htl⟩ (1 : Fin 2) * 256 + 256
    rw [e1]; omega

/-- THE RESULT of region 1: max (a · s + b, 0), entry by entry. -/
theorem val_final1 (c : Dev nD) :
    (dat1 V c).arrAt 3 cfg1.N = val_prop1 (V c main_v5) (V c main_v18) (V c main_v14) :=
  (dat1 V c).arrAt_eq_of_cover 3 (val_prop1 (V c main_v5) (V c main_v18) (V c main_v14)) (fun t hf => val_flushed1 V c t hf) val_cover1

end Cert.RefSide.B

end
-- ==== Proof.RVal2.lean ====
/-
  The reference program's hidden layer and second projection, entry by entry, as the specification's sums.
  Region 1 leaves max (adj · s1 + b1, 0) with s1 what region 0 left; region 2 leaves its product with W2.
-/
import proofs.«180427_g2000709331088930_pallasbulk_708_2_alg».proof.Proof.RVal1
import proofs.«180427_g2000709331088930_pallasbulk_708_2_alg».proof.Proof.RVFinal1

set_option maxRecDepth 16384

noncomputable section

namespace Cert.RefSide.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.RefSide.A Cert.RefSide.B Cert.GcnSpec Idealize.ShloMosaic.ValueIdx

variable (m : (ℓ : Loc nD τ sig) → Buf (Elt Ideal) ℓ)

/-- Region 1 leaves the hidden layer. -/
theorem hid_entry (c : Dev nD) (r : Fin 4096) (k : Fin 256) :
    (V3 m c main_v19 : S4096x256.Idx → EReal) (ix2 r k) = hidAt (ax m c) (aadj m c) (aw1 m c) (ab1 m c) r k := by
  rw [V3_v19 m c, val_final1 (V2 m) c, val_prop1_ix2, V2_v5 m c, in_adj m c, V2_v14 m c, in_b1 m c k]
  unfold hidAt
  change @Eq EReal _ _
  refine congrArg (fun z => max (z + ab1 m c (ix1 k)) (Ideal.ofBits .f32 0x00000000#32)) ?_
  exact Finset.sum_congr rfl fun j _ => congrArg (aadj m c (ix2 r j) * ·) (s1_entry m c j k)

/-- Region 2 leaves the second projection. -/
theorem s2_entry (c : Dev nD) (r : Fin 4096) (q : Fin 128) :
    (V4 m c main_v20 : S4096x128.Idx → EReal) (ix2 r q) = s2At (ax m c) (aadj m c) (aw1 m c) (ab1 m c) (aw2 m c) r q := by
  rw [V4_v20 m c, final2 (V3 m) c, prod2_ix2, V3_v11 m c, in_w2 m c]
  unfold s2At
  change @Eq EReal _ _
  exact Finset.sum_congr rfl fun k _ => congrArg (· * aw2 m c (ix2 k q)) (hid_entry m c r k)

end Cert.RefSide.Run

end
-- ==== Proof.RVPay3.lean ====
/- The three payloads of the second propagation body, at the ideal values. The cleared accumulator is zero
   everywhere; the accumulation step adds to the loaded accumulator the product of the row block of the left matrix
   with the column block of the right one; the epilogue adds the bias row, keeps every lane (the lane index is below
   the 128 lanes the mask compares it with), and applies the row-wise log-softmax of the slab, operation for operation
   the vector function of the specification, which is never opened. -/
import proofs.«180427_g2000709331088930_pallasbulk_708_2_alg».proof.Proof.RAPay
import proofs.«180427_g2000709331088930_pallasbulk_708_2_alg».proof.Proof.Spec
import Idealize.ShloMosaic.Lib.Pipeline.Value
import Idealize.ShloMosaic.Lib.ValueLayout

set_option maxRecDepth 16384

noncomputable section

namespace Cert.RefSide.B

open Cert.ReferenceIdeal Cert.ReferenceIdeal.Gen
open Idealize.ShloMosaic Idealize.ShloMosaic.ValueIdx

/-- The dimension numbers of the product: [512,512] × [512,128], contracting axis 1 with axis 0. -/
abbrev val_dot3 : DotDims S512x512 S512x128 S512x128 := dot_S512x512_S512x128_S512x128_1_0_0_1_n_n

theorem val_lhs3_0 (i : S512x128.Idx) (q : val_dot3.contr.Idx) : (val_dot3.lhsIdx i q 0).val = (i 0).val := by
  unfold DotDims.lhsIdx
  rw [dif_neg (show ¬(0 : Fin S512x512.rank) ∈ val_dot3.lhsBatch by decide), dif_pos (show (0 : Fin S512x512.rank) ∈ val_dot3.lhsNonContracting by decide)]
  rfl
theorem val_lhs3_1 (i : S512x128.Idx) (q : val_dot3.contr.Idx) : (val_dot3.lhsIdx i q 1).val = (q ⟨0, by decide⟩).val :=
  val_dot3.lhsIdx_val_of_single rfl i q
theorem val_rhs3_0 (i : S512x128.Idx) (q : val_dot3.contr.Idx) : (val_dot3.rhsIdx i q 0).val = (q ⟨0, by decide⟩).val :=
  val_dot3.rhsIdx_val_of_single rfl i q
theorem val_rhs3_1 (i : S512x128.Idx) (q : val_dot3.contr.Idx) : (val_dot3.rhsIdx i q 1).val = (i 1).val := by
  unfold DotDims.rhsIdx
  rw [dif_neg (show ¬(1 : Fin S512x128.rank) ∈ val_dot3.rhsBatch by decide), dif_pos (show (1 : Fin S512x128.rank) ∈ val_dot3.rhsNonContracting by decide)]
  rfl

/-- Entry (p, q) of a [512,512] × [512,128] product accumulated into a zero splat. -/
theorem val_matmul3_apply (v4 : FVec Ideal S512x512 .bf16) (v6 : FVec Ideal S512x128 .bf16) (p : Fin 512) (q : Fin 128) :
    (matmul (F := Ideal) val_dot3 none v4 v6 (constant S512x128 .f32 0x00000000#32) : FVec Ideal S512x128 .f32) (ix2 p q)
      = ∑ k : Fin 512, v4 (ix2 p k) * v6 (ix2 k q) := by
  refine (Ideal.matmul_constant_zero_apply val_dot3 none v4 v6 (ix2 p q)).trans ?_
  rw [← Equiv.sum_comp (contrEquiv1 val_dot3 512 rfl rfl).symm]
  refine Finset.sum_congr rfl fun k _ => ?_
  have hk := contrEquiv1_symm_val val_dot3 512 rfl rfl k
  have el : val_dot3.lhsIdx (ix2 p q) ((contrEquiv1 val_dot3 512 rfl rfl).symm k) = ix2 p k := funext fun a => Fin.ext (by
    match a with
    | ⟨0, _⟩ => exact val_lhs3_0 _ _
    | ⟨1, _⟩ => exact (val_lhs3_1 _ _).trans hk)
  have er : val_dot3.rhsIdx (ix2 p q) ((contrEquiv1 val_dot3 512 rfl rfl).symm k) = ix2 k q := funext fun a => Fin.ext (by
    match a with
    | ⟨0, _⟩ => exact (val_rhs3_0 _ _).trans hk
    | ⟨1, _⟩ => exact val_rhs3_1 _ _)
  rw [el, er]

/-- The cleared accumulator is zero at every entry. -/
theorem val_k3_pay1_apply (p : Fin 512) (q : Fin 128) :
    (k3_pay1 (F := Ideal) : FVec Ideal S512x128 .f32) (ix2 p q) = 0 := by
  unfold k3_pay1
  simp only [shapeCast_self]
  exact Ideal.ofBits_zero_f32

/-- Entry (p, q) after one accumulation step: the loaded accumulator plus row p of the left block times column q of
    the right block. -/
theorem val_k3_pay2_apply (v3 : FVec Ideal S512x128 .f32) (v4 : FVec Ideal S512x512 .bf16) (v6 : FVec Ideal S512x128 .bf16)
    (p : Fin 512) (q : Fin 128) :
    (k3_pay2 (F := Ideal) v3 v4 v6 : FVec Ideal S512x128 .f32) (ix2 p q) = v3 (ix2 p q) + ∑ k : Fin 512, v4 (ix2 p k) * v6 (ix2 k q) := by
  unfold k3_pay2
  simp only [shapeCast_self]
  exact congrArg (v3 (ix2 p q) + ·) (val_matmul3_apply v4 v6 p q)

/-! ## The epilogue -/

/-- The slab the epilogue's log-softmax is applied to: the accumulator plus the bias row, behind the lane mask. -/
def val_masked3 (v16 : Vec Ideal S512x128 .f32) (v17 : Vec Ideal S1x128 .f32) : FVec Ideal Cert.GcnSpec.Sslab .f32 :=
  select (cmpi .slt (iota .tc S512x128 32 [1] iota_S512x128_d1_w32) (broadcast S512x128 128#32))
    (addf (v16 : FVec Ideal S512x128 .f32)
      (broadcastTo S512x128 (shapeCast S1x128 (v17 : FVec Ideal S1x128 .f32) shapeCasts_S1x128_S1x128 : FVec Ideal S1x128 .f32) broadcasts_S1x128_S512x128))
    (broadcast S512x128 (Scalar.ofBits (F := Ideal) .f32 0xF149F2CA#32))

/-- The epilogue is the row-wise log-softmax of that slab: the same vector operations in the same order. -/
theorem val_k3_pay3_lsm (v16 : Vec Ideal S512x128 .f32) (v17 : Vec Ideal S1x128 .f32) :
    k3_pay3 (F := Ideal) v16 v17 = Cert.GcnSpec.lsm (val_masked3 v16 v17) := rfl

/-- A lane index of a 128-lane row is below 128 as a signed 32-bit word. -/
theorem val_lane_lt : ∀ q : Fin 128, IntOp.cmpi .slt (BitVec.ofNat 32 q.val) 128#32 = 1#1 := by decide +kernel

/-- Entry (p, q) of the masked slab: the mask keeps the lane, so it is the accumulator plus the bias of column q. -/
theorem val_masked3_apply (v16 : Vec Ideal S512x128 .f32) (v17 : Vec Ideal S1x128 .f32) (p : Fin 512) (q : Fin 128) :
    val_masked3 v16 v17 (ix2 p q) = v16 (ix2 p q) + v17 (ix2 (0 : Fin 1) q) := by
  unfold val_masked3
  rw [select_apply]
  have hc : (cmpi .slt (iota .tc S512x128 32 [1] iota_S512x128_d1_w32) (broadcast S512x128 128#32)) (ix2 p q) = 1#1 := by
    show IntOp.cmpi .slt (iota .tc S512x128 32 [1] iota_S512x128_d1_w32 (ix2 p q)) 128#32 = 1#1
    rw [iota_single_apply]
    exact val_lane_lt q
  rw [hc, select_one, addf_apply]
  refine congrArg (v16 (ix2 p q) + ·) ?_
  refine (broadcastTo_1b_ab_apply (shapeCast S1x128 (v17 : FVec Ideal S1x128 .f32) shapeCasts_S1x128_S1x128 : FVec Ideal S1x128 .f32)
    broadcasts_S1x128_S512x128 p q).trans ?_
  rw [shapeCast_self]

/-- The masked slab as one function of its index. -/
theorem val_masked3_eq (v16 : Vec Ideal S512x128 .f32) (v17 : Vec Ideal S1x128 .f32) :
    val_masked3 v16 v17
      = fun y : Cert.GcnSpec.Sslab.Idx => v16 (ix2 (y 0 : Fin 512) (y 1 : Fin 128)) + v17 (ix2 (0 : Fin 1) (y 1 : Fin 128)) := by
  funext y
  obtain ⟨r, q, rfl⟩ : ∃ (r : Fin 512) (q : Fin 128), y = ix2 r q := ⟨y 0, y 1, eq_ix2 y⟩
  exact val_masked3_apply v16 v17 r q

/-- The epilogue: the row-wise log-softmax of the slab "accumulator plus bias row". -/
theorem val_k3_pay3_eq (v16 : Vec Ideal S512x128 .f32) (v17 : Vec Ideal S1x128 .f32) :
    k3_pay3 (F := Ideal) v16 v17
      = Cert.GcnSpec.lsm (fun y : Cert.GcnSpec.Sslab.Idx => v16 (ix2 (y 0 : Fin 512) (y 1 : Fin 128)) + v17 (ix2 (0 : Fin 1) (y 1 : Fin 128))) := by
  rw [val_k3_pay3_lsm, val_masked3_eq]

end Cert.RefSide.B

end
-- ==== Proof.RVPiece3.lean ====
/- Region 3 of the reference program: what each control case leaves, as the body's arithmetic of what it read.
   Every store of the body covers its whole buffer and every load reads a whole buffer, so the contents a case leaves
   are the last store's payload, and a load after a store reads that store's payload: at k = 0 the accumulator is the
   accumulation step applied to the cleared accumulator, elsewhere to what the point before left, and at k = 7 the
   output block is the epilogue (bias row, then the row-wise log-softmax) of the accumulator just written. -/
import proofs.«180427_g2000709331088930_pallasbulk_708_2_alg».proof.Proof.RBAcc3
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

theorem val_hz3 : (![0, 0] : Fin 2 → Nat) = fun _ => 0 := funext fun a => by fin_cases a <;> rfl

/-- At k = 0 the accumulator ends as the accumulation step of the cleared accumulator and the two blocks. -/
theorem val_sout3_A (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond3_0 i) (hc1 : ¬cond3_1 i)
    (x0 : Vec F S512x512 .bf16) (x1 : Vec F S512x128 .bf16) (x2 : Vec F S1x128 .f32) :
    sout3_A c i arg2 harg2 arg3 harg3 arg4 harg4 arg5 harg5 arg6 harg6 hc0 hc1 x0 x1 x2 = k3_pay2 (k3_pay1 (F := F)) x0 x1 := by
  unfold sout3_A
  rw [View.read_writes_eq_canon _ _ _ (scover3_A c i arg2 harg2 arg3 harg3 arg4 harg4 arg5 harg5 arg6 harg6 hc0 hc1 x0 x1 x2)]
  unfold kernelRun3_A
  dsimp only
  sl_unfold_words
  rw [View.canon_cons_unit_zero (S := S512x128) val_hz3, View.readCov_unit_zero (S := S512x128) _ val_hz3]
  simp only [View.readAt_eq_ld, harg2.read_unread, harg3.read_unread, View.ld_unit_zero (S := S512x512) val_hz3, View.ld_unit_zero (S := S512x128) val_hz3]

/-- At 0 < k < 7 the accumulator ends as the accumulation step of what it held and the two blocks. -/
theorem val_sout3_B (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : ¬cond3_1 i)
    (x0 : Vec F S512x512 .bf16) (x1 : Vec F S512x128 .bf16) (x2 : Vec F S1x128 .f32) (xs : Vec F S512x128 .f32) :
    sout3_B c i arg2 harg2 arg3 harg3 arg4 harg4 arg5 harg5 arg6 harg6 hc0 hc1 x0 x1 x2 xs = k3_pay2 xs x0 x1 := by
  unfold sout3_B
  rw [View.read_writes_eq_canon _ _ _ (scover3_B c i arg2 harg2 arg3 harg3 arg4 harg4 arg5 harg5 arg6 harg6 hc0 hc1 x0 x1 x2 xs)]
  unfold kernelRun3_B
  dsimp only
  sl_unfold_words
  rw [View.canon_unit_zero (S := S512x128) val_hz3]
  simp only [View.readAt_eq_ld, harg2.read_unread, harg3.read_unread, harg6.read_unread, View.ld_unit_zero (S := S512x512) val_hz3, View.ld_unit_zero (S := S512x128) val_hz3]

/-- At k = 7 the accumulator ends as the accumulation step of what it held and the two blocks. -/
theorem val_sout3_C (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : cond3_1 i)
    (x0 : Vec F S512x512 .bf16) (x1 : Vec F S512x128 .bf16) (x2 : Vec F S1x128 .f32) (xs : Vec F S512x128 .f32) :
    sout3_C c i arg2 harg2 arg3 harg3 arg4 harg4 arg5 harg5 arg6 harg6 hc0 hc1 x0 x1 x2 xs = k3_pay2 xs x0 x1 := by
  unfold sout3_C
  rw [View.read_writes_eq_canon _ _ _ (scover3_C c i arg2 harg2 arg3 harg3 arg4 harg4 arg5 harg5 arg6 harg6 hc0 hc1 x0 x1 x2 xs)]
  unfold kernelRun3_C
  dsimp only
  sl_unfold_words
  rw [View.canon_unit_zero (S := S512x128) val_hz3]
  simp only [View.readAt_eq_ld, harg2.read_unread, harg3.read_unread, harg6.read_unread, View.ld_unit_zero (S := S512x512) val_hz3, View.ld_unit_zero (S := S512x128) val_hz3]

/-- At k = 7 the output block is the epilogue of the accumulator just written and the bias row: the log-softmax head. -/
theorem val_out3_C (c : Dev nD) (i : grid3.Coords) (arg2 : Memref sig .tc .vmem S512x512 .bf16) (harg2 : arg2.IsWhole) (arg3 : Memref sig .tc .vmem S512x128 .bf16) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : ¬cond3_0 i) (hc1 : cond3_1 i)
    (x0 : Vec F S512x512 .bf16) (x1 : Vec F S512x128 .bf16) (x2 : Vec F S1x128 .f32) (xs : Vec F S512x128 .f32) :
    out3_C c i arg2 harg2 arg3 harg3 arg4 harg4 arg5 harg5 arg6 harg6 hc0 hc1 x0 x1 x2 xs = k3_pay3 (k3_pay2 xs x0 x1) x2 := by
  unfold out3_C
  rw [View.read_writes_eq_canon _ _ _ (cover3_C c i arg2 harg2 arg3 harg3 arg4 harg4 arg5 harg5 arg6 harg6 hc0 hc1 x0 x1 x2 xs)]
  unfold kernelRun3_C
  dsimp only
  sl_unfold_words
  rw [View.canon_unit_zero (S := S512x128) val_hz3, View.readCov_unit_zero (S := S512x128) _ val_hz3]
  simp only [View.readAt_eq_ld, harg2.read_unread, harg3.read_unread, harg4.read_unread, harg6.read_unread, View.ld_unit_zero (S := S512x512) val_hz3, View.ld_unit_zero (S := S512x128) val_hz3, View.ld_unit_zero (S := S1x128) val_hz3]

end Cert.RefSide.B

end
-- ==== Proof.RVStep3.lean ====
/- Region 3 of the reference program, at the ideal values: the accumulator after each grid point.
   Point t = 8·I + K works on row slab I of the left matrix and on slab K of the contracted axis.  Its left block is
   rows 512·I.., columns 512·K.. of the left matrix, its right block rows 512·K.. of the right matrix, its bias block
   the whole bias row.  So after point t the accumulator's entry (p, q) is the sum, over the first K + 1 slabs of the
   contracted axis taken one after the other from zero, of the products of row 512·I + p of the left matrix with column
   q of the right one; at K = 7 the output block is the epilogue of the whole sum. -/
import proofs.«180427_g2000709331088930_pallasbulk_708_2_alg».proof.Proof.RBAcc3
import proofs.«180427_g2000709331088930_pallasbulk_708_2_alg».proof.Proof.RVPay3
import proofs.«180427_g2000709331088930_pallasbulk_708_2_alg».proof.Proof.RVPiece3
import proofs.«180427_g2000709331088930_pallasbulk_708_2_alg».proof.Proof.Spec
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

open Cert.GcnSpec (rowOf accUpTo)

variable (V : (c : Dev nD) → (b : Ref sig .tc) → Buf (Elt F) ((c : Thread nD τ).loc b))

/-! ## The accumulator and the output block at a point, as the body's arithmetic -/

theorem val_hc3_0 (t : Fin cfg3.N) (h0 : t.val % 8 = 0) : cond3_0 (grid3.coords t) := (hcond3_0 t).mpr h0
theorem val_nhc3_0 (t : Fin cfg3.N) (h0 : ¬t.val % 8 = 0) : ¬cond3_0 (grid3.coords t) := fun h => h0 ((hcond3_0 t).mp h)
theorem val_hc3_1 (t : Fin cfg3.N) (h1 : t.val % 8 = 7) : cond3_1 (grid3.coords t) := (hcond3_1 t).mpr h1
theorem val_nhc3_1 (t : Fin cfg3.N) (h1 : ¬t.val % 8 = 7) : ¬cond3_1 (grid3.coords t) := fun h => h1 ((hcond3_1 t).mp h)

/-- At k = 0 the accumulator restarts from the slab product alone. -/
theorem val_accAt3_A (c : Dev nD) (t : Fin cfg3.N) (h0 : t.val % 8 = 0) :
    (outsAt3 V c t.val t.isLt).2 = k3_pay2 (k3_pay1 (F := F)) (iblk3 V c 0 t) (iblk3 V c 1 t) := by
  have h1 : ¬t.val % 8 = 7 := by omega
  rw [outsAt3_A V c t h0 (val_hc3_0 t h0) (val_nhc3_1 t h1)]
  dsimp only
  exact val_sout3_A (F := F) c (grid3.coords t) (ms3_0 t) (hs3_0 t) (ms3_1 t) (hs3_1 t) (ms3_2 t) (hs3_2 t) (ms3_3 t) (hs3_3 t) scM3 (Memref.isWhole_whole _) (val_hc3_0 t h0) (val_nhc3_1 t h1) (iblk3 V c 0 t) (iblk3 V c 1 t) (iblk3 V c 2 t)

/-- At k > 0 the accumulator continues from what the point before left. -/
theorem val_accAt3_BC (c : Dev nD) (t : Fin cfg3.N) (h0 : ¬t.val % 8 = 0) :
    (outsAt3 V c t.val t.isLt).2
      = k3_pay2 (outsAt3 V c (t.val - 1) (Nat.lt_of_le_of_lt (Nat.sub_le _ _) t.isLt)).2 (iblk3 V c 0 t) (iblk3 V c 1 t) := by
  by_cases h1 : t.val % 8 = 7
  · rw [outsAt3_C V c t h0 h1 (val_nhc3_0 t h0) (val_hc3_1 t h1)]
    dsimp only
    exact val_sout3_C (F := F) c (grid3.coords t) (ms3_0 t) (hs3_0 t) (ms3_1 t) (hs3_1 t) (ms3_2 t) (hs3_2 t) (ms3_3 t) (hs3_3 t) scM3 (Memref.isWhole_whole _) (val_nhc3_0 t h0) (val_hc3_1 t h1) (iblk3 V c 0 t) (iblk3 V c 1 t) (iblk3 V c 2 t)
      (outsAt3 V c (t.val - 1) (Nat.lt_of_le_of_lt (Nat.sub_le _ _) t.isLt)).2
  · rw [outsAt3_B V c t h0 h1 (val_nhc3_0 t h0) (val_nhc3_1 t h1)]
    dsimp only
    exact val_sout3_B (F := F) c (grid3.coords t) (ms3_0 t) (hs3_0 t) (ms3_1 t) (hs3_1 t) (ms3_2 t) (hs3_2 t) (ms3_3 t) (hs3_3 t) scM3 (Memref.isWhole_whole _) (val_nhc3_0 t h0) (val_nhc3_1 t h1) (iblk3 V c 0 t) (iblk3 V c 1 t) (iblk3 V c 2 t)
      (outsAt3 V c (t.val - 1) (Nat.lt_of_le_of_lt (Nat.sub_le _ _) t.isLt)).2

/-- At k = 7 the output block is the epilogue of the accumulator the point leaves. -/
theorem val_outAt3_C (c : Dev nD) (t : Fin cfg3.N) (h1 : t.val % 8 = 7) :
    (outsAt3 V c t.val t.isLt).1 = k3_pay3 (outsAt3 V c t.val t.isLt).2 (iblk3 V c 2 t) := by
  have h0 : ¬t.val % 8 = 0 := by omega
  rw [val_accAt3_BC V c t h0, outsAt3_C V c t h0 h1 (val_nhc3_0 t h0) (val_hc3_1 t h1)]
  dsimp only
  exact val_out3_C (F := F) c (grid3.coords t) (ms3_0 t) (hs3_0 t) (ms3_1 t) (hs3_1 t) (ms3_2 t) (hs3_2 t) (ms3_3 t) (hs3_3 t) scM3 (Memref.isWhole_whole _) (val_nhc3_0 t h0) (val_hc3_1 t h1) (iblk3 V c 0 t) (iblk3 V c 1 t) (iblk3 V c 2 t)
    (outsAt3 V c (t.val - 1) (Nat.lt_of_le_of_lt (Nat.sub_le _ _) t.isLt)).2

end Cert.RefSide.B

end
-- ==== Proof.RVBlk3.lean ====
/- Region 3 of the reference program: which entries of the arrays a point's blocks hold.
   Point t = 8·I + K of the 8 × 8 grid: the left window's block is rows 512·I.., columns 512·K.. of the 4096 × 4096
   matrix; the right window's block is rows 512·K.. of the 4096 × 128 matrix; the bias window's block is the whole
   1 × 128 row; the output window's block is rows 512·I.. of the 4096 × 128 result.  The printed index maps are
   decided once over the 64 points. -/
import proofs.«180427_g2000709331088930_pallasbulk_708_2_alg».proof.Proof.RBShared3
import proofs.«180427_g2000709331088930_pallasbulk_708_2_alg».proof.Proof.Spec
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

open Cert.GcnSpec (rowOf)

variable (V : (c : Dev nD) → (b : Ref sig .tc) → Buf (Elt Ideal) ((c : Thread nD τ).loc b))

/-- The block indices of the four windows at point t: t / 8 and t % 8 where a window moves, 0 where it does not. -/
theorem val_idx3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

/-- Entry (p, k) of the left block at point 8·I + K is entry (512·I + p, 512·K + k) of the left matrix. -/
theorem val_blk3_0 (c : Dev nD) (t : Fin cfg3.N) (I K : Fin 8) (ht : t.val = 8 * I.val + K.val) (p k : Fin 512) :
    (iblk3 (F := Ideal) V c 0 t : FVec Ideal S512x512 .bf16) (ix2 p k)
      = (V c main_v5 : S4096x4096.Idx → EReal) (ix2 (rowOf I p) (rowOf K k)) := by
  obtain ⟨e0, e1, -⟩ := val_idx3 t
  unfold iblk3
  rw [View.read_apply]
  show V c main_v5 (((cfg3.win 0).blk t).view.emb (ix2 p k)) = V c main_v5 (ix2 (rowOf I p) (rowOf K k))
  refine congrArg (V c main_v5) (funext fun a => Fin.ext ?_)
  have hK := K.isLt
  match a with
  | ⟨0, _⟩ => show win3_0.index t (0 : Fin 2) * 512 + 1 * p.val = 512 * I.val + p.val; omega
  | ⟨1, _⟩ => show win3_0.index t (1 : Fin 2) * 512 + 1 * k.val = 512 * K.val + k.val; omega

/-- Entry (k, q) of the right block at point 8·I + K is entry (512·K + k, q) of the right matrix. -/
theorem val_blk3_1 (c : Dev nD) (t : Fin cfg3.N) (I K : Fin 8) (ht : t.val = 8 * I.val + K.val) (k : Fin 512) (q : Fin 128) :
    (iblk3 (F := Ideal) V c 1 t : FVec Ideal S512x128 .bf16) (ix2 k q)
      = (V c main_v20 : S4096x128.Idx → EReal) (ix2 (rowOf K k) q) := by
  obtain ⟨-, -, e0, e1, -⟩ := val_idx3 t
  unfold iblk3
  rw [View.read_apply]
  show V c main_v20 (((cfg3.win 1).blk t).view.emb (ix2 k q)) = V c main_v20 (ix2 (rowOf K k) q)
  refine congrArg (V c main_v20) (funext fun a => Fin.ext ?_)
  have hK := K.isLt
  match a with
  | ⟨0, _⟩ => show win3_1.index t (0 : Fin 2) * 512 + 1 * k.val = 512 * K.val + k.val; omega
  | ⟨1, _⟩ => show win3_1.index t (1 : Fin 2) * 128 + 1 * q.val = q.val; omega

/-- The bias block at every point is the bias row. -/
theorem val_blk3_2 (c : Dev nD) (t : Fin cfg3.N) (z : Fin 1) (q : Fin 128) :
    (iblk3 (F := Ideal) V c 2 t : FVec Ideal S1x128 .f32) (ix2 z q)
      = (V c main_v17 : S1x128.Idx → EReal) (ix2 z q) := by
  obtain ⟨-, -, -, -, e0, e1, -⟩ := val_idx3 t
  unfold iblk3
  rw [View.read_apply]
  show V c main_v17 (((cfg3.win 2).blk t).view.emb (ix2 z q)) = V c main_v17 (ix2 z q)
  refine congrArg (V c main_v17) (funext fun a => Fin.ext ?_)
  match a with
  | ⟨0, _⟩ => show win3_2.index t (0 : Fin 2) * 1 + 1 * z.val = z.val; omega
  | ⟨1, _⟩ => show win3_2.index t (1 : Fin 2) * 128 + 1 * q.val = q.val; omega

/-- Entry (p, q) of the output block at point 8·I + K sits at entry (512·I + p, q) of the result. -/
theorem val_emb3_3 (t : Fin cfg3.N) (I K : Fin 8) (ht : t.val = 8 * I.val + K.val) (p : Fin 512) (q : Fin 128) :
    (((cfg3.win 3).blk t).view.emb (ix2 p q) : S4096x128.Idx) = ix2 (rowOf I p) q := by
  obtain ⟨-, -, -, -, -, -, e0, e1⟩ := val_idx3 t
  refine funext fun a => Fin.ext ?_
  have hK := K.isLt
  match a with
  | ⟨0, _⟩ => show win3_3.index t (0 : Fin 2) * 512 + 1 * p.val = 512 * I.val + p.val; omega
  | ⟨1, _⟩ => show win3_3.index t (1 : Fin 2) * 128 + 1 * q.val = q.val; omega

end Cert.RefSide.B

end
-- ==== Proof.RVAcc3.lean ====
/- Region 3 of the reference program, at the ideal values: the array the region leaves.
   After point 8·I + K the accumulator's entry (p, q) is the sum of the first K + 1 slab sums, taken from zero one after
   the other, of the products of row 512·I + p of the left matrix with column q of the right one (by induction on the
   point: at K = 0 it restarts from zero, elsewhere it adds one slab to what the point before left).  At K = 7 the eight
   slab sums are the whole sum over the 4096 contracted indices, the output block is the row-wise log-softmax of the sum plus the bias, and the blocks
   written back at the points 8·I + 7 tile the 4096 rows of the result. -/
import proofs.«180427_g2000709331088930_pallasbulk_708_2_alg».proof.Proof.RVStep3
import proofs.«180427_g2000709331088930_pallasbulk_708_2_alg».proof.Proof.RVBlk3
import proofs.«180427_g2000709331088930_pallasbulk_708_2_alg».proof.Proof.RVCommon
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

open Cert.GcnSpec (rowOf accUpTo)

/-- One term of entry (512·I + p, q) of the product. -/
def val_term3 (a : S4096x4096.Idx → EReal) (s : S4096x128.Idx → EReal) (I : Fin 8) (p : Fin 512) (q : Fin 128) (j : Fin 4096) : EReal :=
  a (ix2 (rowOf I p) j) * s (ix2 j q)

variable (V : (c : Dev nD) → (b : Ref sig .tc) → Buf (Elt Ideal) ((c : Thread nD τ).loc b))

/-- Row p of a left block times column q of a right block. -/
def val_rowcol3 (x0 : S512x512.Idx → EReal) (x1 : S512x128.Idx → EReal) (p : Fin 512) (q : Fin 128) : EReal :=
  ∑ k : Fin 512, x0 (ix2 p k) * x1 (ix2 k q)

/-- The slab sum a point adds: its two blocks' product at (p, q) is the sum over slab K of the terms. -/
theorem val_slab3 (c : Dev nD) (t : Fin cfg3.N) (I K : Fin 8) (ht : t.val = 8 * I.val + K.val) (p : Fin 512) (q : Fin 128) :
    val_rowcol3 (iblk3 (F := Ideal) V c 0 t) (iblk3 (F := Ideal) V c 1 t) p q
      = ∑ j : Fin 512, val_term3 (V c main_v5) (V c main_v20) I p q (rowOf K j) := by
  unfold val_rowcol3
  exact Finset.sum_congr rfl fun k _ => congrArg₂ (fun (u v : EReal) => u * v) (val_blk3_0 V c t I K ht p k) (val_blk3_1 V c t I K ht k q)

/-- At K = 0: zero plus the first slab sum. -/
theorem val_acc3_A (c : Dev nD) (t : Fin cfg3.N) (I K : Fin 8) (ht : t.val = 8 * I.val + K.val) (hK : K.val = 0) (p : Fin 512) (q : Fin 128) :
    ((outsAt3 (F := Ideal) V c t.val t.isLt).2 : FVec Ideal S512x128 .f32) (ix2 p q)
      = accUpTo (val_term3 (V c main_v5) (V c main_v20) I p q) (K.val + 1) K.isLt := by
  have h0 : t.val % 8 = 0 := by omega
  rw [val_accAt3_A V c t h0]
  refine (val_k3_pay2_apply (k3_pay1 (F := Ideal)) (iblk3 V c 0 t) (iblk3 V c 1 t) p q).trans ?_
  rw [val_accUpTo_succ, val_accUpTo_congr _ K.val 0 _ (Nat.zero_le 8) hK]
  exact congrArg₂ (fun (u v : EReal) => u + v) (val_k3_pay1_apply p q) (val_slab3 V c t I K ht p q)

/-- At K > 0: what the point before left plus slab K's sum. -/
theorem val_acc3_BC (c : Dev nD) (t : Fin cfg3.N) (I K : Fin 8) (ht : t.val = 8 * I.val + K.val) (hK : ¬K.val = 0) (p : Fin 512) (q : Fin 128)
    (hprev : ((outsAt3 (F := Ideal) V c (t.val - 1) (Nat.lt_of_le_of_lt (Nat.sub_le _ _) t.isLt)).2 : FVec Ideal S512x128 .f32) (ix2 p q)
      = accUpTo (val_term3 (V c main_v5) (V c main_v20) I p q) K.val (Nat.le_of_lt K.isLt)) :
    ((outsAt3 (F := Ideal) V c t.val t.isLt).2 : FVec Ideal S512x128 .f32) (ix2 p q)
      = accUpTo (val_term3 (V c main_v5) (V c main_v20) I p q) (K.val + 1) K.isLt := by
  have hKl := K.isLt
  have h0 : ¬t.val % 8 = 0 := by omega
  rw [val_accAt3_BC V c t h0]
  refine (val_k3_pay2_apply (outsAt3 (F := Ideal) V c (t.val - 1) (Nat.lt_of_le_of_lt (Nat.sub_le _ _) t.isLt)).2 (iblk3 V c 0 t) (iblk3 V c 1 t) p q).trans ?_
  rw [val_accUpTo_succ]
  exact congrArg₂ (fun (u v : EReal) => u + v) hprev (val_slab3 V c t I K ht p q)

/-- THE ACCUMULATOR after point 8·I + K: the first K + 1 slab sums of row 512·I + p times column q, from zero. -/
theorem val_acc3 (c : Dev nD) : ∀ (n : ℕ) (hn : n < cfg3.N) (I K : Fin 8), n = 8 * I.val + K.val → ∀ (p : Fin 512) (q : Fin 128),
    ((outsAt3 (F := Ideal) V c n hn).2 : FVec Ideal S512x128 .f32) (ix2 p q)
      = accUpTo (val_term3 (V c main_v5) (V c main_v20) I p q) (K.val + 1) K.isLt := by
  intro n
  induction n with
  | zero =>
    intro hn I K hIK p q
    exact val_acc3_A V c ⟨0, hn⟩ I K hIK (by omega) p q
  | succ m ih =>
    intro hn I K hIK p q
    by_cases hK : K.val = 0
    · exact val_acc3_A V c ⟨m + 1, hn⟩ I K hIK hK p q
    · have hKl := K.isLt
      have ihm := ih (Nat.lt_of_succ_lt hn) I ⟨K.val - 1, by omega⟩ (by dsimp only; omega) p q
      exact val_acc3_BC V c ⟨m + 1, hn⟩ I K hIK hK p q
        (ihm.trans (val_accUpTo_congr _ _ _ _ _ (by dsimp only; omega)))

end Cert.RefSide.B

end
-- ==== Proof.RVFinal3.lean ====
/- Region 3 of the reference program, at the ideal values: the result array.
   The output block is written back only at the points 8·I + 7; there the accumulator holds all eight slab sums, which
   regroup to the sum over the 4096 contracted indices, and the block is the row-wise log-softmax of that sum plus
   the bias row, taken over the 512 rows of slab I at once: entry (p, q) of block I is entry (512·I + p, q) of the
   result.  The blocks of the eight such points tile the result's rows. -/
import proofs.«180427_g2000709331088930_pallasbulk_708_2_alg».proof.Proof.RVAcc3
import Idealize.ShloMosaic.Lib.Pipeline.Value
import Idealize.ShloMosaic.Lib.ValueIdx

set_option maxRecDepth 16384

noncomputable section

namespace Cert.RefSide.B

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

open Cert.GcnSpec (rowOf accUpTo lsm Sslab)

/-- Slab T of the logits a · s + b, as a 512 × 128 array. -/
def val_logits3 (a : S4096x4096.Idx → EReal) (s : S4096x128.Idx → EReal) (b : S1x128.Idx → EReal) (T : Fin 8) : FVec Ideal Sslab .f32 :=
  fun y => (∑ j : Fin 4096, a (ix2 (rowOf T (y 0 : Fin 512)) j) * s (ix2 j (y 1 : Fin 128))) + b (ix2 (0 : Fin 1) (y 1 : Fin 128))

theorem val_logits3_ix2 (a : S4096x4096.Idx → EReal) (s : S4096x128.Idx → EReal) (b : S1x128.Idx → EReal) (T : Fin 8) (p : Fin 512) (q : Fin 128) :
    val_logits3 a s b T (ix2 p q) = (∑ j : Fin 4096, a (ix2 (rowOf T p) j) * s (ix2 j q)) + b (ix2 (0 : Fin 1) q) := rfl

/-- The propagation step with its log-softmax head: row 512·T + r of the result is row r of the log-softmax of slab T
    of the logits. -/
def val_prop3 (a : S4096x4096.Idx → EReal) (s : S4096x128.Idx → EReal) (b : S1x128.Idx → EReal) : S4096x128.Idx → EReal :=
  fun i => lsm (val_logits3 a s b ⟨(i 0).val / 512, by have h : (i 0).val < 4096 := (i 0).isLt; omega⟩)
    (ix2 (⟨(i 0).val % 512, Nat.mod_lt _ (by norm_num)⟩ : Fin 512) (i 1 : Fin 128))

/-- The result at row r of slab T. -/
theorem val_prop3_at (a : S4096x4096.Idx → EReal) (s : S4096x128.Idx → EReal) (b : S1x128.Idx → EReal) (T : Fin 8) (r : Fin 512) (q : Fin 128) :
    val_prop3 a s b (ix2 (rowOf T r) q) = lsm (val_logits3 a s b T) (ix2 r q) := by
  have h1 : (512 * T.val + r.val) / 512 = T.val := by have := r.isLt; omega
  have h2 : (512 * T.val + r.val) % 512 = r.val := by have := r.isLt; omega
  unfold val_prop3
  have e1 : (⟨((ix2 (rowOf T r) q : S4096x128.Idx) 0).val / 512, by have h : ((ix2 (rowOf T r) q : S4096x128.Idx) 0).val < 4096 := ((ix2 (rowOf T r) q : S4096x128.Idx) 0).isLt; omega⟩ : Fin 8) = T :=
    Fin.ext h1
  have e2 : (⟨((ix2 (rowOf T r) q : S4096x128.Idx) 0).val % 512, Nat.mod_lt _ (by norm_num)⟩ : Fin 512) = r := Fin.ext h2
  rw [e1, e2]

variable (V : (c : Dev nD) → (b : Ref sig .tc) → Buf (Elt Ideal) ((c : Thread nD τ).loc b))

/-- At a point 8·I + 7 the accumulator plus the bias row is slab I of the logits. -/
theorem val_logits3_eq (c : Dev nD) (t : Fin cfg3.N) (h7 : t.val % 8 = 7) (hI : t.val / 8 < 8) :
    (fun y : Sslab.Idx => ((outsAt3 (F := Ideal) V c t.val t.isLt).2 : FVec Ideal S512x128 .f32) (ix2 (y 0 : Fin 512) (y 1 : Fin 128))
        + (iblk3 (F := Ideal) V c 2 t : FVec Ideal S1x128 .f32) (ix2 (0 : Fin 1) (y 1 : Fin 128)))
      = val_logits3 (V c main_v5) (V c main_v20) (V c main_v17) ⟨t.val / 8, hI⟩ := by
  have hK : t.val % 8 < 8 := by omega
  have ht : t.val = 8 * (⟨t.val / 8, hI⟩ : Fin 8).val + (⟨t.val % 8, hK⟩ : Fin 8).val := by dsimp only; omega
  funext y
  have hacc := val_acc3 V c t.val t.isLt ⟨t.val / 8, hI⟩ ⟨t.val % 8, hK⟩ ht (y 0 : Fin 512) (y 1 : Fin 128)
  have hall : accUpTo (val_term3 (V c main_v5) (V c main_v20) ⟨t.val / 8, hI⟩ (y 0 : Fin 512) (y 1 : Fin 128)) ((⟨t.val % 8, hK⟩ : Fin 8).val + 1) (⟨t.val % 8, hK⟩ : Fin 8).isLt
      = ∑ j : Fin 4096, val_term3 (V c main_v5) (V c main_v20) ⟨t.val / 8, hI⟩ (y 0 : Fin 512) (y 1 : Fin 128) j :=
    (val_accUpTo_congr _ _ 8 _ le_rfl (by dsimp only; omega)).trans (Cert.GcnSpec.accUpTo_all _)
  exact congrArg₂ (fun (u v : EReal) => u + v) (hacc.trans hall) (val_blk3_2 V c t 0 (y 1 : Fin 128))

/-- What a point 8·I + 7 writes back is block I of the result. -/
theorem val_flushed3 (c : Dev nD) (t : Fin cfg3.N) (hf : (cfg3.win 3).flush t = true) :
    (dat3 V c).flushed 3 t
      = ((cfg3.win 3).blk t).view.read (Elt Ideal) (val_prop3 (V c main_v5) (V c main_v20) (V c main_v17)) := by
  have h7 : t.val % 8 = 7 := (flush3_3 t).mp hf
  have hN : cfg3.N = 64 := N_3
  have htl := t.isLt
  have hI : t.val / 8 < 8 := by omega
  have hK : t.val % 8 < 8 := by omega
  have ht : t.val = 8 * (⟨t.val / 8, hI⟩ : Fin 8).val + (⟨t.val % 8, hK⟩ : Fin 8).val := by dsimp only; omega
  show (cfg3.win 3).cut (grid3.coords t) ((dat3 V c).after 3 t) = _
  rw [after3_3, val_outAt3_C V c t h7]
  have hpay : k3_pay3 (F := Ideal) (outsAt3 V c t.val t.isLt).2 (iblk3 V c 2 t)
      = lsm (val_logits3 (V c main_v5) (V c main_v20) (V c main_v17) ⟨t.val / 8, hI⟩) :=
    (val_k3_pay3_eq (outsAt3 (F := Ideal) V c t.val t.isLt).2 (iblk3 V c 2 t)).trans (congrArg lsm (val_logits3_eq V c t h7 hI))
  rw [hpay]
  funext y
  obtain ⟨p, q, rfl⟩ : ∃ (p : Fin 512) (q : Fin 128), y = ix2 p q := ⟨y 0, y 1, eq_ix2 y⟩
  rw [View.read_apply]
  show lsm (val_logits3 (V c main_v5) (V c main_v20) (V c main_v17) ⟨t.val / 8, hI⟩) (ix2 p q)
    = val_prop3 (V c main_v5) (V c main_v20) (V c main_v17) (((cfg3.win 3).blk t).view.emb (ix2 p q))
  rw [val_emb3_3 t ⟨t.val / 8, hI⟩ ⟨t.val % 8, hK⟩ ht p q, val_prop3_at]

/-- An index of the result is in point t's output block iff each coordinate is in the block's range on its axis. -/
theorem val_mem_blk3_3 (t : Fin cfg3.N) (i : S4096x128.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v21).slice (win3_3.rect t)).set ↔ _
  rw [View.set_slice_whole, Rect.mem_set_unit]
  exact Iff.rfl

/-- Row r of the result is in the block written back at point 8·(r / 512) + 7. -/
theorem val_cover3 (i : S4096x128.Idx) : ∃ t : Fin cfg3.N, (cfg3.win 3).flush t = true ∧ i ∈ ((cfg3.win 3).blk t).view.set := by
  have hN : cfg3.N = 64 := N_3
  have hi0 : (i 0).val < 4096 := (i 0).isLt
  have hi1 : (i 1).val < 128 := (i 1).isLt
  have htl : 8 * ((i 0).val / 512) + 7 < cfg3.N := by omega
  refine ⟨⟨8 * ((i 0).val / 512) + 7, htl⟩, (flush3_3 _).mpr (by dsimp only; omega), ?_⟩
  obtain ⟨-, -, -, -, -, -, e0, e1⟩ := val_idx3 ⟨8 * ((i 0).val / 512) + 7, htl⟩
  rw [val_mem_blk3_3]
  intro a
  match a with
  | ⟨0, _⟩ =>
    show win3_3.index ⟨8 * ((i 0).val / 512) + 7, htl⟩ (0 : Fin 2) * 512 ≤ (i 0).val ∧ (i 0).val < win3_3.index ⟨8 * ((i 0).val / 512) + 7, htl⟩ (0 : Fin 2) * 512 + 512
    rw [e0]; dsimp only; omega
  | ⟨1, _⟩ =>
    show win3_3.index ⟨8 * ((i 0).val / 512) + 7, htl⟩ (1 : Fin 2) * 128 ≤ (i 1).val ∧ (i 1).val < win3_3.index ⟨8 * ((i 0).val / 512) + 7, htl⟩ (1 : Fin 2) * 128 + 128
    rw [e1]; omega

/-- THE RESULT of region 3, as one array. -/
theorem val_final3_arr (c : Dev nD) :
    (dat3 V c).arrAt 3 cfg3.N = val_prop3 (V c main_v5) (V c main_v20) (V c main_v17) :=
  (dat3 V c).arrAt_eq_of_cover 3 (val_prop3 (V c main_v5) (V c main_v20) (V c main_v17)) (fun t hf => val_flushed3 V c t hf) val_cover3

/-- THE RESULT of region 3 at row r of slab T: row r of the log-softmax of slab T of the logits a · s + b. -/
theorem val_final3 (c : Dev nD) (T : Fin 8) (r : Fin 512) (q : Fin 128) :
    (dat3 V c).arrAt 3 cfg3.N (ix2 (rowOf T r) q) = lsm (val_logits3 (V c main_v5) (V c main_v20) (V c main_v17) T) (ix2 r q) := by
  rw [val_final3_arr V c]
  exact val_prop3_at _ _ _ T r q

end Cert.RefSide.B

end
-- ==== Proof.RVal3.lean ====
/-
  The reference program's result is the specification's: region 3 leaves, slab by slab, the log-softmax of
  adj · s2 + b2 with s2 what region 2 left, and these slabs of logits are the specification's.
-/
import proofs.«180427_g2000709331088930_pallasbulk_708_2_alg».proof.Proof.RVal2
import proofs.«180427_g2000709331088930_pallasbulk_708_2_alg».proof.Proof.RVFinal3

set_option maxRecDepth 16384

noncomputable section

namespace Cert.RefSide.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.RefSide.A Cert.RefSide.B Cert.GcnSpec Idealize.ShloMosaic.ValueIdx

variable (m : (ℓ : Loc nD τ sig) → Buf (Elt Ideal) ℓ)

/-- The slab of logits region 3 applies the log-softmax to is the specification's. -/
theorem logits_eq (c : Dev nD) (T : Fin 8) :
    val_logits3 (V4 m c main_v5) (V4 m c main_v20) (V4 m c main_v17) T
      = logitSlab (ax m c) (aadj m c) (aw1 m c) (ab1 m c) (aw2 m c) (ab2 m c) T := by
  funext y
  obtain ⟨p, q, rfl⟩ : ∃ (p : Fin 512) (q : Fin 128), y = ix2 p q := ⟨y 0, y 1, eq_ix2 y⟩
  rw [val_logits3_ix2, V4_v5 m c, in_adj m c, V4_v17 m c, in_b2 m c q]
  show _ = logitAt (ax m c) (aadj m c) (aw1 m c) (ab1 m c) (aw2 m c) (ab2 m c) (rowOf T p) q
  unfold logitAt
  change @Eq EReal _ _
  refine congrArg (· + ab2 m c (ix1 q)) ?_
  exact Finset.sum_congr rfl fun j _ => congrArg (aadj m c (ix2 (rowOf T p) j) * ·) (s2_entry m c j q)

/-- What region 3's write-backs leave in the result array is the specification's function of the arguments. -/
theorem result_eq (c : Dev nD) :
    (dat3 (V4 m) c).arrAt 3 cfg3.N = out (ax m c) (aadj m c) (aw1 m c) (ab1 m c) (aw2 m c) (ab2 m c) := by
  refine funext fun (i : S4096x128.Idx) => ?_
  have hi : (i 0).val < 4096 := (i 0).isLt
  obtain ⟨T, r, q, rfl⟩ : ∃ (T : Fin 8) (r : Fin 512) (q : Fin 128), i = ix2 (rowOf T r) q := by
    refine ⟨⟨(i 0).val / 512, by omega⟩, ⟨(i 0).val % 512, Nat.mod_lt _ (by norm_num)⟩, i 1, ?_⟩
    have h0 : (i 0 : Fin 4096) = rowOf ⟨(i 0).val / 512, by omega⟩ ⟨(i 0).val % 512, Nat.mod_lt _ (by norm_num)⟩ :=
      Fin.ext (by show (i 0).val = 512 * ((i 0).val / 512) + (i 0).val % 512; omega)
    exact (eq_ix2 i).trans (congrArg (fun a : Fin 4096 => ix2 a (i 1 : Fin 128)) h0)
  rw [val_final3 (V4 m) c T r q, out_at, logits_eq m c T]
  rfl

end Cert.RefSide.Run

end
-- ==== Proof.lean ====
/-
  Both programs are a two-layer graph convolution with a log-softmax head,
      out = log_softmax (adj · (max (adj · (x · W1) + b1, 0) · W2) + b2),
  and at the ideal instance (floats are extended reals, every operation exact, a change of float format the identity) both
  end with the one function Cert.GcnSpec.out of the six argument arrays (Proof/Spec.lean).

  The kernel program runs three regions over eight slabs of 512 rows: x · W1; the first propagation with its
  rectifier fused with the product by W2; the second propagation with the log-softmax of each slab of logits.  The
  reference runs four: it pads every argument to sizes that are already its sizes (a copy), keeps the hidden layer
  as an array of its own, and computes each propagation over an 8 × 8 grid, adding the partial products of 512
  columns at a time into an accumulator carried from one grid point to the next and applying the epilogue at the
  last; it masks the logits' lanes beyond the class count, of which there are none.  The two results agree because
  a sum of 4096 products taken as eight partial sums of 512, accumulated from zero, is the whole sum: addition of
  extended reals is commutative and associative, so no finiteness of the inputs is needed, and the precondition is
  never opened.  The log-softmax of a slab is the same vector function in both programs and is applied to equal
  slabs of logits; it is never unfolded.

  The kernel program's two frames are the generated ones; its value run (Proof/KValue.lean) and the reference's frame
  and value run (Proof/RRun.lean, Proof/RVal3.lean) are read off the regions' proof data.  The idealization rewrote
  nothing, so the kernel program read at the ideal instance is its own idealization.
-/
import proofs.«180427_g2000709331088930_pallasbulk_708_2_alg».proof.Defs
import proofs.«180427_g2000709331088930_pallasbulk_708_2_alg».proof.Proof.Gen.Kernel
import proofs.«180427_g2000709331088930_pallasbulk_708_2_alg».proof.Proof.Gen.Kernel.Frame
import proofs.«180427_g2000709331088930_pallasbulk_708_2_alg».proof.Proof.Gen.KernelIdeal
import proofs.«180427_g2000709331088930_pallasbulk_708_2_alg».proof.Proof.Gen.KernelIdeal.Frame
import proofs.«180427_g2000709331088930_pallasbulk_708_2_alg».proof.Proof.Gen.ReferenceIdeal
import proofs.«180427_g2000709331088930_pallasbulk_708_2_alg».proof.Proof.Gen.Pre_finite_inputs
import proofs.«180427_g2000709331088930_pallasbulk_708_2_alg».proof.Proof.KValue
import proofs.«180427_g2000709331088930_pallasbulk_708_2_alg».proof.Proof.RVal3
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its value run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.Run.run_arr (F := Ideal) m ρ)

/-- From memories agreeing on the arguments both programs end with the specification's function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelSide.run m ρ, ?_⟩
  refine (θ_run Cert.ReferenceIdeal.defs _ _).mono (fun _ h c => ⟨(h c).1.trans ?_, (h c).2⟩)
    (Cert.RefSide.Run.run_arr (F := Ideal) m' ρ')
  rw [Cert.RefSide.Run.result_eq m' c]
  dsimp only [Cert.RefSide.Run.ax, Cert.RefSide.Run.aadj, Cert.RefSide.Run.aw1, Cert.RefSide.Run.ab1, Cert.RefSide.Run.aw2, Cert.RefSide.Run.ab2]
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
